-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x2048x2048 : Shape := ⟨4, ![16, 1, 2048, 2048]⟩
abbrev S16x16 : Shape := ⟨2, ![16, 16]⟩
abbrev S_ : Shape := ⟨0, ![]⟩

class Facts : Prop where
  bcast_S_S16x1x2048x2048 : S_.BroadcastsInDim S16x1x2048x2048 (![] : Fin 0 → Fin S16x1x2048x2048.rank)
  reducesTo_S16x1x2048x2048_S_d0_1_2_3 : S16x1x2048x2048.ReducesTo [0, 1, 2, 3] S_
  h_S_ : 0 < S_.numel
  bcast_S_S16x16 : S_.BroadcastsInDim S16x16 (![] : Fin 0 → Fin S16x16.rank)
  reducesTo_S16x16_S_d0_1 : S16x16.ReducesTo [0, 1] S_

variable [Facts]

def fn {F : FTy → Type} [FloatOps F] (main_arg0 : FVec F S16x1x2048x2048 .f32) (main_arg1 : FVec F S16x16 .f32) : IVec S_ 1 :=
  let main_v0 : FVec F S16x1x2048x2048 .f32 := Host.absf main_arg0
  let main_cst : FVec F S_ .f32 := constant S_ .f32 0x7F800000#32
  let main_v1 : FVec F S16x1x2048x2048 .f32 := broadcastInDim S16x1x2048x2048 ![] bcast_S_S16x1x2048x2048 main_cst
  let main_v2 : IVec S16x1x2048x2048 1 := cmpf .olt main_v0 main_v1
  let main_c : IVec S_ 1 := constantI S_ 1 1#1
  let main_v3 : IVec S_ 1 := (fun x v => Host.reduce IntOp.andi x v reducesTo_S16x1x2048x2048_S_d0_1_2_3 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  main_v8
-- ==== Kernel.lean ====
abbrev S16x1x2048x2048 : Shape := ⟨4, ![16, 1, 2048, 2048]⟩
abbrev S16x16 : Shape := ⟨2, ![16, 16]⟩
abbrev S16x8x4096 : Shape := ⟨3, ![16, 8, 4096]⟩
abbrev S16 : Shape := ⟨1, ![16]⟩
abbrev S4096 : Shape := ⟨1, ![4096]⟩
abbrev S_ : Shape := ⟨0, ![]⟩
abbrev S1x16 : Shape := ⟨2, ![1, 16]⟩
abbrev S1x1x4096 : Shape := ⟨3, ![1, 1, 4096]⟩
abbrev S1x8x4096 : Shape := ⟨3, ![1, 8, 4096]⟩
abbrev S1x1x2048x2048 : Shape := ⟨4, ![1, 1, 2048, 2048]⟩
abbrev S1x8x2176 : Shape := ⟨3, ![1, 8, 2176]⟩
abbrev S8x2176 : Shape := ⟨2, ![8, 2176]⟩
abbrev S8x2048 : Shape := ⟨2, ![8, 2048]⟩
abbrev S1x1x8x2048 : Shape := ⟨4, ![1, 1, 8, 2048]⟩

abbrev nBuf : Table → Nat
  | .hbm => 5
  | .local .tc .vmem => 4
  | .local .scVector .vmem => 2
  | _ => 0

abbrev bufTy : (tb : Table) → Fin (nBuf tb) → BufTy
  | .hbm, ⟨0, _⟩ => ⟨S16x1x2048x2048, .f32⟩
  | .hbm, ⟨1, _⟩ => ⟨S16x16, .f32⟩
  | .hbm, ⟨2, _⟩ => ⟨S16x16, .f32⟩
  | .hbm, ⟨3, _⟩ => ⟨S16x8x4096, .f32⟩
  | .hbm, ⟨4, _⟩ => ⟨S16x1x2048x2048, .f32⟩
  | .local .tc .vmem, ⟨0, _⟩ => ⟨S1x8x4096, .f32⟩
  | .local .tc .vmem, ⟨1, _⟩ => ⟨S1x8x4096, .f32⟩
  | .local .tc .vmem, ⟨2, _⟩ => ⟨S1x1x2048x2048, .f32⟩
  | .local .tc .vmem, ⟨3, _⟩ => ⟨S1x1x2048x2048, .f32⟩
  | .local .scVector .vmem, ⟨0, _⟩ => ⟨S16, .f32⟩
  | .local .scVector .vmem, ⟨1, _⟩ => ⟨S4096, .f32⟩
  | _, _ => ⟨S16x1x2048x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_v1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 8
abbrev cc1_sem0_1 : DmaSem sig := 9
abbrev cc1_sem1_0 : DmaSem sig := 10
abbrev cc1_sem1_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  let v4 : BitVec 32 := Scalar.addi v3 c0_i32
  let c128_i32 : BitVec 32 := 128#32
  let v5 : BitVec 1 := Scalar.cmpi .slt v4 c128_i32
  let v6 : BitVec 32 := Scalar.extui v5
  let c0_i32_0 : BitVec 32 := 0#32
  let v7 : BitVec 1 := Scalar.cmpi .ne v6 c0_i32_0
  v7

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  let v4 : BitVec 32 := Scalar.addi v3 c0_i32
  let c0_i32_11 : BitVec 32 := 0#32
  let v24 : BitVec 1 := Scalar.cmpi .sgt v4 c0_i32_11
  let v25 : BitVec 32 := Scalar.extui v24
  let c0_i32_12 : BitVec 32 := 0#32
  let v26 : BitVec 1 := Scalar.cmpi .slt v4 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v4 c8_i32
  let c0_i32_15 : BitVec 32 := 0#32
  let v36 : BitVec 1 := Scalar.cmpi .ne v35 c0_i32_15
  let v37 : BitVec 1 := Scalar.andi v34 v36
  let v23 : BitVec 32 := Scalar.divsi v4 c8_i32
  let c1_i32_16 : BitVec 32 := 1#32
  let v38 : BitVec 32 := Scalar.subi v23 c1_i32_16
  let v39 : BitVec 32 := Scalar.select v37 v38 v23
  let c0_i32_27_r0 : BitVec 32 := 0#32
  ![v39.toNat, 0]
@[reducible] def k0_t1_loop : Scf.Loop 32 :=
  let c0_i32_24 : BitVec 32 := 0#32
  let c256_i32 : BitVec 32 := 256#32
  let v50 : BitVec 32 := Scalar.addi c0_i32_24 c256_i32
  let c1_i32_25 : BitVec 32 := 1#32
  ⟨c0_i32_24, v50, c1_i32_25⟩

def k0_chk1 (i : grid0.Coords) (v61 : IVec S16 32) : Prop :=
  (∀ (k0_h1 : k0_cond1 i = 1#1), ∀ a x, ((![v61] : Fin 1 → IVec S16 32) a x).toNat < S16.size a)
instance k0_chk1.dec : ∀ (i : grid0.Coords) (v61 : IVec S16 32), Decidable (k0_chk1 i v61) := fun i v61 => decidable_of_iff' _ (Iff.of_eq (k0_chk1.eq_1 i v61))
theorem k0_idx1_inb : ∀ (i : grid0.Coords) (v61 : IVec S16 32) (k0_hw1 : k0_chk1 i v61), ∀ (k0_h1 : k0_cond1 i = 1#1), ∀ a x, ((![v61] : Fin 1 → IVec S16 32) a x).toNat < S16.size a := fun i v61 k0_hw1 k0_h1 => k0_hw1 k0_h1
def k0_off2 (k0_t1 : Fin k0_t1_loop.trips) : Fin 1 → Nat :=
  let c0_i32_24 : BitVec 32 := 0#32
  let c1_i32_25 : BitVec 32 := 1#32
  let arg6 : BitVec 32 := Scf.iv c0_i32_24 c1_i32_25 k0_t1
  let c16_i32_28 : BitVec 32 := 16#32
  let v63 : BitVec 32 := Scalar.muli arg6 c16_i32_28
  let v64 : Index := Scalar.indexCast v63
  ![v64.toNat]
def k0_off3 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  let v4 : BitVec 32 := Scalar.addi v3 c0_i32
  let c0_i32_11 : BitVec 32 := 0#32
  let v24 : BitVec 1 := Scalar.cmpi .sgt v4 c0_i32_11
  let v25 : BitVec 32 := Scalar.extui v24
  let c0_i32_12 : BitVec 32 := 0#32
  let v26 : BitVec 1 := Scalar.cmpi .slt v4 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v4 c8_i32
  let c0_i32_15 : BitVec 32 := 0#32
  let v36 : BitVec 1 := Scalar.cmpi .ne v35 c0_i32_15
  let v37 : BitVec 1 := Scalar.andi v34 v36
  let v23 : BitVec 32 := Scalar.divsi v4 c8_i32
  let c1_i32_16 : BitVec 32 := 1#32
  let v38 : BitVec 32 := Scalar.subi v23 c1_i32_16
  let v39 : BitVec 32 := Scalar.select v37 v38 v23
  let c8_i32_17 : BitVec 32 := 8#32
  let c0_i32_18 : BitVec 32 := 0#32
  let v40 : BitVec 1 := Scalar.cmpi .eq c8_i32_17 c0_i32_18
  let c1_i32_19 : BitVec 32 := 1#32
  let v41 : BitVec 32 := Scalar.select v40 c1_i32_19 c8_i32_17
  let v42 : BitVec 32 := Scalar.remsi v4 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let c0_i32_27_r1 : BitVec 32 := 0#32
  ![v39.toNat, v49.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1 : BitVec 32 := 4#32
  let v8 : BitVec 32 := Scalar.muli v1 c4_i32_1
  let c1_i32 : BitVec 32 := 1#32
  let v9 : BitVec 32 := Scalar.addi v8 c1_i32
  let c128_i32_2 : BitVec 32 := 128#32
  let v10 : BitVec 1 := Scalar.cmpi .slt v9 c128_i32_2
  let v11 : BitVec 32 := Scalar.extui v10
  let c0_i32_3 : BitVec 32 := 0#32
  let v12 : BitVec 1 := Scalar.cmpi .ne v11 c0_i32_3
  v12

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1 : BitVec 32 := 4#32
  let v8 : BitVec 32 := Scalar.muli v1 c4_i32_1
  let c1_i32 : BitVec 32 := 1#32
  let v9 : BitVec 32 := Scalar.addi v8 c1_i32
  let c0_i32_11 : BitVec 32 := 0#32
  let v24 : BitVec 1 := Scalar.cmpi .sgt v9 c0_i32_11
  let v25 : BitVec 32 := Scalar.extui v24
  let c0_i32_12 : BitVec 32 := 0#32
  let v26 : BitVec 1 := Scalar.cmpi .slt v9 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v9 c8_i32
  let c0_i32_15 : BitVec 32 := 0#32
  let v36 : BitVec 1 := Scalar.cmpi .ne v35 c0_i32_15
  let v37 : BitVec 1 := Scalar.andi v34 v36
  let v23 : BitVec 32 := Scalar.divsi v9 c8_i32
  let c1_i32_16 : BitVec 32 := 1#32
  let v38 : BitVec 32 := Scalar.subi v23 c1_i32_16
  let v39 : BitVec 32 := Scalar.select v37 v38 v23
  let c0_i32_27_r2 : BitVec 32 := 0#32
  ![v39.toNat, 0]
@[reducible] def k0_t2_loop : Scf.Loop 32 :=
  let c0_i32_24 : BitVec 32 := 0#32
  let c256_i32 : BitVec 32 := 256#32
  let v50 : BitVec 32 := Scalar.addi c0_i32_24 c256_i32
  let c1_i32_25 : BitVec 32 := 1#32
  ⟨c0_i32_24, v50, c1_i32_25⟩

def k0_chk2 (i : grid0.Coords) (v61 : IVec S16 32) : Prop :=
  (∀ (k0_h2 : k0_cond2 i = 1#1), ∀ a x, ((![v61] : Fin 1 → IVec S16 32) a x).toNat < S16.size a)
instance k0_chk2.dec : ∀ (i : grid0.Coords) (v61 : IVec S16 32), Decidable (k0_chk2 i v61) := fun i v61 => decidable_of_iff' _ (Iff.of_eq (k0_chk2.eq_1 i v61))
theorem k0_idx2_inb : ∀ (i : grid0.Coords) (v61 : IVec S16 32) (k0_hw2 : k0_chk2 i v61), ∀ (k0_h2 : k0_cond2 i = 1#1), ∀ a x, ((![v61] : Fin 1 → IVec S16 32) a x).toNat < S16.size a := fun i v61 k0_hw2 k0_h2 => k0_hw2 k0_h2
def k0_off5 (k0_t2 : Fin k0_t2_loop.trips) : Fin 1 → Nat :=
  let c0_i32_24 : BitVec 32 := 0#32
  let c1_i32_25 : BitVec 32 := 1#32
  let arg6 : BitVec 32 := Scf.iv c0_i32_24 c1_i32_25 k0_t2
  let c16_i32_28 : BitVec 32 := 16#32
  let v63 : BitVec 32 := Scalar.muli arg6 c16_i32_28
  let v64 : Index := Scalar.indexCast v63
  ![v64.toNat]
def k0_off6 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1 : BitVec 32 := 4#32
  let v8 : BitVec 32 := Scalar.muli v1 c4_i32_1
  let c1_i32 : BitVec 32 := 1#32
  let v9 : BitVec 32 := Scalar.addi v8 c1_i32
  let c0_i32_11 : BitVec 32 := 0#32
  let v24 : BitVec 1 := Scalar.cmpi .sgt v9 c0_i32_11
  let v25 : BitVec 32 := Scalar.extui v24
  let c0_i32_12 : BitVec 32 := 0#32
  let v26 : BitVec 1 := Scalar.cmpi .slt v9 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v9 c8_i32
  let c0_i32_15 : BitVec 32 := 0#32
  let v36 : BitVec 1 := Scalar.cmpi .ne v35 c0_i32_15
  let v37 : BitVec 1 := Scalar.andi v34 v36
  let v23 : BitVec 32 := Scalar.divsi v9 c8_i32
  let c1_i32_16 : BitVec 32 := 1#32
  let v38 : BitVec 32 := Scalar.subi v23 c1_i32_16
  let v39 : BitVec 32 := Scalar.select v37 v38 v23
  let c8_i32_17 : BitVec 32 := 8#32
  let c0_i32_18 : BitVec 32 := 0#32
  let v40 : BitVec 1 := Scalar.cmpi .eq c8_i32_17 c0_i32_18
  let c1_i32_19 : BitVec 32 := 1#32
  let v41 : BitVec 32 := Scalar.select v40 c1_i32_19 c8_i32_17
  let v42 : BitVec 32 := Scalar.remsi v9 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let c0_i32_27_r3 : BitVec 32 := 0#32
  ![v39.toNat, v49.toNat, 0]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v13 : BitVec 32 := Scalar.muli v1 c4_i32_4
  let c2_i32_5 : BitVec 32 := 2#32
  let v14 : BitVec 32 := Scalar.addi v13 c2_i32_5
  let c128_i32_6 : BitVec 32 := 128#32
  let v15 : BitVec 1 := Scalar.cmpi .slt v14 c128_i32_6
  let v16 : BitVec 32 := Scalar.extui v15
  let c0_i32_7 : BitVec 32 := 0#32
  let v17 : BitVec 1 := Scalar.cmpi .ne v16 c0_i32_7
  v17

def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v13 : BitVec 32 := Scalar.muli v1 c4_i32_4
  let c2_i32_5 : BitVec 32 := 2#32
  let v14 : BitVec 32 := Scalar.addi v13 c2_i32_5
  let c0_i32_11 : BitVec 32 := 0#32
  let v24 : BitVec 1 := Scalar.cmpi .sgt v14 c0_i32_11
  let v25 : BitVec 32 := Scalar.extui v24
  let c0_i32_12 : BitVec 32 := 0#32
  let v26 : BitVec 1 := Scalar.cmpi .slt v14 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v14 c8_i32
  let c0_i32_15 : BitVec 32 := 0#32
  let v36 : BitVec 1 := Scalar.cmpi .ne v35 c0_i32_15
  let v37 : BitVec 1 := Scalar.andi v34 v36
  let v23 : BitVec 32 := Scalar.divsi v14 c8_i32
  let c1_i32_16 : BitVec 32 := 1#32
  let v38 : BitVec 32 := Scalar.subi v23 c1_i32_16
  let v39 : BitVec 32 := Scalar.select v37 v38 v23
  let c0_i32_27_r4 : BitVec 32 := 0#32
  ![v39.toNat, 0]
@[reducible] def k0_t3_loop : Scf.Loop 32 :=
  let c0_i32_24 : BitVec 32 := 0#32
  let c256_i32 : BitVec 32 := 256#32
  let v50 : BitVec 32 := Scalar.addi c0_i32_24 c256_i32
  let c1_i32_25 : BitVec 32 := 1#32
  ⟨c0_i32_24, v50, c1_i32_25⟩

def k0_chk3 (i : grid0.Coords) (v61 : IVec S16 32) : Prop :=
  (∀ (k0_h3 : k0_cond3 i = 1#1), ∀ a x, ((![v61] : Fin 1 → IVec S16 32) a x).toNat < S16.size a)
instance k0_chk3.dec : ∀ (i : grid0.Coords) (v61 : IVec S16 32), Decidable (k0_chk3 i v61) := fun i v61 => decidable_of_iff' _ (Iff.of_eq (k0_chk3.eq_1 i v61))
theorem k0_idx3_inb : ∀ (i : grid0.Coords) (v61 : IVec S16 32) (k0_hw3 : k0_chk3 i v61), ∀ (k0_h3 : k0_cond3 i = 1#1), ∀ a x, ((![v61] : Fin 1 → IVec S16 32) a x).toNat < S16.size a := fun i v61 k0_hw3 k0_h3 => k0_hw3 k0_h3
def k0_off8 (k0_t3 : Fin k0_t3_loop.trips) : Fin 1 → Nat :=
  let c0_i32_24 : BitVec 32 := 0#32
  let c1_i32_25 : BitVec 32 := 1#32
  let arg6 : BitVec 32 := Scf.iv c0_i32_24 c1_i32_25 k0_t3
  let c16_i32_28 : BitVec 32 := 16#32
  let v63 : BitVec 32 := Scalar.muli arg6 c16_i32_28
  let v64 : Index := Scalar.indexCast v63
  ![v64.toNat]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_4 : BitVec 32 := 4#32
  let v13 : BitVec 32 := Scalar.muli v1 c4_i32_4
  let c2_i32_5 : BitVec 32 := 2#32
  let v14 : BitVec 32 := Scalar.addi v13 c2_i32_5
  let c0_i32_11 : BitVec 32 := 0#32
  let v24 : BitVec 1 := Scalar.cmpi .sgt v14 c0_i32_11
  let v25 : BitVec 32 := Scalar.extui v24
  let c0_i32_12 : BitVec 32 := 0#32
  let v26 : BitVec 1 := Scalar.cmpi .slt v14 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v14 c8_i32
  let c0_i32_15 : BitVec 32 := 0#32
  let v36 : BitVec 1 := Scalar.cmpi .ne v35 c0_i32_15
  let v37 : BitVec 1 := Scalar.andi v34 v36
  let v23 : BitVec 32 := Scalar.divsi v14 c8_i32
  let c1_i32_16 : BitVec 32 := 1#32
  let v38 : BitVec 32 := Scalar.subi v23 c1_i32_16
  let v39 : BitVec 32 := Scalar.select v37 v38 v23
  let c8_i32_17 : BitVec 32 := 8#32
  let c0_i32_18 : BitVec 32 := 0#32
  let v40 : BitVec 1 := Scalar.cmpi .eq c8_i32_17 c0_i32_18
  let c1_i32_19 : BitVec 32 := 1#32
  let v41 : BitVec 32 := Scalar.select v40 c1_i32_19 c8_i32_17
  let v42 : BitVec 32 := Scalar.remsi v14 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let c0_i32_27_r5 : BitVec 32 := 0#32
  ![v39.toNat, v49.toNat, 0]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_8 : BitVec 32 := 4#32
  let v18 : BitVec 32 := Scalar.muli v1 c4_i32_8
  let c3_i32 : BitVec 32 := 3#32
  let v19 : BitVec 32 := Scalar.addi v18 c3_i32
  let c128_i32_9 : BitVec 32 := 128#32
  let v20 : BitVec 1 := Scalar.cmpi .slt v19 c128_i32_9
  let v21 : BitVec 32 := Scalar.extui v20
  let c0_i32_10 : BitVec 32 := 0#32
  let v22 : BitVec 1 := Scalar.cmpi .ne v21 c0_i32_10
  v22

def k0_off10 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_8 : BitVec 32 := 4#32
  let v18 : BitVec 32 := Scalar.muli v1 c4_i32_8
  let c3_i32 : BitVec 32 := 3#32
  let v19 : BitVec 32 := Scalar.addi v18 c3_i32
  let c0_i32_11 : BitVec 32 := 0#32
  let v24 : BitVec 1 := Scalar.cmpi .sgt v19 c0_i32_11
  let v25 : BitVec 32 := Scalar.extui v24
  let c0_i32_12 : BitVec 32 := 0#32
  let v26 : BitVec 1 := Scalar.cmpi .slt v19 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v19 c8_i32
  let c0_i32_15 : BitVec 32 := 0#32
  let v36 : BitVec 1 := Scalar.cmpi .ne v35 c0_i32_15
  let v37 : BitVec 1 := Scalar.andi v34 v36
  let v23 : BitVec 32 := Scalar.divsi v19 c8_i32
  let c1_i32_16 : BitVec 32 := 1#32
  let v38 : BitVec 32 := Scalar.subi v23 c1_i32_16
  let v39 : BitVec 32 := Scalar.select v37 v38 v23
  let c0_i32_27_r6 : BitVec 32 := 0#32
  ![v39.toNat, 0]
@[reducible] def k0_t4_loop : Scf.Loop 32 :=
  let c0_i32_24 : BitVec 32 := 0#32
  let c256_i32 : BitVec 32 := 256#32
  let v50 : BitVec 32 := Scalar.addi c0_i32_24 c256_i32
  let c1_i32_25 : BitVec 32 := 1#32
  ⟨c0_i32_24, v50, c1_i32_25⟩

def k0_chk4 (i : grid0.Coords) (v61 : IVec S16 32) : Prop :=
  (∀ (k0_h4 : k0_cond4 i = 1#1), ∀ a x, ((![v61] : Fin 1 → IVec S16 32) a x).toNat < S16.size a)
instance k0_chk4.dec : ∀ (i : grid0.Coords) (v61 : IVec S16 32), Decidable (k0_chk4 i v61) := fun i v61 => decidable_of_iff' _ (Iff.of_eq (k0_chk4.eq_1 i v61))
theorem k0_idx4_inb : ∀ (i : grid0.Coords) (v61 : IVec S16 32) (k0_hw4 : k0_chk4 i v61), ∀ (k0_h4 : k0_cond4 i = 1#1), ∀ a x, ((![v61] : Fin 1 → IVec S16 32) a x).toNat < S16.size a := fun i v61 k0_hw4 k0_h4 => k0_hw4 k0_h4
def k0_off11 (k0_t4 : Fin k0_t4_loop.trips) : Fin 1 → Nat :=
  let c0_i32_24 : BitVec 32 := 0#32
  let c1_i32_25 : BitVec 32 := 1#32
  let arg6 : BitVec 32 := Scf.iv c0_i32_24 c1_i32_25 k0_t4
  let c16_i32_28 : BitVec 32 := 16#32
  let v63 : BitVec 32 := Scalar.muli arg6 c16_i32_28
  let v64 : Index := Scalar.indexCast v63
  ![v64.toNat]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_8 : BitVec 32 := 4#32
  let v18 : BitVec 32 := Scalar.muli v1 c4_i32_8
  let c3_i32 : BitVec 32 := 3#32
  let v19 : BitVec 32 := Scalar.addi v18 c3_i32
  let c0_i32_11 : BitVec 32 := 0#32
  let v24 : BitVec 1 := Scalar.cmpi .sgt v19 c0_i32_11
  let v25 : BitVec 32 := Scalar.extui v24
  let c0_i32_12 : BitVec 32 := 0#32
  let v26 : BitVec 1 := Scalar.cmpi .slt v19 c0_i32_12
  let v27 : BitVec 32 := Scalar.extui v26
  let v28 : BitVec 32 := Scalar.subi v25 v27
  let c8_i32 : BitVec 32 := 8#32
  let c0_i32_13 : BitVec 32 := 0#32
  let v29 : BitVec 1 := Scalar.cmpi .sgt c8_i32 c0_i32_13
  let v30 : BitVec 32 := Scalar.extui v29
  let c0_i32_14 : BitVec 32 := 0#32
  let v31 : BitVec 1 := Scalar.cmpi .slt c8_i32 c0_i32_14
  let v32 : BitVec 32 := Scalar.extui v31
  let v33 : BitVec 32 := Scalar.subi v30 v32
  let v34 : BitVec 1 := Scalar.cmpi .ne v28 v33
  let v35 : BitVec 32 := Scalar.remsi v19 c8_i32
  let c0_i32_15 : BitVec 32 := 0#32
  let v36 : BitVec 1 := Scalar.cmpi .ne v35 c0_i32_15
  let v37 : BitVec 1 := Scalar.andi v34 v36
  let v23 : BitVec 32 := Scalar.divsi v19 c8_i32
  let c1_i32_16 : BitVec 32 := 1#32
  let v38 : BitVec 32 := Scalar.subi v23 c1_i32_16
  let v39 : BitVec 32 := Scalar.select v37 v38 v23
  let c8_i32_17 : BitVec 32 := 8#32
  let c0_i32_18 : BitVec 32 := 0#32
  let v40 : BitVec 1 := Scalar.cmpi .eq c8_i32_17 c0_i32_18
  let c1_i32_19 : BitVec 32 := 1#32
  let v41 : BitVec 32 := Scalar.select v40 c1_i32_19 c8_i32_17
  let v42 : BitVec 32 := Scalar.remsi v19 v41
  let c0_i32_21 : BitVec 32 := 0#32
  let v44 : BitVec 1 := Scalar.cmpi .slt v42 c0_i32_21
  let c0_i32_22 : BitVec 32 := 0#32
  let v45 : BitVec 1 := Scalar.cmpi .slt v41 c0_i32_22
  let v46 : BitVec 1 := Scalar.xori v44 v45
  let c0_i32_20 : BitVec 32 := 0#32
  let v43 : BitVec 1 := Scalar.cmpi .ne v42 c0_i32_20
  let v47 : BitVec 1 := Scalar.andi v46 v43
  let v48 : BitVec 32 := Scalar.addi v42 v41
  let v49 : BitVec 32 := Scalar.select v47 v48 v42
  let c0_i32_27_r7 : BitVec 32 := 0#32
  ![v39.toNat, v49.toNat, 0]
abbrev grid1 : Pipeline.Grid := ⟨2, ![16, 1], ![false, false]⟩

def k1_off1 (i : grid1.Coords) (c0_i32 : BitVec 32) : Fin 3 → Nat :=
  let c0 : Index := 0#32
  let c0_7 : Index := 0#32
  let c2047_i32 : BitVec 32 := 2047#32
  let arg1 : BitVec 32 := BitVec.ofNat 32 (i 1).val
  let c2048_i32 : BitVec 32 := 2048#32
  let v0 : BitVec 32 := Scalar.muli arg1 c2048_i32
  let v1 : BitVec 32 := Scalar.subi c2047_i32 v0
  let c8_i32 : BitVec 32 := 8#32
  let v2 : BitVec 32 := Scalar.muli c8_i32 c0_i32
  let v3 : BitVec 32 := Scalar.subi v1 v2
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c128_i32 : BitVec 32 := 128#32
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let v4 : BitVec 32 := Scalar.divsi v3 c128_i32
  let c1_i32 : BitVec 32 := 1#32
  let v19 : BitVec 32 := Scalar.subi v4 c1_i32
  let v20 : BitVec 32 := Scalar.select v18 v19 v4
  let c128_i32_6 : BitVec 32 := 128#32
  let v23 : BitVec 32 := Scalar.muli v20 c128_i32_6
  let v24 : Index := Scalar.indexCast v23
  ![0, 0, v24.toNat]
def k1_off2 (c0_i32 : BitVec 32) : Fin 4 → Nat :=
  let c0_9 : Index := 0#32
  let c0_10 : Index := 0#32
  let c8_i32_8 : BitVec 32 := 8#32
  let v30 : BitVec 32 := Scalar.muli c8_i32_8 c0_i32
  let v31 : Index := Scalar.indexCast v30
  let c0_11 : Index := 0#32
  ![0, 0, v31.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x8x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16x16_S16x16_1_0 : S16x16.Transposes [1, 0] S16x16
  iota_S16_d0_w32_scVector : S16.Iotas .scVector 32 [0]
  squeezes_S1x16_S16 : S1x16.Squeezes S16
  h_S16 : 0 < S16.numel
  squeezes_S1x1x4096_S4096 : S1x1x4096.Squeezes S4096
  h_S1x8x2176 : 0 < S1x8x2176.numel
  shapeCasts_S1x8x2176_S8x2176 : S1x8x2176.ShapeCasts S8x2176
  rotates_S8x2176_d1 : S8x2176.Rotates 1 none
  slices_S8x2176_o0_0_S8x2048 : S8x2176.Slices ![0, 0] S8x2048
  h_S1x1x8x2048 : 0 < S1x1x8x2048.numel
  shapeCasts_S1x1x8x2048_S8x2048 : S1x1x8x2048.ShapeCasts S8x2048
  shapeCasts_S8x2048_S1x1x8x2048 : S8x2048.ShapeCasts S1x1x8x2048
  hcc0_scoped0 : 0 + S_.numel ≤ 12
  hcc0_scoped1 : 1 + S_.numel ≤ 12
  hcc0_scoped2 : 2 + S_.numel ≤ 12
  hcc0_scoped3 : 3 + S_.numel ≤ 12
  hcc0_scoped4 : 4 + S_.numel ≤ 12
  hcc0_scoped5 : 5 + S_.numel ≤ 12
  hcc0_scoped6 : 6 + S_.numel ≤ 12
  hcc0_scoped7 : 7 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S1x16.size a ≤ S16x16.size a
  k0_t1_ok : ∀ i : grid0.Coords, ∀ (k0_h1 : k0_cond1 i = 1#1), k0_t1_loop.OK
  k0_off2_inb : ∀ (i : grid0.Coords) (k0_t1 : Fin k0_t1_loop.trips), ∀ (k0_h1 : k0_cond1 i = 1#1), ∀ a, (k0_off2 k0_t1) a + S16.size a ≤ S4096.size a
  k0_off3_inb : ∀ i : grid0.Coords, ∀ (k0_h1 : k0_cond1 i = 1#1), ∀ a, (k0_off3 i) a + S1x1x4096.size a ≤ S16x8x4096.size a
  k0_off4_inb : ∀ i : grid0.Coords, ∀ (k0_h2 : k0_cond2 i = 1#1), ∀ a, (k0_off4 i) a + S1x16.size a ≤ S16x16.size a
  k0_t2_ok : ∀ i : grid0.Coords, ∀ (k0_h2 : k0_cond2 i = 1#1), k0_t2_loop.OK
  k0_off5_inb : ∀ (i : grid0.Coords) (k0_t2 : Fin k0_t2_loop.trips), ∀ (k0_h2 : k0_cond2 i = 1#1), ∀ a, (k0_off5 k0_t2) a + S16.size a ≤ S4096.size a
  k0_off6_inb : ∀ i : grid0.Coords, ∀ (k0_h2 : k0_cond2 i = 1#1), ∀ a, (k0_off6 i) a + S1x1x4096.size a ≤ S16x8x4096.size a
  k0_off7_inb : ∀ i : grid0.Coords, ∀ (k0_h3 : k0_cond3 i = 1#1), ∀ a, (k0_off7 i) a + S1x16.size a ≤ S16x16.size a
  k0_t3_ok : ∀ i : grid0.Coords, ∀ (k0_h3 : k0_cond3 i = 1#1), k0_t3_loop.OK
  k0_off8_inb : ∀ (i : grid0.Coords) (k0_t3 : Fin k0_t3_loop.trips), ∀ (k0_h3 : k0_cond3 i = 1#1), ∀ a, (k0_off8 k0_t3) a + S16.size a ≤ S4096.size a
  k0_off9_inb : ∀ i : grid0.Coords, ∀ (k0_h3 : k0_cond3 i = 1#1), ∀ a, (k0_off9 i) a + S1x1x4096.size a ≤ S16x8x4096.size a
  k0_off10_inb : ∀ i : grid0.Coords, ∀ (k0_h4 : k0_cond4 i = 1#1), ∀ a, (k0_off10 i) a + S1x16.size a ≤ S16x16.size a
  k0_t4_ok : ∀ i : grid0.Coords, ∀ (k0_h4 : k0_cond4 i = 1#1), k0_t4_loop.OK
  k0_off11_inb : ∀ (i : grid0.Coords) (k0_t4 : Fin k0_t4_loop.trips), ∀ (k0_h4 : k0_cond4 i = 1#1), ∀ a, (k0_off11 k0_t4) a + S16.size a ≤ S4096.size a
  k0_off12_inb : ∀ i : grid0.Coords, ∀ (k0_h4 : k0_cond4 i = 1#1), ∀ a, (k0_off12 i) a + S1x1x4096.size a ≤ S16x8x4096.size a
  hrank1 : 0 < grid1.rank
  k1_off1_inb : ∀ i : grid1.Coords, ∀ (r : Fin 256), ∀ a, (k1_off1 i (BitVec.ofNat 32 r.val)) a + S1x8x2176.size a ≤ S1x8x4096.size a
  k1_off2_inb : ∀ (r : Fin 256), ∀ a, (k1_off2 (BitVec.ofNat 32 r.val)) a + S1x1x8x2048.size a ≤ S1x1x2048x2048.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x4096.size a ≤ S16x8x4096.size a
  hwx1_0 : ∀ i : grid1.Coords, EltTy.bits .f32 = 32 ∨ (Rect.block (s := S16x8x4096) S1x8x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x2048.size a ≤ S16x1x2048x2048.size a
  hwx1_1 : ∀ i : grid1.Coords, EltTy.bits .f32 = 32 ∨ (Rect.block (s := S16x1x2048x2048) S1x1x2048x2048.size (cc1_transform_1 i) (hinb1_1 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3
abbrev cc0_scoped4 : DmaSems sig S_ := SemArray.consecutive 4 S_ hcc0_scoped4
abbrev cc0_scoped5 : DmaSems sig S_ := SemArray.consecutive 5 S_ hcc0_scoped5
abbrev cc0_scoped6 : DmaSems sig S_ := SemArray.consecutive 6 S_ hcc0_scoped6
abbrev cc0_scoped7 : DmaSems sig S_ := SemArray.consecutive 7 S_ hcc0_scoped7

abbrev win1_0 : Pipeline.Window sig grid1 :=
  Pipeline.Window.ofSpec (Memref.whole main_v1) S1x8x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x2048x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S16x1x2048x2048 : Shape := ⟨4, ![16, 1, 2048, 2048]⟩
abbrev S16x16 : Shape := ⟨2, ![16, 16]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S4194304 : Shape := ⟨1, ![4194304]⟩
abbrev S4194304x1 : Shape := ⟨2, ![4194304, 1]⟩
abbrev S1 : Shape := ⟨1, ![1]⟩
abbrev S1x1 : Shape := ⟨2, ![1, 1]⟩
abbrev S4194304x16 : Shape := ⟨2, ![4194304, 16]⟩
abbrev S2048x2048x16 : Shape := ⟨3, ![2048, 2048, 16]⟩
abbrev S16x2048x2048 : Shape := ⟨3, ![16, 2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x1x2048x2048, .f32⟩
  | .hbm, ⟨1, _⟩ => ⟨S16x16, .f32⟩
  | .hbm, ⟨2, _⟩ => ⟨S2048, .i32⟩
  | .hbm, ⟨3, _⟩ => ⟨S2048x1, .i32⟩
  | .hbm, ⟨4, _⟩ => ⟨S2048, .i32⟩
  | .hbm, ⟨5, _⟩ => ⟨S1x2048, .i32⟩
  | .hbm, ⟨6, _⟩ => ⟨S2048x2048, .i32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S_, .i32⟩
  | .hbm, ⟨18, _⟩ => ⟨S2048x2048, .i32⟩
  | .hbm, ⟨19, _⟩ => ⟨S2048x2048, .i32⟩
  | .hbm, ⟨20, _⟩ => ⟨S4194304, .i32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S4194304, .i32⟩
  | .hbm, ⟨28, _⟩ => ⟨S4194304x1, .i32⟩
  | .hbm, ⟨29, _⟩ => ⟨S1, .i32⟩
  | .hbm, ⟨30, _⟩ => ⟨S_, .i32⟩
  | .hbm, ⟨31, _⟩ => ⟨S4194304x1, .i32⟩
  | .hbm, ⟨32, _⟩ => ⟨S4194304x1, .i1⟩
  | .hbm, ⟨33, _⟩ => ⟨S1x1, .i32⟩
  | .hbm, ⟨34, _⟩ => ⟨S4194304x1, .i32⟩
  | .hbm, ⟨35, _⟩ => ⟨S4194304x1, .i1⟩
  | .hbm, ⟨36, _⟩ => ⟨S4194304x1, .i1⟩
  | .hbm, ⟨37, _⟩ => ⟨S_, .i1⟩
  | .hbm, ⟨38, _⟩ => ⟨S4194304, .i1⟩
  | .hbm, ⟨39, _⟩ => ⟨S4194304x16, .f32⟩
  | .hbm, ⟨40, _⟩ => ⟨S4194304x16, .i1⟩
  | .hbm, ⟨41, _⟩ => ⟨S_, .f32⟩
  | .hbm, ⟨42, _⟩ => ⟨S4194304x16, .f32⟩
  | .hbm, ⟨43, _⟩ => ⟨S4194304x16, .f32⟩
  | .hbm, ⟨44, _⟩ => ⟨S2048x2048x16, .f32⟩
  | .hbm, ⟨45, _⟩ => ⟨S16x2048x2048, .f32⟩
  | .hbm, ⟨46, _⟩ => ⟨S16x1x2048x2048, .f32⟩
  | _, _ => ⟨S16x1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_call1_cst : Ref sig .tc := ⟨.hbm, 41, rfl⟩
abbrev main_call1_v15 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩

abbrev nD : Nat := 1
abbrev τ : Topo := Topo.v7x

variable {F : FTy → Type} [FloatOps F]

class Facts₀ : Prop where
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  shapeCasts_S2048x2048_S4194304 : S2048x2048.ShapeCasts S4194304
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  reducesTo_S4194304x1_S4194304_d1 : S4194304x1.ReducesTo [1] S4194304
  h_S_ : 0 < S_.numel
  bcast_S4194304_S4194304x16_0 : S4194304.BroadcastsInDim S4194304x16 (![0] : Fin 1 → Fin S4194304x16.rank)
  bcast_S_S4194304x16 : S_.BroadcastsInDim S4194304x16 (![] : Fin 0 → Fin S4194304x16.rank)
  shapeCasts_S4194304x16_S2048x2048x16 : S4194304x16.ShapeCasts S2048x2048x16
  transposes_S2048x2048x16_S16x2048x2048_2_0_1 : S2048x2048x16.Transposes [2, 0, 1] S16x2048x2048
  bcast_S16x2048x2048_S16x1x2048x2048_0_2_3 : S16x2048x2048.BroadcastsInDim S16x1x2048x2048 (![0, 2, 3] : Fin 3 → Fin S16x1x2048x2048.rank)
  gather_S16x16_S4194304x1_S4194304x16_1_0_n_n_0_1_116_wf : GatherDims.WF S16x16 S4194304x1 S4194304x16 [1] [0] [] [0] [] 1 ![1, 16]

variable [Facts₀]

def gather_S16x16_S4194304x1_S4194304x16_1_0_n_n_0_1_116 : GatherDims S16x16 S4194304x1 S4194304x16 where
  offsetDims := [1]
  collapsedSliceDims := [0]
  operandBatchingDims := []
  startIndicesBatchingDims := []
  startIndexMap := [0]
  indexVectorDim := 1
  sliceSizes := ![1, 16]
  wf := gather_S16x16_S4194304x1_S4194304x16_1_0_n_n_0_1_116_wf

class Facts : Prop extends Facts₀ where

variable [Facts]
-- ==== Proof.Spec.lean ====
/-
  The mathematics of the relative-position bias, with no program in sight.

  For a table `W` of 16 rows and 16 columns the result is the array `out[h, 0, i, j] = W[r(i, j), h]` where
  `r(i, j) = clip(j - i, -7, 7) + 7`, the signed offset of column `j` from row `i`, clipped to seven places on either
  side and shifted into `0 … 14`. On the naturals, with truncated subtraction, `r(i, j) = min 14 (j + 7 - i)`.

  The kernel reaches it in two steps. First a profile table `v2[h, s, p] = W[min 14 (p - s - 2040), h]` over
  `p < 4096`: for each head `h` and each of eight row residues `s` the whole diagonal profile, laid out so that a
  row `i = 8 g + s` of the result is the window of 2048 entries starting at `p = 2047 - 8 g`. Then each row is that
  window: `out[h, 0, 8 g + s, j] = v2[h, s, 2047 - 8 g + j]`. The two agree because
  `(2047 - 8 g + j) - s - 2040 = j + 7 - (8 g + s)` wherever the left side is not truncated, and both sides are `0`
  where it is. Everything here is a re-indexing of `W`: no arithmetic on the entries, so it holds for any entry type.
-/
import Idealize.ShloMosaic.Lib.ValueIdx

namespace Cert.Spec

open Idealize.ShloMosaic Idealize.ShloMosaic.ValueIdx

abbrev SW : Shape := ⟨2, ![16, 16]⟩
abbrev SV2 : Shape := ⟨3, ![16, 8, 4096]⟩
abbrev SOut : Shape := ⟨4, ![16, 1, 2048, 2048]⟩

/-- The clipped, shifted offset of column `j` from row `i`: `clip(j - i, -7, 7) + 7`. -/
def rel (i j : Nat) : Nat := min 14 (j + 7 - i)

theorem rel_lt (i j : Nat) : rel i j < 16 := by unfold rel; omega

/-- The same offset read off a profile position `p` for the row residue `s`: `clip(p - s - 2040, 0, 14)`. -/
def prof (s p : Nat) : Nat := min 14 (p - s - 2040)

theorem prof_lt (s p : Nat) : prof s p < 16 := by unfold prof; omega

/-- Row `i = 8 g + s` of the result starts at profile position `2047 - 8 g`. -/
theorem prof_window (i j : Nat) (hi : i < 2048) : prof (i % 8) (2047 - 8 * (i / 8) + j) = rel i j := by
  unfold prof rel; omega

theorem window_lt (i j : Nat) (hi : i < 2048) (hj : j < 2048) : 2047 - 8 * (i / 8) + j < 4096 := by omega

/-- The transposed table, `wt[h, k] = W[k, h]`. -/
def transposed {α : Type} (W : SW.Idx → α) : SW.Idx → α :=
  fun y => W (ix2 (⟨(y 1).val, (y 1).isLt⟩ : Fin 16) (⟨(y 0).val, (y 0).isLt⟩ : Fin 16))

/-- The profile table `v2[h, s, p] = W[prof s p, h]`. -/
def profile {α : Type} (W : SW.Idx → α) : SV2.Idx → α :=
  fun y => W (ix2 (⟨prof (y 1).val (y 2).val, prof_lt _ _⟩ : Fin 16) (⟨(y 0).val, (y 0).isLt⟩ : Fin 16))

/-- The profile table read off the transposed table, as the first stage sees it: `v2[h, s, p] = wt[h, prof s p]`. -/
def profileT {α : Type} (wt : SW.Idx → α) : SV2.Idx → α :=
  fun y => wt (ix2 (⟨(y 0).val, (y 0).isLt⟩ : Fin 16) (⟨prof (y 1).val (y 2).val, prof_lt _ _⟩ : Fin 16))

/-- Reading the profile off the transposed table is reading it off the table. -/
theorem profileT_transposed {α : Type} (W : SW.Idx → α) : profileT (transposed W) = profile W := rfl

/-- Each row of the result is a window of a profile: `out[h, 0, i, j] = v2[h, i % 8, 2047 - 8 (i / 8) + j]`. -/
def windows {α : Type} (v2 : SV2.Idx → α) : SOut.Idx → α :=
  fun y => v2 (ix3 (⟨(y 0).val, (y 0).isLt⟩ : Fin 16) (⟨(y 2).val % 8, Nat.mod_lt _ (by decide)⟩ : Fin 8)
    (⟨2047 - 8 * ((y 2).val / 8) + (y 3).val, window_lt _ _ (y 2).isLt (y 3).isLt⟩ : Fin 4096))

abbrev SV2Blk : Shape := ⟨3, ![1, 8, 4096]⟩
abbrev SOutBlk : Shape := ⟨4, ![1, 1, 2048, 2048]⟩

/-- One head at a time: the head's block of the result is the windows of the head's block of the profile table,
    `blk[0, 0, i, j] = x[0, i % 8, 2047 - 8 (i / 8) + j]`. -/
def windowsBlock {α : Type} (x : SV2Blk.Idx → α) : SOutBlk.Idx → α :=
  fun y => x (ix3 (0 : Fin 1) (⟨(y 2).val % 8, Nat.mod_lt _ (by decide)⟩ : Fin 8)
    (⟨2047 - 8 * ((y 2).val / 8) + (y 3).val, window_lt _ _ (y 2).isLt (y 3).isLt⟩ : Fin 4096))

/-- The result, `out[h, 0, i, j] = W[rel i j, h]`. -/
def bias {α : Type} (W : SW.Idx → α) : SOut.Idx → α :=
  fun y => W (ix2 (⟨rel (y 2).val (y 3).val, rel_lt _ _⟩ : Fin 16) (⟨(y 0).val, (y 0).isLt⟩ : Fin 16))

/-- The windows of the profile table are the result. -/
theorem windows_profile {α : Type} (W : SW.Idx → α) : windows (profile W) = bias W := by
  funext y
  unfold windows profile bias
  congr 1
  refine congrArg₂ ix2 (Fin.ext ?_) (Fin.ext rfl)
  exact prof_window _ _ (y 2).isLt

end Cert.Spec
-- ==== Proof.KB.Setup.lean ====
/-
  What the launch of the program and the proofs of its two kernels share: the program as the launch theorem of a
  SparseCore program reads it, the ghost state (the handshakes' rounds, the rounds of the second kernel's staging cells,
  the counters of local copies), the five arrays as locations of a device, and what each handshake carries.

  The first kernel runs on the thirty-two vector subcores. Subcore `i` of SparseCore `c` does four tasks
  `t = 4 (2 i + c) + u`, `u < 4`: head `h = t / 8 = i`, row residue `s = t % 8 = 4 c + u`. It reads row `i` of the
  transposed table (so do both SparseCores: each holds half a share of it) and writes rows `(i, 4 c + u)` of the
  profile table, which nobody else touches. So a SparseCore is handed half a share of the transposed table and the
  sixty-four profile rows `(h, 4 c + u)`; a subcore its row of the former and its four rows of the latter; and they
  come back with the profile rows holding the profile of the transposed table.
-/
import proofs.«204505_g54743653155399_cont_9to1_m_379_15_alg».proof.Kernel
import proofs.«204505_g54743653155399_cont_9to1_m_379_15_alg».proof.Proof.Gen.Kernel
import proofs.«204505_g54743653155399_cont_9to1_m_379_15_alg».proof.Proof.Spec
import Idealize.ShloMosaic.Lib.SparseCore.Launch
import Idealize.ShloMosaic.Lib.Pipeline.Kit
import Idealize.ShloMosaic.Lib.Pipeline.Regions
import Idealize.ShloMosaic.Lib.Tactic

noncomputable section

namespace Cert.Proof.Kernel.Setup

open Cert.Kernel

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the local copies' counters -/

abbrev UH : Type := URounds (GSem nD τ sig) ℕ
abbrev UP : Type := URounds (GSem nD τ sig) Unit
abbrev UU : Type := UH × (UP × Counters)

/-- The model every assertion of this proof is about. -/
abbrev MM (F : FTy → Type) : Type := MT nD τ sig (HIx 1) (Elt F) ℕ UU ℕ

local notation "𝕄" => MM F

/-- The handshakes' rounds: the left factor. -/
abbrev EH : Emb UH (MM F) := embL
/-- The staging cells' rounds: the left factor of the right factor. -/
def EP : Emb UP (MM F) := (Emb.inl : Emb UP (UP × Counters)).trans embR

instance EP_landsIn : (EP : Emb UP (MM F)).LandsIn (upEmb : UEmb _ (MM F)) := by unfold EP; infer_instance

/-! ## The arrays -/

variable (m : (ℓ : Loc nD τ sig) → Buf (Elt F) ℓ) (ρ : Dev nD → PrngReg)

/-- `attn` and `W` (the arguments), the transposed table, the profile table, the result, as locations of device `d`. -/
abbrev aLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

/-- The transposed table and the profile table as the program's later stages find them: functions of `W` at launch. -/
def wtVal (d : Dev nD) : Buf (Elt F) (tLoc d) := Cert.Spec.transposed (m (wLoc d))
def v2Val (d : Dev nD) : Buf (Elt F) (pLoc d) := Cert.Spec.profileT (wtVal m d)
def outVal (d : Dev nD) : Buf (Elt F) (oLoc d) := Cert.Spec.windows (v2Val m d)

theorem outVal_eq (d : Dev nD) : outVal m d = Cert.Spec.bias (m (wLoc d)) := by
  unfold outVal v2Val wtVal
  rw [Cert.Spec.profileT_transposed, Cert.Spec.windows_profile]

/-- Row `h` of the transposed table; row `(h, r)` of the profile table. -/
def tRow (h : Fin 16) : Finset S16x16.Idx := Finset.univ.filter fun y => (y 0).val = h.val
def pRow (h : Fin 16) (r : Fin 8) : Finset S16x8x4096.Idx := Finset.univ.filter fun y => (y 0).val = h.val ∧ (y 1).val = r.val

/-- The half of the full share SparseCore `c` reads the transposed table with. -/
def half (c : ℕ) : PosShare TreeShare := if c = 0 then fullShare.left else fullShare.right

/-- The residue of subcore-task `u` on SparseCore `c`: `4 c + u`. -/
def res (c : Fin 2) (u : Fin 4) : Fin 8 := ⟨4 * c.val + u.val, by omega⟩

variable [FloatOps F]

/-- What SparseCore `c` is handed: half a share of the transposed table, its sixty-four profile rows at `f`. -/
def forCore (d : Dev nD) (c : Fin 2) (f : Buf (Elt F) (pLoc d)) : sProp 𝕄 :=
  iprop((tLoc d ↦{half c.val} wtVal m d)
    ∗ bigSep Finset.univ fun i : Fin 16 => bigSep Finset.univ fun u : Fin 4 => pLoc d ↦[pRow i (res c u)]{fullShare} f)

/-- What subcore `i` of SparseCore `c` is handed: its row of the transposed table at that share, its four profile rows at `f`. -/
def forTile (d : Dev nD) (c : Fin 2) (i : Fin 16) (f : Buf (Elt F) (pLoc d)) : sProp 𝕄 :=
  iprop((tLoc d ↦[tRow i]{half c.val} wtVal m d)
    ∗ bigSep Finset.univ fun u : Fin 4 => pLoc d ↦[pRow i (res c u)]{fullShare} f)

/-- The one SparseCore call: out with the profile rows at their launch contents, back with them at the profile of the
    transposed table. Neither kernel's proof consumes anything of the launch's. -/
def P : (K (F := F)).Pay (nD := nD) (Val := Elt F) (Name := ℕ) (U := UU) where
  st := fun q d c => match q with | 0 => forCore m d (Fin.cast nCore_zero c) (m (pLoc d))
  dn := fun q d c => match q with | 0 => forCore m d (Fin.cast nCore_zero c) (v2Val m d)
  go := fun q d c i => match q with | 0 => forTile m d (Fin.cast nCore_zero c) (Fin.cast nSub_zero i) (m (pLoc d))
  td := fun q d c i => match q with | 0 => forTile m d (Fin.cast nCore_zero c) (Fin.cast nSub_zero i) (v2Val m d)
  x := fun _ _ => iprop(emp)

instance forCore_storable (d : Dev nD) (c : Fin 2) (f : Buf (Elt F) (pLoc d)) : BI.Storable (upEmb : UEmb _ 𝕄) (forCore m d c f) := by
  unfold forCore; infer_instance
instance forTile_storable (d : Dev nD) (c : Fin 2) (i : Fin 16) (f : Buf (Elt F) (pLoc d)) : BI.Storable (upEmb : UEmb _ 𝕄) (forTile m d c i f) := by
  unfold forTile; infer_instance

instance P_storable : (P (F := F) m).IsStorable where
  st q d c := match q with | 0 => (inferInstance : BI.Storable (upEmb : UEmb _ 𝕄) (forCore m d (Fin.cast nCore_zero c) (m (pLoc d))))
  dn q d c := match q with | 0 => (inferInstance : BI.Storable (upEmb : UEmb _ 𝕄) (forCore m d (Fin.cast nCore_zero c) (v2Val m d)))
  go q d c i := match q with | 0 => (inferInstance : BI.Storable (upEmb : UEmb _ 𝕄) (forTile m d (Fin.cast nCore_zero c) (Fin.cast nSub_zero i) (m (pLoc d))))
  td q d c i := match q with | 0 => (inferInstance : BI.Storable (upEmb : UEmb _ 𝕄) (forTile m d (Fin.cast nCore_zero c) (Fin.cast nSub_zero i) (v2Val m d)))

end Cert.Proof.Kernel.Setup

end
-- ==== Proof.KB.Split.lean ====
/-
  How the arrays divide among the SparseCores and their subcores, and come back together.

  The rows of the transposed table are pairwise disjoint and cover it; so are the rows `(h, r)` of the profile table.
  Hence what a SparseCore holds — half a share of the whole transposed table, its sixty-four profile rows — IS what its
  sixteen subcores hold together, before the tasks and after them; and the transposed table at the full share with
  the whole profile table IS what the two SparseCores hold together. Because every profile row comes back holding the
  ONE whole-array function, the rows rejoin to the array at that function with no piecing.
-/
import proofs.«204505_g54743653155399_cont_9to1_m_379_15_alg».proof.Proof.KB.Setup

noncomputable section

namespace Cert.Proof.Kernel.Split

open Cert.Kernel Cert.Proof.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The rows partition the arrays -/

theorem tRows_disjoint : ∀ i ∈ (Finset.univ : Finset (Fin 16)), ∀ j ∈ (Finset.univ : Finset (Fin 16)), i ≠ j → Disjoint (tRow i) (tRow j) :=
  fun i _ j _ hne => Finset.disjoint_filter.mpr fun _ _ h1 h2 => hne (Fin.ext (h1.symm.trans h2))

theorem tRows_cover : (Finset.univ : Finset (Fin 16)).biUnion tRow = Finset.univ := by
  ext y
  simp only [Finset.mem_biUnion, Finset.mem_univ, true_and, iff_true, tRow, Finset.mem_filter]
  exact ⟨⟨(y 0).val, (y 0).isLt⟩, rfl⟩

/-- A profile row is named by a SparseCore, a subcore and a task of it. -/
abbrev pRowOf (x : Fin 2 × Fin 16 × Fin 4) : Finset S16x8x4096.Idx := pRow x.2.1 (res x.1 x.2.2)

theorem res_injective : ∀ c c' : Fin 2, ∀ u u' : Fin 4, res c u = res c' u' → c = c' ∧ u = u' := by
  intro c c' u u' h
  have h' : 4 * c.val + u.val = 4 * c'.val + u'.val := congrArg Fin.val h
  exact ⟨Fin.ext (by omega), Fin.ext (by omega)⟩

theorem pRows_disjoint : ∀ x ∈ (Finset.univ : Finset (Fin 2 × Fin 16 × Fin 4)), ∀ x' ∈ (Finset.univ : Finset (Fin 2 × Fin 16 × Fin 4)),
    x ≠ x' → Disjoint (pRowOf x) (pRowOf x') := by
  intro x _ x' _ hne
  refine Finset.disjoint_filter.mpr fun y _ h1 h2 => hne ?_
  have hi : x.2.1 = x'.2.1 := Fin.ext (h1.1.symm.trans h2.1)
  have hr : res x.1 x.2.2 = res x'.1 x'.2.2 := Fin.ext (h1.2.symm.trans h2.2)
  obtain ⟨hc, hu⟩ := res_injective _ _ _ _ hr
  exact Prod.ext hc (Prod.ext hi hu)

theorem pRows_cover : (Finset.univ : Finset (Fin 2 × Fin 16 × Fin 4)).biUnion pRowOf = Finset.univ := by
  ext y
  simp only [Finset.mem_biUnion, Finset.mem_univ, true_and, iff_true, pRowOf, pRow, Finset.mem_filter]
  have h1 : (y 1).val < 8 := (y 1).isLt
  refine ⟨(⟨(y 1).val / 4, by omega⟩, ⟨(y 0).val, (y 0).isLt⟩, ⟨(y 1).val % 4, Nat.mod_lt _ (by decide)⟩), rfl, ?_⟩
  show (y 1).val = 4 * ((y 1).val / 4) + (y 1).val % 4
  omega

/-! ## A SparseCore's holdings are its subcores' -/

theorem tPts_rows (d : Dev nD) (q : PosShare TreeShare) (f : Buf (Elt F) (tLoc d)) :
    (tLoc d ↦{q} f : sProp 𝕄) = bigSep Finset.univ fun i : Fin 16 => tLoc d ↦[tRow i]{q} f := by
  rw [← pointsTo_biUnion Finset.univ (ℓ := tLoc d) tRow tRows_disjoint, tRows_cover]; try rfl

variable (m : (ℓ : Loc nD τ sig) → Buf (Elt F) ℓ) [FloatOps F]

theorem forCore_eq (d : Dev nD) (c : Fin 2) (f : Buf (Elt F) (pLoc d)) :
    forCore m d c f = bigSep Finset.univ fun i : Fin 16 => forTile m d c i f := by
  unfold forCore forTile
  rw [bigSep_sep', tPts_rows]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands for a SparseCore are its tasks' together, and so are its results. -/
theorem vecSplit : (K (F := F)).VecSplit' (P m) 0 := by
  intro d c
  show forCore m d (Fin.cast nCore_zero c) (m (pLoc d)) ⊢ |={Set.univ}=> iprop(
      (bigSep Finset.univ fun i : Fin ((K (F := F)).nSub 0) => forTile m d (Fin.cast nCore_zero c) (Fin.cast nSub_zero i) (m (pLoc d)))
      ∗ ((bigSep Finset.univ fun i : Fin ((K (F := F)).nSub 0) => forTile m d (Fin.cast nCore_zero c) (Fin.cast nSub_zero i) (v2Val m d))
          -∗ forCore m d (Fin.cast nCore_zero c) (v2Val m d)))
  rw [bigSep_tasks (F := F) (fun i => forTile m d (Fin.cast nCore_zero c) i (m (pLoc d))),
    bigSep_tasks (F := F) (fun i => forTile m d (Fin.cast nCore_zero c) i (v2Val m d)), forCore_eq, forCore_eq]
  iintro H; imodintro
  isplitl [H]; · iexact H
  iintro H; iexact H

/-! ## The arrays are the two SparseCores' holdings -/

theorem pPts_rows (d : Dev nD) (f : Buf (Elt F) (pLoc d)) :
    (pLoc d ↦{fullShare} f : sProp 𝕄)
      = bigSep Finset.univ fun c : Fin 2 => bigSep Finset.univ fun i : Fin 16 => bigSep Finset.univ fun u : Fin 4 => pLoc d ↦[pRow i (res c u)]{fullShare} f := by
  rw [← bigSep_congr (fun c _ => bigSep_univ_prod (fun x : Fin 16 × Fin 4 => (pLoc d ↦[pRow x.1 (res c x.2)]{fullShare} f : sProp 𝕄))),
    ← bigSep_univ_prod (fun x : Fin 2 × Fin 16 × Fin 4 => (pLoc d ↦[pRowOf x]{fullShare} f : sProp 𝕄)),
    ← pointsTo_biUnion Finset.univ (ℓ := pLoc d) pRowOf pRows_disjoint, pRows_cover]; try rfl

theorem tPts_halves (d : Dev nD) (f : Buf (Elt F) (tLoc d)) :
    (tLoc d ↦{fullShare} f : sProp 𝕄) ⊣⊢ iprop((tLoc d ↦{half (0 : Fin 2).val} f) ∗ tLoc d ↦{half (1 : Fin 2).val} f) :=
  pointsTo_share (PosShare.mem_left_op_right fullShare)

/-- The transposed table at the full share and the whole profile table at `f` are what the two SparseCores hold. -/
theorem cores_of_arrays (d : Dev nD) (f : Buf (Elt F) (pLoc d)) :
    iprop((tLoc d ↦{fullShare} wtVal m d) ∗ pLoc d ↦{fullShare} f) ⊣⊢ (iprop(forCore m d 0 f ∗ forCore m d 1 f) : sProp 𝕄) := by
  unfold forCore
  rw [pPts_rows, show (Finset.univ : Finset (Fin 2)) = {0, 1} by decide, SparseCore.bigSep_insert' (by decide), bigSep_singleton]
  constructor
  · iintro ⟨Ht, H0, H1⟩
    ihave Ht' := (tPts_halves d _).1 $$ Ht
    icases Ht' with ⟨Ht0, Ht1⟩
    isplitl [Ht0 H0]
    · isplitl [Ht0]; · iexact Ht0
      iexact H0
    · isplitl [Ht1]; · iexact Ht1
      iexact H1
  · iintro ⟨⟨Ht0, H0⟩, Ht1, H1⟩
    isplitl [Ht0 Ht1]
    · iapply (tPts_halves d _).2
      isplitl [Ht0]; · iexact Ht0
      iexact Ht1
    · isplitl [H0]; · iexact H0
      iexact H1

end Cert.Proof.Kernel.Split

end
-- ==== Proof.KB.Region.lean ====
/-
  The second kernel as one region of @main: the head-by-head pipeline that turns each head's block of the profile
  table into the head's block of the result.

  The grid has sixteen points, one per head `h`. At point `h` the pipeline fetches the block `[h, :, :]` of the profile
  table, the body writes the block `[h, 0, :, :]` of the result as the windows of what it fetched
  (`blk[0, 0, i, j] = x[0, i % 8, 2047 - 8 (i / 8) + j]`), and the pipeline writes it back. The blocks of the result
  tile it, so after the last point the result is the windows of the whole profile table.
-/
import proofs.«204505_g54743653155399_cont_9to1_m_379_15_alg».proof.Proof.KB.Setup
import proofs.«204505_g54743653155399_cont_9to1_m_379_15_alg».proof.Proof.Gen.Kernel.Launch
import proofs.«204505_g54743653155399_cont_9to1_m_379_15_alg».proof.Proof.Gen.Kernel.Points
import Idealize.ShloMosaic.Lib.Pipeline.Frame
import Idealize.ShloMosaic.Lib.Pipeline.FrameBody
import Idealize.ShloMosaic.Lib.Pipeline.Value

set_option maxRecDepth 16384

noncomputable section

namespace Cert.Proof.Kernel.Region

open Cert.Kernel Cert.Kernel.Gen Cert.Proof.Kernel.Setup

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What the body does, as the proof of the body supplies it -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body run once at symbolic operands: from the input buffer at `f0` and the output buffer at anything it returns with
    the input as it was and the output at a function of `f0` alone, which reads as the windows of what `f0` reads as. -/
structure BodySpec (F : FTy → Type) [FloatOps F] where
  run : (c : Dev nD) → (i : grid1.Coords) → (M0 : Memref sig .tc .vmem S1x8x4096 .f32) → (h0 : M0.IsWhole)
    → (M1 : Memref sig .tc .vmem S1x1x2048x2048 .f32) → (h1 : M1.IsWhole) → (f0 : Bf (F := F) c M0) →
    { W : Bf (F := F) c M1 // ∀ (f1 : Bf (F := F) c M1) (E : Set ℕ) (Q : PUnit → sProp (MM F)),
        iprop(pt c M0 f0 ∗ pt c M1 f1 ∗ (iprop(pt c M0 f0 ∗ pt c M1 W) -∗ Q ⟨⟩))
          ⊢ wp frame (wpE (defs₀ (F := F)) Variants.none c none) E (cc1__lambda_ i M0 h0 M1 h1) Q }
  read : ∀ (c : Dev nD) (i : grid1.Coords) (M0 : Memref sig .tc .vmem S1x8x4096 .f32) (h0 : M0.IsWhole)
    (M1 : Memref sig .tc .vmem S1x1x2048x2048 .f32) (h1 : M1.IsWhole) (f0 : Bf (F := F) c M0),
    M1.view.read (Elt F) (run c i M0 h0 M1 h1 f0).1 = Cert.Spec.windowsBlock (M0.view.read (Elt F) f0)

variable (B : BodySpec F)

/-! ## The pipeline's proof data -/

abbrev adm : (p : Fin 1) → (pcfgs (F := F) p).Adm := fun p => (cfgs p).toPCfg_adm

-- the TensorCore's arrays on core `c` as the region finds them
variable (c : Dev nD) (Vc : (b : Ref sig .tc) → Buf (Elt F) ((c : Thread nD τ).loc b))

/-- The head's block of the profile table at point `t`. -/
def iblk (t : Fin cfg1.N) : ((cfg1.win 0).xblock (cfg1.grid.coords t)).Idx → Elt F (cfg1.win 0).elt :=
  ((cfg1.win 0).blk t).view.read (Elt F) (Vc (Pipeline.arrRef spec1 0))

/-- The level bound the TensorCore's recorded waits keep through the region: those of its handshakes so far. -/
def recBound : Set (SemLoc sig × HIx 1) := {p | (K (F := F)).lev ((c : Thread nD τ), p.1) p.2 ≤ 8}

/-- The proof data: the arrays as the region finds them; after the body at point `t` the input's buffer at its block and
    the output's at the windows of it; no invariant; nothing owed; the recorded waits below the bound. -/
def dat : Dat τ (Elt F) (HIx 1) ℕ UU ℕ cfg1 c where
  A w := Vc (Pipeline.arrRef spec1 w)
  after w t := match w with
    | ⟨0, _⟩ => iblk c Vc t
    | ⟨1, _⟩ => Cert.Spec.windowsBlock (iblk c Vc t)
  Φ _ := iprop(emp)
  q _ := fullShare
  owed _ := 0
  recorded _ := recBound (F := F) c

theorem A_eq (w : Fin cfg1.W) : (dat (F := F) c Vc).A w = Vc (Pipeline.arrRef spec1 w) := by dsimp only [dat]
theorem after_0 (t : Fin cfg1.N) : (dat (F := F) c Vc).after 0 t = iblk c Vc t := by dsimp only [dat]
theorem after_1 (t : Fin cfg1.N) : (dat (F := F) c Vc).after 1 t = Cert.Spec.windowsBlock (iblk c Vc t) := by dsimp only [dat]

/-- The input's current staging buffer holds the head's block at every point. -/
theorem before_0 (t : Fin cfg1.N) (d) : (dat (F := F) c Vc).before 0 t d = iblk c Vc t :=
  ((dat (F := F) c Vc).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-! ## The body obligation -/

theorem hst0 (t : Fin cfg1.N) : (st1_0 t).IsWhole := hstage1_0 ((cfg1.slots t 0).cast nbuf1_0)
theorem hst1 (t : Fin cfg1.N) : (st1_1 t).IsWhole := hstage1_1 ((cfg1.slots t 1).cast nbuf1_1)

def bodyPre (t : Fin cfg1.N) : sProp 𝕄 :=
  iprop((dat (F := F) c Vc).Φ t.castSucc ∗ (dat (F := F) c Vc).owesAt none t.castSucc
    ∗ (∃ d, owns (c : Thread nD τ) (st1_0 t) fullShare ((dat (F := F) c Vc).before 0 t d))
    ∗ (∃ d, owns (c : Thread nD τ) (st1_1 t) fullShare ((dat (F := F) c Vc).before 1 t d)))

def bodyPost (t : Fin cfg1.N) : sProp 𝕄 :=
  iprop((dat (F := F) c Vc).Φ t.succ ∗ (dat (F := F) c Vc).owesAt none t.succ
    ∗ owns (c : Thread nD τ) (st1_0 t) fullShare ((dat (F := F) c Vc).after 0 t)
    ∗ owns (c : Thread nD τ) (st1_1 t) fullShare ((dat (F := F) c Vc).after 1 t))

include B in
/-- The body at any point: the input's buffer holds the head's block, the body leaves the windows of it in the output's. -/
theorem sound_body (t : Fin cfg1.N) :
    bodyPre c Vc t ⊢ wp frame (wpE (defs₀ (F := F)) Variants.none c none) Set.univ (bodyAt1 t) (fun _ => bodyPost c Vc t) := by
  unfold bodyPre bodyPost bodyAt1
  simp only [before_0]
  rw [show (dat (F := F) c Vc).Φ t.succ = (dat (F := F) c Vc).Φ t.castSucc from rfl,
    show (dat (F := F) c Vc).owesAt none t.succ = (dat (F := F) c Vc).owesAt none t.castSucc from rfl, after_0, after_1]
  unfold owns
  rw [(hst0 t).set_eq_univ, (hst1 t).set_eq_univ]
  iintro ⟨HΦ, HO, ⟨%d0, %f0, %hf0, H0⟩, ⟨%d1, %f1, %hf1, H1⟩⟩
  iapply ((B.run c (grid1.coords t) (st1_0 t) (hst0 t) (st1_1 t) (hst1 t) f0).2 f1 Set.univ _)
  isplitl [H0]; · iexact H0
  isplitl [H1]; · iexact H1
  iintro ⟨H0, H1⟩
  isplitl [HΦ]; · iexact HΦ
  isplitl [HO]; · iexact HO
  isplitl [H0]
  · iexists f0; isplitr; · ipureintro; exact hf0
    iexact H0
  iexists _; isplitr
  swap; · iexact H1
  ipureintro
  rw [B.read, hf0]

include B in
theorem body_obligation : BodyObligation (dat (F := F) c Vc) (defs₀ (F := F)) Variants.none none Set.univ := fun t => by
  rw [bigSep_W1, bigSep_W1]
  exact sound_body B c Vc t

/-! ## The result after the last point -/

section Final

/-- The printed index maps over the sixteen points: both windows move along the head axis together and stay at the
    origin of the other axes. -/
theorem idx_facts : ∀ t : Fin cfg1.N, win1_0.index t (0 : Fin 3) = win1_1.index t (0 : Fin 4)
    ∧ win1_0.index t (1 : Fin 3) = 0 ∧ win1_0.index t (2 : Fin 3) = 0
    ∧ win1_1.index t (1 : Fin 4) = 0 ∧ win1_1.index t (2 : Fin 4) = 0 ∧ win1_1.index t (3 : Fin 4) = 0
    ∧ win1_1.index t (0 : Fin 4) ≤ 15 :=
  (by decide +kernel : ∀ t : Fin grid1.N, _)

/-- Every head is some point's. -/
theorem idx_onto : ∀ q0 : Fin 16, ∃ t : Fin cfg1.N, win1_1.index t = ![q0.val, 0, 0, 0] :=
  (by decide +kernel : ∀ q0 : Fin 16, ∃ t : Fin grid1.N, win1_1.index t = ![q0.val, 0, 0, 0])

/-- What point `t` writes back is block `t` of the windows of the whole profile table: the windows of a head's block
    are the head's block of the windows. -/
theorem flushed_eq (t : Fin cfg1.N) :
    (dat (F := F) c Vc).flushed 1 t
      = ((cfg1.win 1).blk t).view.read (Elt F) (Cert.Spec.windows (Vc (Pipeline.arrRef spec1 0))) := by
  show (cfg1.win 1).cut (grid1.coords t) ((dat (F := F) c Vc).after 1 t) = _
  rw [after_1]
  obtain ⟨e0, e1, e2, e3, e4, e5, e6⟩ := idx_facts t
  funext j
  show Vc (Pipeline.arrRef spec1 0) (((cfg1.win 0).blk t).view.emb
        (ValueIdx.ix3 (0 : Fin 1) (⟨(j 2).val % 8, Nat.mod_lt _ (by decide)⟩ : Fin 8)
          (⟨2047 - 8 * ((j 2).val / 8) + (j 3).val, Cert.Spec.window_lt _ _ (j 2).isLt (j 3).isLt⟩ : Fin 4096)))
      = Cert.Spec.windows (Vc (Pipeline.arrRef spec1 0)) (((cfg1.win 1).blk t).view.emb j)
  unfold Cert.Spec.windows
  refine congrArg (Vc (Pipeline.arrRef spec1 0)) (funext fun a => Fin.ext ?_)
  have hj0 : (j 0).val < 1 := (j 0).isLt
  have hj1 : (j 1).val < 1 := (j 1).isLt
  have hj2 : (j 2).val < 2048 := (j 2).isLt
  have hj3 : (j 3).val < 2048 := (j 3).isLt
  match a with
  | ⟨0, _⟩ =>
    show win1_0.index t (0 : Fin 3) * 1 + 1 * 0 = win1_1.index t (0 : Fin 4) * 1 + 1 * (j 0).val
    omega
  | ⟨1, _⟩ =>
    show win1_0.index t (1 : Fin 3) * 8 + 1 * ((j 2).val % 8) = (win1_1.index t (2 : Fin 4) * 2048 + 1 * (j 2).val) % 8
    omega
  | ⟨2, _⟩ =>
    show win1_0.index t (2 : Fin 3) * 4096 + 1 * (2047 - 8 * ((j 2).val / 8) + (j 3).val)
      = 2047 - 8 * ((win1_1.index t (2 : Fin 4) * 2048 + 1 * (j 2).val) / 8) + (win1_1.index t (3 : Fin 4) * 2048 + 1 * (j 3).val)
    omega

/-- An index of the result is in point `t`'s block iff each coordinate is in the block's range on its axis. -/
theorem mem_blk (t : Fin cfg1.N) (i : S16x1x2048x2048.Idx) :
    i ∈ ((cfg1.win 1).blk t).view.set ↔ ∀ a : Fin 4, win1_1.index t a * S1x1x2048x2048.size a ≤ (i a).val
      ∧ (i a).val < win1_1.index t a * S1x1x2048x2048.size a + S1x1x2048x2048.size a := by
  show i ∈ ((View.whole main_v2).slice (win1_1.rect t)).set ↔ _
  rw [View.set_slice_whole, Rect.mem_set_unit]
  exact Iff.rfl

/-- Every index of the result is in some point's block: its head's. -/
theorem covered (i : S16x1x2048x2048.Idx) : ∃ t : Fin cfg1.N, (cfg1.win 1).flush t = true ∧ i ∈ ((cfg1.win 1).blk t).view.set := by
  have hi0 : (i 0).val < 16 := (i 0).isLt
  have hi1 : (i 1).val < 1 := (i 1).isLt
  have hi2 : (i 2).val < 2048 := (i 2).isLt
  have hi3 : (i 3).val < 2048 := (i 3).isLt
  obtain ⟨t, ht⟩ := idx_onto ⟨(i 0).val, hi0⟩
  have q0 : win1_1.index t (0 : Fin 4) = (i 0).val := congrFun ht 0
  have q1 : win1_1.index t (1 : Fin 4) = 0 := congrFun ht 1
  have q2 : win1_1.index t (2 : Fin 4) = 0 := congrFun ht 2
  have q3 : win1_1.index t (3 : Fin 4) = 0 := congrFun ht 3
  refine ⟨t, flush1_1 t, ?_⟩
  rw [mem_blk]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 1 ≤ (i 1).val ∧ (i 1).val < win1_1.index t (1 : Fin 4) * 1 + 1; omega
  | ⟨2, _⟩ => show win1_1.index t (2 : Fin 4) * 2048 ≤ (i 2).val ∧ (i 2).val < win1_1.index t (2 : Fin 4) * 2048 + 2048; omega
  | ⟨3, _⟩ => show win1_1.index t (3 : Fin 4) * 2048 ≤ (i 3).val ∧ (i 3).val < win1_1.index t (3 : Fin 4) * 2048 + 2048; omega

/-- The result after the last point: the windows of the profile table as the region found it. -/
theorem final_out : (dat (F := F) c Vc).arrAt 1 cfg1.N = Cert.Spec.windows (Vc (Pipeline.arrRef spec1 0)) := by
  funext i
  rw [(dat (F := F) c Vc).arrAt_eq_piecewise 1 _ (fun t _ => flushed_eq c Vc t) i]
  exact if_pos (covered i)

/-- The profile table after the last point: as the region found it (the pipeline only reads it). -/
theorem final_in : (dat (F := F) c Vc).arrAt 0 cfg1.N = Vc (Pipeline.arrRef spec1 0) :=
  ((dat (F := F) c Vc).arrAt_in 0 rfl _).trans (A_eq c Vc 0)

end Final

/-! ## The region -/

section Seg

-- every core's TensorCore arrays as the region finds them
variable (VV : (c : Dev nD) → (b : Ref sig .tc) → Buf (Elt F) ((c : Thread nD τ).loc b))

def pdats : (p : Fin 1) → (c : Dev nD) → Dat τ (Elt F) (HIx 1) ℕ UU ℕ (Pipeline.pin (pcfgs (F := F)) adm p) c
  | 0 => fun c => dat c (VV c)

abbrev LL : GSem nD τ sig → Finset (HIx 1) := (K (F := F)).L
abbrev lvl : GSem nD τ sig → HIx 1 → ℕ := (K (F := F)).lev

/-- What the core holds beside its arrays when it enters the region: it owes nothing, its recorded waits below the bound. -/
def owesIn (c : Dev nD) : sProp 𝕄 := iprop(∃ W : Waits sig (HIx 1), ⌜(↑W : Set (SemLoc sig × HIx 1)) ⊆ recBound (F := F) c⌝ ∗ owes (c : Thread nD τ) 0 W)

include B in
/-- The region: the profile table and the result into the pipeline, the other arrays bypassing, the core owing nothing
    throughout; it leaves with the two arrays at what the pipeline computes from the proof data. -/
def reg : Pipeline.RegionSeg (pcfgs (F := F)) adm (pdats VV) none defs₀ 𝒱₀ (LL (F := F)) (lvl (F := F)) 0 where
  win := launch1.win.to₀
  block_pos := launch1.block_pos
  stage_whole := launch1.stage_whole
  K := PEmpty
  osem k := k.elim
  ho := Pipeline.OwnSemFacts.none _
  hbody c := (body_obligation B c (VV c)).loose
  hwaits c := (show (levAts (LL (F := F)) (lvl (F := F)) : sProp 𝕄) ⊢ emp by iintro -; iempintro).trans
    (Pipeline.cellsWaits_of_owed_zero _ (pdats VV) none 0 c fun _ => rfl)
  pre c := iprop(unscopedBufs c (VV c) ∗ owesIn c)
  post c := iprop((pdats VV 0 c).arrays ((pdats VV 0 c).arrAt · (Pipeline.pin (pcfgs (F := F)) adm 0).N)
    ∗ Pipeline.unscopedRest (Ix := HIx 1) (Name := ℕ) (U := UU) (Lvl := ℕ) spec1 c (VV c)
    ∗ (pdats VV 0 c).owesAt none (Fin.last (Pipeline.pin (pcfgs (F := F)) adm 0).N))
  X _ := iprop(emp)
  Y _ := iprop(emp)
  Z c := Pipeline.unscopedRest (Ix := HIx 1) (Name := ℕ) (U := UU) (Lvl := ℕ) spec1 c (VV c)
  hentry c := by
    rw [Pipeline.ownSems0_none]
    have hsplit := Pipeline.arrays_of_unscopedBufs (pcfgs (F := F)) adm (pdats VV) launch1.win launch1.arr_whole c
      ((pdats VV 0 c).share_full fun _ => rfl) (VV c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesIn
      icases HO with ⟨%W, %hW, HO⟩
      iexists W; isplitr; · ipureintro; exact fun p hp => Or.inl (hW hp)
      iexact HO
    isplitr; · iempintro
    iexact Hr
  hin c := by iintro -; iempintro
  hout c := by
    rw [Pipeline.ownSems0_none, scopedRest1_eq]
    iintro -; isplitr; · iempintro
    isplitr <;> iempintro
  hexit c := by
    iintro ⟨Ha, HO, -, Hz⟩
    imodintro
    isplitl [Ha]; · iexact Ha
    isplitl [Hz]; · iexact Hz
    iexact HO

end Seg

end Cert.Proof.Kernel.Region

end
-- ==== Proof.KB.Launch.lean ====
/-
  The launch of the program: the first kernel's task as the launch theorem's obligation, the launch element of the
  ghost state, and @main on the TensorCore — the transposition, the SparseCore call, the region of the second kernel.
-/
import proofs.«204505_g54743653155399_cont_9to1_m_379_15_alg».proof.Proof.KB.Setup
import proofs.«204505_g54743653155399_cont_9to1_m_379_15_alg».proof.Proof.KB.Split
import proofs.«204505_g54743653155399_cont_9to1_m_379_15_alg».proof.Proof.KB.Region
import Idealize.ShloMosaic.Lib.StableHlo.Run
import Idealize.ShloMosaic.Lib.ValueLayout

noncomputable section

namespace Cert.Proof.Kernel.Launch

open Cert.Kernel Cert.Kernel.Gen Cert.Proof.Kernel.Setup Cert.Proof.Kernel.Split

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MM F

variable (m : (ℓ : Loc nD τ sig) → Buf (Elt F) ℓ) (ρ : Dev nD → PrngReg)

/-! ## The first kernel's task, as the launch theorem asks for it -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

variable [FloatOps F]

/-- The task of the subcore at grid coordinates `L`: from its row of the transposed table and its four profile rows at
    their launch contents, the kernel function runs to its return with the four rows at the profile of the transposed
    table, the subcore's own storage as it found it, owing what it owed. -/
def TileStmt : Prop :=
  ∀ (d : Dev nD) (L : grid0.Coords) (O : CellTallies nD τ sig (HIx 1)) (W : Waits sig (HIx 1)), (∀ g, O g none = 0) →
    iprop(levAts (K (F := F)).L (K (F := F)).lev ∗ forTile m d (cL L) (iL L) (m (pLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__lambda_ L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7)
          fun _ => iprop(forTile m d (cL L) (iL L) (v2Val m d) ∗ scopedBufs (V d (cV L) (jV L)) ∗ scopedSems0 (V d (cV L) (jV L))
            ∗ ∃ W', ⌜∀ p ∈ W', p ∈ W ∨ p.2 = none⌝ ∗ owes (V d (cV L) (jV L)) O W')

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__lambda_ (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scoped0 cc0_scoped1 cc0_scoped2 cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A X G' B C D' : sProp 𝕄} : iprop(A ∗ X ∗ G' ∗ B ∗ C ∗ D') ⊢ iprop(A ∗ G' ∗ B ∗ C ∗ D') := by
  iintro ⟨HA, -, HG, HB, HC, HD⟩
  isplitl [HA]; · iexact HA
  isplitl [HG]; · iexact HG
  isplitl [HB]; · iexact HB
  isplitl [HC]; · iexact HC
  iexact HD

theorem tileObl (hT : TileStmt m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((hT d (coordsV ⟨_, hc.1⟩ ⟨_, hc.2⟩) O W hO).trans (wp_mono frame _ _ fun _ => obl_post))

omit [FloatOps F] in
/-- Of the right factor's pair, at the counters' unit, the staging cells' rounds are the left. -/
theorem ownU_pair' (a : UP) :
    (BI.own ((embR : Emb (UP × Counters) (MM F)) (a, 1)) : sProp 𝕄) ⊢ BI.own ((EP : Emb UP (MM F)) a) :=
  Entails.of_eq rfl

/-! ## The launch element: the handshakes' rounds, the staging cells' rounds; nothing of the first kernel's own -/

abbrev cfgsP : Fin 1 → Pipeline.Cfg sig Λ₀ := Pipeline.pin (pcfgs (F := F)) Region.adm

theorem cellOf_injP : Function.Injective (Pipeline.cellOf (nD := nD) (τ := τ) (cfgsP (F := F))) := cellOf_inj

def u₀ : UU := (initOf (K (F := F)).hsCells (K (F := F)).hsToks,
  (initOf (Pipeline.cells (cfgsP (F := F)) cellOf_injP) (Pipeline.launchToks (cfgsP (F := F)) cellOf_injP), 1))

/-- What @main's proof starts from on device `d` beside what the launch deals every TensorCore: the ghost state of the
    second kernel's staging cells. -/
def G (d : Dev nD) : sProp 𝕄 :=
  iprop(Pipeline.cellsGhost (cfgsP (F := F)) EP 0 d ∗ Pipeline.toksInit (cfgsP (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (ownU_pair' _) $$ HR
  imod (Pipeline.fund_ghost (cfgsP (F := F)) EP cellOf_injP) $$ HR' with ⟨Hcg, Htk⟩
  imodintro
  isplitl [HH]; · iexact HH
  isplitl [Hcg Htk]
  · unfold G
    rw [bigSep_sep']
    isplitl [Hcg]
    · ihave Hcg' := (Entails.of_eq (show (bigSep Finset.univ fun d : Dev nD => bigSep Finset.univ fun p : Fin 1 => (Pipeline.cellsGhost (cfgsP (F := F)) EP p d : sProp 𝕄))
          = bigSep Finset.univ fun d : Dev nD => Pipeline.cellsGhost (cfgsP (F := F)) EP 0 d from bigSep_congr fun d _ => bigSep_univ_of_subsingleton (0 : Fin 1))) $$ Hcg
      iexact Hcg'
    · ihave Htk' := (Entails.of_eq (show (bigSep Finset.univ fun d : Dev nD => bigSep Finset.univ fun p : Fin 1 => (Pipeline.toksInit (cfgsP (F := F)) EP p d : sProp 𝕄))
          = bigSep Finset.univ fun d : Dev nD => Pipeline.toksInit (cfgsP (F := F)) EP 0 d from bigSep_congr fun d _ => bigSep_univ_of_subsingleton (0 : Fin 1))) $$ Htk
      iexact Htk'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev w' : DevRef τ sig := Proc.devRef .tc (main_arg1 : Ref sig .tc)
abbrev t' : DevRef τ sig := Proc.devRef .tc (main_v0 : Ref sig .tc)
abbrev p' : DevRef τ sig := Proc.devRef .tc (main_v1 : Ref sig .tc)
abbrev o' : DevRef τ sig := Proc.devRef .tc (main_v2 : Ref sig .tc)

/-- @main's first statement: the table transposed. -/
abbrev opT : HloOp τ sig (Elt F) :=
  StableHlo.unary main_arg1 main_v0 ((transpose S16x16 [1, 0] · transposes_S16x16_S16x16_1_0) : (⟨S16x16, .f32⟩ : BufTy).Contents (Elt F) → (⟨S16x16, .f32⟩ : BufTy).Contents (Elt F))

/-- The TensorCore's five arrays, all unscoped. -/
abbrev S5 : Finset (DevRef τ sig) := {a', w', t', p', o'}

omit [FloatOps F] in
theorem held_S5 (d : Dev nD) (W : Valuation τ sig (Elt F)) :
    (held (T d) S5 W : sProp 𝕄) = iprop((aLoc d ↦{fullShare} W a') ∗ (wLoc d ↦{fullShare} W w') ∗ (tLoc d ↦{fullShare} W t')
      ∗ (pLoc d ↦{fullShare} W p') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (tLoc d ↦{fullShare} W main_v0)
      ∗ (pLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the transposition; after the SparseCore call. -/
def V0 (d : Dev nD) : Valuation τ sig (Elt F) := fun b => m (d, b)
def V1 (d : Dev nD) : Valuation τ sig (Elt F) := (opT (F := F)).result (V0 m d)
def V2 (d : Dev nD) : Valuation τ sig (Elt F) := Function.update (V1 m d) p' (v2Val m d)

theorem unscoped_held (d : Dev nD) : (unscopedBufs d (fun b => m ((SparseCore.T d).loc b)) : sProp 𝕄) = held (T d) S5 (V0 m d) := by
  rw [unscopedBufs_eq, held_S5]; rfl

/-- The host transposition is the transposed table of the specification. -/
theorem transpose_eq (X : (⟨S16x16, .f32⟩ : BufTy).Contents (Elt F)) :
    (transpose S16x16 [1, 0] X transposes_S16x16_S16x16_1_0 : (⟨S16x16, .f32⟩ : BufTy).Contents (Elt F)) = Cert.Spec.transposed X := by
  funext y
  rw [ValueIdx.eq_ix2 y]
  exact (ValueIdx.transpose_ix2_apply X transposes_S16x16_S16x16_1_0 (y 0) (y 1)).trans rfl

theorem V1_t (d : Dev nD) : V1 m d t' = wtVal m d :=
  (StableHlo.unary_result _ _ _ _ _ _).trans (transpose_eq _)
theorem V1_a (d : Dev nD) : V1 m d a' = m (aLoc d) := (opT (F := F)).result_of_not_mem (V0 m d) (b := a') (show a' ∉ ({t'} : Finset (DevRef τ sig)) by decide)
theorem V1_w (d : Dev nD) : V1 m d w' = m (wLoc d) := (opT (F := F)).result_of_not_mem (V0 m d) (b := w') (show w' ∉ ({t'} : Finset (DevRef τ sig)) by decide)
theorem V1_p (d : Dev nD) : V1 m d p' = m (pLoc d) := (opT (F := F)).result_of_not_mem (V0 m d) (b := p') (show p' ∉ ({t'} : Finset (DevRef τ sig)) by decide)
theorem V1_o (d : Dev nD) : V1 m d o' = m (oLoc d) := (opT (F := F)).result_of_not_mem (V0 m d) (b := o') (show o' ∉ ({t'} : Finset (DevRef τ sig)) by decide)

theorem hT5 : (opT (F := F)).bufs ⊆ S5 := show ({w', t'} : Finset (DevRef τ sig)) ⊆ S5 by decide

/-- What the call takes for the two SparseCores, and what it hands back. -/
theorem st0_eq (d : Dev nD) : (bigSep Finset.univ fun c : Fin ((K (F := F)).nCore 0) => (P m).st 0 d c)
    = iprop(forCore m d 0 (m (pLoc d)) ∗ forCore m d 1 (m (pLoc d))) := by
  show (bigSep (Finset.univ : Finset (Fin 2)) fun c => forCore m d c (m (pLoc d))) = _
  rw [show (Finset.univ : Finset (Fin 2)) = {0, 1} by decide, SparseCore.bigSep_insert' (by decide), bigSep_singleton]
theorem dn0_eq (d : Dev nD) : (bigSep Finset.univ fun c : Fin ((K (F := F)).nCore 0) => (P m).dn 0 d c)
    = iprop(forCore m d 0 (v2Val m d) ∗ forCore m d 1 (v2Val m d)) := by
  show (bigSep (Finset.univ : Finset (Fin 2)) fun c => forCore m d c (v2Val m d)) = _
  rw [show (Finset.univ : Finset (Fin 2)) = {0, 1} by decide, SparseCore.bigSep_insert' (by decide), bigSep_singleton]

/-- What @main leaves the claim: the arguments at their launch contents, the result at the windows of the profile of the
    transposed table. -/
def FIN (d : Dev nD) : sProp 𝕄 :=
  iprop((aLoc d ↦{fullShare} m (aLoc d)) ∗ (wLoc d ↦{fullShare} m (wLoc d)) ∗ oLoc d ↦{fullShare} outVal m d)

/-- The region's entry valuation over the TensorCore's references: the transposed table and the profile table computed,
    the rest as launched. -/
def VV (d : Dev nD) (b : Ref sig .tc) : Buf (Elt F) ((d : Thread nD τ).loc b) := V2 m d (Proc.devRef .tc b)

theorem V2_p (d : Dev nD) : V2 m d p' = v2Val m d := Function.update_self ..
theorem V2_a (d : Dev nD) : V2 m d a' = m (aLoc d) := (Function.update_of_ne (show a' ≠ p' by decide) _ _).trans (V1_a m d)
theorem V2_w (d : Dev nD) : V2 m d w' = m (wLoc d) := (Function.update_of_ne (show w' ≠ p' by decide) _ _).trans (V1_w m d)
theorem V2_t (d : Dev nD) : V2 m d t' = wtVal m d := (Function.update_of_ne (show t' ≠ p' by decide) _ _).trans (V1_t m d)
theorem V2_o (d : Dev nD) : V2 m d o' = m (oLoc d) := (Function.update_of_ne (show o' ≠ p' by decide) _ _).trans (V1_o m d)

variable (B : Region.BodySpec F)

/-- The region is entered from the five arrays — the transposed table and the profile table computed — and the
    TensorCore owing nothing, its recorded waits those of the one call. -/
theorem pre_intro (d : Dev nD) (W : Waits sig (HIx 1)) (hW : (K (F := F)).WBelow (SparseCore.T d) W (8 * 1)) :
    iprop((aLoc d ↦{fullShare} V1 m d a') ∗ (wLoc d ↦{fullShare} V1 m d w') ∗ (tLoc d ↦{fullShare} wtVal m d)
        ∗ (pLoc d ↦{fullShare} v2Val m d) ∗ (oLoc d ↦{fullShare} V1 m d o') ∗ owes (SparseCore.T d) 0 W)
      ⊢ ((Region.reg B (VV m)).pre d : sProp 𝕄) := by
  show _ ⊢ iprop(unscopedBufs d (VV m d) ∗ Region.owesIn d)
  rw [unscopedBufs_eq, V1_a, V1_w, V1_o]
  unfold VV Region.owesIn
  rw [V2_a, V2_w, V2_t, V2_p, V2_o]
  iintro ⟨Ha, Hw, Ht, Hp, Ho, HO⟩
  isplitl [Ha Hw Ht Hp Ho]
  · isplitl [Ha]; · iexact Ha
    isplitl [Hw]; · iexact Hw
    isplitl [Ht]; · iexact Ht
    isplitl [Hp]; · iexact Hp
    iexact Ho
  iexists W; isplitr
  · ipureintro; intro p hp; exact hW p hp
  iexact HO

/-- It is left with the arguments and the transposed table as they were, the profile table as it was, the result at its
    windows, the TensorCore owing nothing, its recorded waits still below the handshakes' bound. -/
theorem post_elim (d : Dev nD) :
    ((Region.reg B (VV m)).post d : sProp 𝕄)
      ⊢ iprop((aLoc d ↦{fullShare} m (aLoc d)) ∗ (wLoc d ↦{fullShare} m (wLoc d)) ∗ (tLoc d ↦{fullShare} wtVal m d)
        ∗ (pLoc d ↦{fullShare} v2Val m d) ∗ (oLoc d ↦{fullShare} outVal m d)
        ∗ ∃ W, ⌜(K (F := F)).WBelow (SparseCore.T d) W (8 * 1)⌝ ∗ owes (SparseCore.T d) 0 W) := by
  show iprop((Region.pdats (VV m) 0 d).arrays ((Region.pdats (VV m) 0 d).arrAt · (Pipeline.pin (pcfgs (F := F)) Region.adm 0).N)
      ∗ Pipeline.unscopedRest (Ix := HIx 1) (Name := ℕ) (U := UU) (Lvl := ℕ) spec1 d (VV m d)
      ∗ (Region.pdats (VV m) 0 d).owesAt none (Fin.last (Pipeline.pin (pcfgs (F := F)) Region.adm 0).N)) ⊢ _
  rw [Pipeline.arrays_eq (Pipeline.pin (pcfgs (F := F)) Region.adm) (Region.pdats (VV m)) 0 d launch1.arr_whole
      ((Region.pdats (VV m) 0 d).share_full fun _ => rfl), bigSep_W1, unscopedRest1_eq]
  have e0 : (Region.pdats (VV m) 0 d).arrAt 0 (Pipeline.pin (pcfgs (F := F)) Region.adm 0).N = v2Val m d :=
    (Region.final_in d (VV m d)).trans (V2_p m d)
  have e1 : (Region.pdats (VV m) 0 d).arrAt 1 (Pipeline.pin (pcfgs (F := F)) Region.adm 0).N = outVal m d :=
    (Region.final_out d (VV m d)).trans (congrArg Cert.Spec.windows (V2_p m d))
  rw [e0, e1]
  unfold VV
  rw [V2_a, V2_w, V2_t]
  unfold Pipeline.Dat.owesAt Pipeline.owesWithin
  iintro ⟨⟨Hp, Ho⟩, ⟨Ha, Hw, Ht⟩, %W, %hW, HO⟩
  isplitl [Ha]; · iexact Ha
  isplitl [Hw]; · iexact Hw
  isplitl [Ht]; · iexact Ht
  isplitl [Hp]; · iexact Hp
  isplitl [Ho]; · iexact Ho
  iexists W; isplitr
  · ipureintro
    intro p hp
    rcases hW hp with h | ⟨w, s, rfl⟩
    · exact h
    · simp
  iexact HO

include B in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg⟩
  -- the transposition, over the five arrays
  iapply (wp_hlo_within 𝒱 (SparseCore.T d) none Set.univ (op := opT) (S := S5) hT5 (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  icases Hh with ⟨Ha, Hw, Ht, Hp, Ho⟩
  -- the call: the transposed table and the profile table to the two SparseCores and back
  iapply ((K (F := F)).wp_run (D (F := F)) 𝒱 (EH := EH) (P := P m) κ d 0) $$ [Hst Ht Hp Ha Hw Ho Hb Hg]
  isplitr; · iexact Hctx
  isplitl [Hst]; · iexact Hst
  isplitl [Ht Hp]
  · rw [st0_eq]
    iapply (cores_of_arrays m d _).1
    isplitl [Ht]
    · iapply (Entails.of_eq (congrArg (fun f => (tLoc d ↦{fullShare} f : sProp 𝕄)) (V1_t m d))); iexact Ht
    · iapply (Entails.of_eq (congrArg (fun f => (pLoc d ↦{fullShare} f : sProp 𝕄)) (V1_p m d))); iexact Hp
  iintro ⟨Hst, Hdn⟩
  ihave Hdn' := (Entails.of_eq (dn0_eq m d)) $$ Hdn
  ihave Harr := (cores_of_arrays m d _).2 $$ Hdn'
  icases Harr with ⟨Ht, Hp⟩

  -- the TensorCore owes nothing more: the one call is behind it
  unfold SparseCore.Cfg.tcSt
  icases Hst with ⟨⟨%W, %hW, HO⟩, Hrest⟩
  rw [(K (F := F)).Otc_end d (le_refl 1)]
  ihave Hpre := (pre_intro m B d W hW) $$ [Ha Hw Ht Hp Ho HO]
  · isplitl [Ha]; · iexact Ha
    isplitl [Hw]; · iexact Hw
    isplitl [Ht]; · iexact Ht
    isplitl [Hp]; · iexact Hp
    isplitl [Ho]; · iexact Ho
    iexact HO
  unfold G
  icases Hg with ⟨Hcg, Htk⟩
  ihave Hlev := (SparseCore.Cfg.ctx_levAts κ) $$ Hctx
  -- the region, entered through the program's own body table
  iapply ((K (F := F)).wp_liftProg (D (F := F)) 𝒱 (SparseCore.T d) Set.univ none
      (Prog.lift (.customCall (Pipeline.entry 0) ())) _)
  iapply (Pipeline.RegionSeg.wp (pcfgs (F := F)) Region.adm (Region.pdats (VV m)) none cellOf_injP EP defs₀ 𝒱₀
      (Region.LL (F := F)) (Region.lvl (F := F)) (Region.reg B (VV m)) d none (fun u hu => nomatch hu) (fun x => .ret x) _) $$ [Hb Hpre Hlev Hcg Htk Hrest]
  isplitl [Hrest]
  · iintro ⟨Hb, Hpost⟩
    rw [wp_ret]; imodintro; imodintro
    ihave Hq := (post_elim m B d) $$ Hpost
    icases Hq with ⟨Ha, Hw, Ht, Hp, Ho, %W', %hW', HO⟩
    isplitl [HO Hrest]
    · isplitl [HO]
      · iexists W'; isplitr; · ipureintro; exact hW'
        iexact HO
      iexact Hrest
    unfold FIN
    isplitl [Ha]; · iexact Ha
    isplitl [Hw]; · iexact Hw
    iexact Ho
  isplitl [Hb]; · iexact Hb
  isplitl [Hpre]; · iexact Hpre
  isplitl [Hlev]; · iexact Hlev
  isplitl [Hcg]; · iexact Hcg
  iexact Htk

/-! ## The final memory, read -/

def fq (d : Dev nD) (s' : Phys nD τ sig (Elt F)) : Prop :=
  s'.mem.mem (oLoc d) = outVal m d ∧ s'.mem.mem (aLoc d) = m (aLoc d) ∧ s'.mem.mem (wLoc d) = m (wLoc d)

theorem hfin (d : Dev nD) (s' : Phys nD τ sig (Elt F)) : iprop(FIN m d ∗ SI s') ⊢ (⌜fq m d s'⌝ : sProp 𝕄) := by
  unfold FIN
  iintro ⟨⟨Ha, Hw, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := outVal m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outVal m c ∧ r.2.mem (aLoc c) = m (aLoc c) ∧ r.2.mem (wLoc c) = m (wLoc c)

include B in
/-- Every weakly fair execution of the program's threads from a memory with every semaphore at zero terminates, nothing
    faulting, the arguments as launched and the result at the windows of the profile of the transposed table. -/
theorem run_main [∀ e, Nonempty (Elt F e)] (hT : TileStmt m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT)
    (fun q _ => match q with | 0 => SparseCore.Cfg.VecSplit.of_plain (vecSplit m))
    m ρ main (G (F := F)) (FIN m) (u₀ (F := F)) (sep_elim_left.trans (hu₀ m)) (hmain m ρ B) (fq m) (hfin m) (QC m) (fun _ h => h)

end Cert.Proof.Kernel.Launch

end
-- ==== Proof.KB.TileValue.lean ====
/-
  The index arithmetic of one profile row.

  A task fills its row sixteen entries at a time. At trip `k` lane `x` holds the entry at position
  `p = 16 k + x` of the row, and the table index it is read at is `clip(p - s - 2040, 0, 14)`, computed on 32-bit
  words: the two subtractions may wrap below zero, where the word read as a signed number is negative, the signed
  maximum with zero gives zero, and the signed minimum with fourteen leaves it. With `p < 4096` and `s < 8` nothing
  else wraps, so the word's value is `min 14 (p - s - 2040)` on the naturals with truncated subtraction.
-/
import Idealize.ShloMosaic.PureOps
import Idealize.ShloMosaic.Lib.Scf
import proofs.«204505_g54743653155399_cont_9to1_m_379_15_alg».proof.Proof.Spec

namespace Cert.Proof.Kernel.Tile

open Idealize.ShloMosaic

/-- The clipped index word: `min 14 (max 0 (a - s - 2040))`, signed, on 32-bit words. -/
def clipIdx (a s : BitVec 32) : BitVec 32 :=
  IntOp.minsi 14#32 (IntOp.maxsi 0#32 (IntOp.subi (IntOp.subi a s) 2040#32))

/-- A word read as a signed number, by cases on its top bit. -/
theorem toInt_cases (x : BitVec 32) :
    x.toInt = if x.toNat < 2147483648 then (x.toNat : Int) else (x.toNat : Int) - 4294967296 := by
  rw [BitVec.toInt_eq_toNat_cond]
  have := x.isLt
  split <;> split <;> omega

/-- The signed clip of a word into `0 … 14`: the word itself capped at fourteen when it is non-negative as a signed
    number, zero when it is negative. -/
theorem clip_toNat (x : BitVec 32) :
    (IntOp.minsi 14#32 (IntOp.maxsi 0#32 x)).toNat = if x.toNat < 2147483648 then min 14 x.toNat else 0 := by
  have hx := x.isLt
  have h0 : (0#32 : BitVec 32).toInt = 0 := by decide
  have h14 : (14#32 : BitVec 32).toInt = 14 := by decide
  unfold IntOp.minsi IntOp.maxsi
  simp only [BitVec.slt, h0, h14]
  by_cases hneg : x.toNat < 2147483648
  · have hxi : x.toInt = x.toNat := by rw [toInt_cases, if_pos hneg]
    rw [if_pos hneg]
    have hlt : ¬ x.toInt < 0 := by omega
    rw [show decide (x.toInt < 0) = false from decide_eq_false hlt]
    simp only [Bool.false_eq_true, if_false]
    by_cases h : (14 : Int) < x.toInt
    · rw [show decide ((14 : Int) < x.toInt) = true from decide_eq_true h]
      simp only [if_true]
      show 14 = min 14 x.toNat
      omega
    · rw [show decide ((14 : Int) < x.toInt) = false from decide_eq_false h]
      simp only [Bool.false_eq_true, if_false]
      omega
  · have hxi : x.toInt = (x.toNat : Int) - 4294967296 := by rw [toInt_cases, if_neg hneg]
    rw [if_neg hneg]
    have hlt : x.toInt < 0 := by omega
    rw [show decide (x.toInt < 0) = true from decide_eq_true hlt]
    simp only [if_true, h0]
    rw [show decide ((14 : Int) < 0) = false from by decide]
    simp only [Bool.false_eq_true, if_false]
    rfl

/-- Whatever the word, its clip is at most fourteen. -/
theorem clip_le (x : BitVec 32) : (IntOp.minsi 14#32 (IntOp.maxsi 0#32 x)).toNat ≤ 14 := by
  rw [clip_toNat]; split <;> omega

/-- The clipped index of position `p` for the residue `s` is the profile's. -/
theorem clipIdx_toNat (p s : Nat) (hp : p < 4096) (hs : s < 8) :
    (clipIdx (BitVec.ofNat 32 p) (BitVec.ofNat 32 s)).toNat = Cert.Spec.prof s p := by
  unfold clipIdx Cert.Spec.prof
  rw [clip_toNat]
  unfold IntOp.subi
  have e : ((BitVec.ofNat 32 p - BitVec.ofNat 32 s) - 2040#32).toNat
      = (4294967296 - 2040 + ((4294967296 - s + p) % 4294967296)) % 4294967296 := by
    rw [BitVec.toNat_sub, BitVec.toNat_sub, BitVec.toNat_ofNat, BitVec.toNat_ofNat, BitVec.toNat_ofNat]
    have e1 : p % 2 ^ 32 = p := Nat.mod_eq_of_lt (by omega)
    have e2 : s % 2 ^ 32 = s := Nat.mod_eq_of_lt (by omega)
    have e3 : 2040 % 2 ^ 32 = 2040 := by decide
    rw [e1, e2, e3]
  rw [e]
  split <;> omega

/-- Position `16 k + x` as the kernel computes it: the lane number plus sixteen times the trip's induction word. -/
theorem lane_word (k x : Nat) (hk : k < 256) (hx : x < 16) :
    IntOp.addi (BitVec.ofNat 32 (0 * 16 + x)) (IntOp.muli (Scf.iv 0#32 1#32 k) 16#32) = BitVec.ofNat 32 (16 * k + x) := by
  unfold IntOp.addi IntOp.muli Scf.iv
  apply BitVec.eq_of_toNat_eq
  simp only [BitVec.toNat_add, BitVec.toNat_mul, BitVec.toNat_ofNat]
  omega

end Cert.Proof.Kernel.Tile
-- ==== Proof.KB.TileViews.lean ====
/-
  One vector subcore's storage and the rows it touches, in the two spellings the proof moves between.

  A task names its row of the transposed table and its row of the profile table as the program slices them: a
  unit-size rectangle of the whole array at the offsets the kernel computes, with the unit axes dropped. The launch
  hands the same elements over as "row `i`" and "row `(i, r)`" of the TensorCore's arrays. Here: the offsets in closed
  form (on subcore `i` of SparseCore `c` the four tasks read row `i` and write rows `(i, 4 c + u)`), every task's
  guard true, the two spellings' element sets equal, where an index of the sliced row sits in the whole array, and the
  subcore's own semaphores and scratch buffers taken out of what the launch deals it.
-/
import proofs.«204505_g54743653155399_cont_9to1_m_379_15_alg».proof.Proof.KB.Setup
import Idealize.ShloMosaic.Lib.SparseCore.Ops

noncomputable section

namespace Cert.Proof.Kernel.Tile

open Cert.Kernel Cert.Kernel.Gen
open Cert.Proof.Kernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Setup.MM F

/-! ## The grid point as a subcore -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-! ## The guards and the offsets, in closed form -/

theorem cond1 : ∀ L : grid0.Coords, k0_cond1 L = 1#1 := by decide +kernel
theorem cond2 : ∀ L : grid0.Coords, k0_cond2 L = 1#1 := by decide +kernel
theorem cond3 : ∀ L : grid0.Coords, k0_cond3 L = 1#1 := by decide +kernel
theorem cond4 : ∀ L : grid0.Coords, k0_cond4 L = 1#1 := by decide +kernel

theorem off1_eq : ∀ L : grid0.Coords, k0_off1 L = ![(L 1).val, 0] := by decide +kernel
theorem off4_eq : ∀ L : grid0.Coords, k0_off4 L = ![(L 1).val, 0] := by decide +kernel
theorem off7_eq : ∀ L : grid0.Coords, k0_off7 L = ![(L 1).val, 0] := by decide +kernel
theorem off10_eq : ∀ L : grid0.Coords, k0_off10 L = ![(L 1).val, 0] := by decide +kernel
theorem off3_eq : ∀ L : grid0.Coords, k0_off3 L = ![(L 1).val, 4 * (L 0).val + 0, 0] := by decide +kernel
theorem off6_eq : ∀ L : grid0.Coords, k0_off6 L = ![(L 1).val, 4 * (L 0).val + 1, 0] := by decide +kernel
theorem off9_eq : ∀ L : grid0.Coords, k0_off9 L = ![(L 1).val, 4 * (L 0).val + 2, 0] := by decide +kernel
theorem off12_eq : ∀ L : grid0.Coords, k0_off12 L = ![(L 1).val, 4 * (L 0).val + 3, 0] := by decide +kernel

/-! ## The arrays and the scratch, as the kernel names them -/

abbrev wtV : Memref sig .scVector .hbm S16x16 .f32 := Memref.whole main_v0_scv
abbrev v2V : Memref sig .scVector .hbm S16x8x4096 .f32 := Memref.whole main_v1_scv
/-- The fetched table row; the profile row being filled. -/
abbrev sW : Memref sig .scVector .vmem S16 .f32 := Memref.whole cc0_scratch0
abbrev sR : Memref sig .scVector .vmem S4096 .f32 := Memref.whole cc0_scratch1

/-- A row of the transposed table as a task slices it, the unit axis dropped. -/
abbrev wtRowM (off : Fin 2 → Nat) (inb : ∀ a, off a + S1x16.size a ≤ S16x16.size a) : Memref sig .scVector .hbm S16 .f32 :=
  ((wtV : Memref sig .scVector .hbm S16x16 .f32).slice (Rect.unit (s := S16x16) off S1x16.size inb) (fun _ => rfl)).squeeze S16 squeezes_S1x16_S16
/-- A row of the profile table as a task slices it, the two unit axes dropped. -/
abbrev v2RowM (off : Fin 3 → Nat) (inb : ∀ a, off a + S1x1x4096.size a ≤ S16x8x4096.size a) : Memref sig .scVector .hbm S4096 .f32 :=
  ((v2V : Memref sig .scVector .hbm S16x8x4096 .f32).slice (Rect.unit (s := S16x8x4096) off S1x1x4096.size inb) (fun _ => rfl)).squeeze S4096 squeezes_S1x1x4096_S4096

/-! ## The sliced rows' elements -/

theorem set_wtRowM {off : Fin 2 → Nat} (inb : ∀ a, off a + S1x16.size a ≤ S16x16.size a) (i : Fin 16) (hoff : off = ![i.val, 0]) :
    (wtRowM off inb).view.set = Setup.tRow i := by
  subst hoff
  show (((View.whole (main_v0_scv : Ref sig .scVector)).slice (Rect.unit (s := S16x16) ![i.val, 0] S1x16.size inb)).reshape S16 squeezes_S1x16_S16.numel_eq).set = _
  rw [View.set_reshape, View.set_slice_whole]
  ext y
  rw [Rect.mem_set_unit]
  unfold Setup.tRow
  rw [Finset.mem_filter]
  constructor
  · intro h
    have h0 := h 0
    simp at h0
    exact ⟨Finset.mem_univ _, by omega⟩
  · rintro ⟨-, h⟩ a
    have h1 := idx2_lt1 y
    match a with
    | ⟨0, _⟩ => simp; omega
    | ⟨1, _⟩ => simp; omega

theorem set_v2RowM {off : Fin 3 → Nat} (inb : ∀ a, off a + S1x1x4096.size a ≤ S16x8x4096.size a) (i : Fin 16) (r : Fin 8)
    (hoff : off = ![i.val, r.val, 0]) : (v2RowM off inb).view.set = Setup.pRow i r := by
  subst hoff
  show (((View.whole (main_v1_scv : Ref sig .scVector)).slice (Rect.unit (s := S16x8x4096) ![i.val, r.val, 0] S1x1x4096.size inb)).reshape S4096 squeezes_S1x1x4096_S4096.numel_eq).set = _
  rw [View.set_reshape, View.set_slice_whole]
  ext y
  rw [Rect.mem_set_unit]
  unfold Setup.pRow
  rw [Finset.mem_filter]
  constructor
  · intro h
    have h0 := h 0
    have h1 := h 1
    simp at h0 h1
    exact ⟨Finset.mem_univ _, by omega, by omega⟩
  · rintro ⟨-, h0, h1⟩ a
    match a with
    | ⟨0, _⟩ => simp; omega
    | ⟨1, _⟩ => simp; omega
    | ⟨2, hlt⟩ =>
      have h2 : ((y ⟨2, hlt⟩ : Fin 4096) : Nat) < 4096 := (y ⟨2, hlt⟩).isLt
      simp; exact h2

/-! ## Where a sliced row's index sits in the whole array -/

theorem emb_wtRowM {off : Fin 2 → Nat} (inb : ∀ a, off a + S1x16.size a ≤ S16x16.size a) (i : Fin 16) (hoff : off = ![i.val, 0])
    (j : S16.Idx) : (wtRowM off inb).view.emb j = ix2 i (⟨(j 0).val, (j 0).isLt⟩ : Fin 16) := by
  subst hoff
  show (Rect.unit (s := S16x16) ![i.val, 0] S1x16.size inb).emb (Shape.reshapeEquiv squeezes_S1x16_S16.numel_eq j) = _
  have e : Shape.reshapeEquiv squeezes_S1x16_S16.numel_eq j = (ix2 (0 : Fin 1) (⟨(j 0).val, (j 0).isLt⟩ : Fin 16) : S1x16.Idx) :=
    Shape.reshapeEquiv_eq_of_rowMajor _ (by rw [Shape.rowMajor_val_two, Shape.rowMajor_val_one]; simp)
  rw [e]
  funext a
  apply Fin.ext
  rw [Rect.emb_apply]
  match a with
  | ⟨0, _⟩ => simp
  | ⟨1, _⟩ => simp

theorem emb_v2RowM {off : Fin 3 → Nat} (inb : ∀ a, off a + S1x1x4096.size a ≤ S16x8x4096.size a) (i : Fin 16) (r : Fin 8)
    (hoff : off = ![i.val, r.val, 0]) (j : S4096.Idx) :
    (v2RowM off inb).view.emb j = ix3 i r (⟨(j 0).val, (j 0).isLt⟩ : Fin 4096) := by
  subst hoff
  show (Rect.unit (s := S16x8x4096) ![i.val, r.val, 0] S1x1x4096.size inb).emb (Shape.reshapeEquiv squeezes_S1x1x4096_S4096.numel_eq j) = _
  have e : Shape.reshapeEquiv squeezes_S1x1x4096_S4096.numel_eq j
      = (ix3 (0 : Fin 1) (0 : Fin 1) (⟨(j 0).val, (j 0).isLt⟩ : Fin 4096) : S1x1x4096.Idx) :=
    Shape.reshapeEquiv_eq_of_rowMajor _ (by rw [Shape.rowMajor_val_three, Shape.rowMajor_val_one]; simp)
  rw [e]
  funext a
  apply Fin.ext
  rw [Rect.emb_apply]
  match a with
  | ⟨0, _⟩ => simp
  | ⟨1, _⟩ => simp
  | ⟨2, _⟩ => simp

end Cert.Proof.Kernel.Tile
-- ==== Proof.KB.TileBody.lean ====
/-
  One vector subcore's run of the first kernel, with the value it writes.

  Subcore `i` of SparseCore `c` does four tasks `u < 4`. Task `u` fetches row `i` of the transposed table into a
  sixteen-entry scratch and waits for it; fills a 4096-entry scratch sixteen entries a trip over 256 trips, entry
  `p = 16 k + x` being the fetched row read at `clip(p - s - 2040, 0, 14)` for the task's residue `s = 4 c + u`; then
  copies the filled scratch out to row `(i, s)` of the profile table and waits for it. So the task leaves
  `v2[i, s, p] = wt[i, min 14 (p - s - 2040)]`: the profile of the transposed table on that row.

  The four tasks' printed texts differ only in names (the offsets' functions, the semaphores, the loop's bounds, the
  index check), so the task is written once over those as parameters — the program (`partG`, `taskG`), the loop's
  invariant (`rowInv`: the fetched row in place, the first `16 k` entries of the row being filled already the
  profile's), one trip (`trip_run`) and the whole task (`task_run`) — and the printed parts are instances by
  unfolding. The subcore's run (`tile_body`) is the four instances in turn, each taking its two semaphores out of the
  subcore's own and putting them back.
-/
import proofs.«204505_g54743653155399_cont_9to1_m_379_15_alg».proof.Proof.KB.Setup
import proofs.«204505_g54743653155399_cont_9to1_m_379_15_alg».proof.Proof.KB.TileValue
import proofs.«204505_g54743653155399_cont_9to1_m_379_15_alg».proof.Proof.KB.TileViews
import Idealize.ShloMosaic.Lib.SparseCore.Ops

noncomputable section

namespace Cert.Proof.Kernel.Tile

open Cert.Kernel Cert.Kernel.Gen
open Cert.Proof.Kernel

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Setup.MM F

variable [FloatOps F]

/-! ## The subcore's thread, its rows in the kernel's spelling -/

section Pts
variable (d : Dev nD) (L : grid0.Coords)

theorem pts_wtRowM {off : Fin 2 → Nat} (inb : ∀ a, off a + S1x16.size a ≤ S16x16.size a) (i : Fin 16) (hoff : off = ![i.val, 0])
    (q : PosShare TreeShare) (f : Buf (Elt F) (Setup.tLoc d)) :
    ((wtRowM off inb).view.loc (V d (cV L) (jV L)) ↦[(wtRowM off inb).view.set]{q} f : sProp 𝕄) = (Setup.tLoc d ↦[Setup.tRow i]{q} f) := by
  rw [set_wtRowM inb i hoff]

theorem pts_v2RowM {off : Fin 3 → Nat} (inb : ∀ a, off a + S1x1x4096.size a ≤ S16x8x4096.size a) (i : Fin 16) (r : Fin 8)
    (hoff : off = ![i.val, r.val, 0]) (f : Buf (Elt F) (Setup.pLoc d)) :
    ((v2RowM off inb).view.loc (V d (cV L) (jV L)) ↦[(v2RowM off inb).view.set]{fullShare} f : sProp 𝕄)
      = (Setup.pLoc d ↦[Setup.pRow i r]{fullShare} f) := by
  rw [set_v2RowM inb i r hoff]

end Pts

/-! ## The index vector of a trip -/

open Cert.Spec (prof prof_lt)

/-- The row residue `t mod 8` of the task number `t`, as the kernel computes it (a floored remainder). -/
def resWord (v4 : BitVec 32) : BitVec 32 :=
  let v40 : BitVec 1 := Scalar.cmpi .eq 8#32 0#32
  let v41 : BitVec 32 := Scalar.select v40 1#32 8#32
  let v42 : BitVec 32 := Scalar.remsi v4 v41
  let v43 : BitVec 1 := Scalar.cmpi .ne v42 0#32
  let v44 : BitVec 1 := Scalar.cmpi .slt v42 0#32
  let v45 : BitVec 1 := Scalar.cmpi .slt v41 0#32
  let v46 : BitVec 1 := Scalar.xori v44 v45
  let v47 : BitVec 1 := Scalar.andi v46 v43
  let v48 : BitVec 32 := Scalar.addi v42 v41
  Scalar.select v47 v48 v42

/-- The sixteen table indices of trip `k`: lane `x` holds `clip(x + 16 k - s - 2040, 0, 14)`. -/
def payOf (v2 : IVec S16 32) (v4 : BitVec 32) (k : Nat) : IVec S16 32 :=
  minsi (broadcast S16 14#32) (maxsi (broadcast S16 0#32)
    (subi (subi (addi v2 (broadcast S16 (Scalar.muli (Scf.iv 0#32 1#32 k) 16#32))) (broadcast S16 (resWord v4))) (broadcast S16 2040#32)))

theorem payOf_lane (hio : S16.Iotas .scVector 32 [0]) (v4 : BitVec 32) (s : Nat) (hs : s < 8) (hv4 : resWord v4 = BitVec.ofNat 32 s)
    (k : Nat) (hk : k < 256) (x : S16.Idx) :
    (payOf (iota .scVector S16 32 [0] hio) v4 k x).toNat = prof s (16 * k + (x 0).val) := by
  have hx : (x 0).val < 16 := (x 0).isLt
  show (clipIdx (IntOp.addi (BitVec.ofNat 32 (0 * 16 + (x 0).val)) (IntOp.muli (Scf.iv 0#32 1#32 k) 16#32)) (resWord v4)).toNat = _
  rw [hv4, lane_word k _ hk hx, clipIdx_toNat _ _ (by omega) hs]

theorem resWord_t1 : ∀ L : grid0.Coords, resWord (Scalar.addi (Scalar.muli (Scalar.addi (Scalar.muli (BitVec.ofNat 32 (L 1).val) 2#32) (BitVec.ofNat 32 (L 0).val)) 4#32) 0#32)
    = BitVec.ofNat 32 (4 * (L 0).val + 0) := by decide +kernel
theorem resWord_t2 : ∀ L : grid0.Coords, resWord (Scalar.addi (Scalar.muli (Scalar.addi (Scalar.muli (BitVec.ofNat 32 (L 1).val) 2#32) (BitVec.ofNat 32 (L 0).val)) 4#32) 1#32)
    = BitVec.ofNat 32 (4 * (L 0).val + 1) := by decide +kernel
theorem resWord_t3 : ∀ L : grid0.Coords, resWord (Scalar.addi (Scalar.muli (Scalar.addi (Scalar.muli (BitVec.ofNat 32 (L 1).val) 2#32) (BitVec.ofNat 32 (L 0).val)) 4#32) 2#32)
    = BitVec.ofNat 32 (4 * (L 0).val + 2) := by decide +kernel
theorem resWord_t4 : ∀ L : grid0.Coords, resWord (Scalar.addi (Scalar.muli (Scalar.addi (Scalar.muli (BitVec.ofNat 32 (L 1).val) 2#32) (BitVec.ofNat 32 (L 0).val)) 4#32) 3#32)
    = BitVec.ofNat 32 (4 * (L 0).val + 3) := by decide +kernel

/-! ## What a row holds: the profile read off the fetched table row -/

/-- Position `p` of the profile row for residue `s`, read off a table row `w`. -/
def profRow {α : Type} (s : Nat) (w : S16.Idx → α) : S4096.Idx → α :=
  fun p => w (ix1 (⟨prof s (p 0).val, prof_lt _ _⟩ : Fin 16))

/-- One trip's store: sixteen more entries of the row are the profile's. -/
theorem fill_step (k : Nat) {off : Fin 1 → Nat} (hoff : off = ![16 * k]) (inb : ∀ a, off a + S16.size a ≤ S4096.size a)
    (g : ((sR : Memref sig .scVector .vmem S4096 .f32).access (Rect.unit (s := S4096) off S16.size inb)).ty.Contents (Elt F))
    (w : S16.Idx → Elt F .f32) (tgt : S4096.Idx → Elt F .f32)
    (hg : ∀ p : S4096.Idx, (p 0).val < 16 * k → g p = tgt p)
    (hw : ∀ x : S16.Idx, ∀ p : S4096.Idx, (p 0).val = 16 * k + (x 0).val → w x = tgt p) :
    ∀ p : S4096.Idx, (p 0).val < 16 * (k + 1) →
      (((sR : Memref sig .scVector .vmem S4096 .f32).access (Rect.unit (s := S4096) off S16.size inb)).write (Elt F) g w Finset.univ) p = tgt p := by
  subst hoff
  intro p hp
  by_cases h : (p 0).val < 16 * k
  · rw [View.write_of_not_mem]
    · exact hg p h
    · rw [View.setOn_univ]
      show p ∉ ((View.whole (cc0_scratch1 : Ref sig .scVector)).slice (Rect.unit (s := S4096) ![16 * k] S16.size inb)).set
      rw [View.set_slice_whole, Rect.mem_set_unit]
      intro hmem
      have h0 := (hmem 0).1
      simp at h0
      omega
  · have hx : (p 0).val - 16 * k < 16 := by omega
    have hemb : ((sR : Memref sig .scVector .vmem S4096 .f32).access (Rect.unit (s := S4096) ![16 * k] S16.size inb)).emb
        (ix1 (⟨(p 0).val - 16 * k, hx⟩ : Fin 16)) = p := by
      funext a
      apply Fin.ext
      match a with
      | ⟨0, _⟩ =>
        show (![16 * k] : Fin 1 → Nat) 0 + 1 * ((p 0).val - 16 * k) = (p 0).val
        simp; omega
    have e := View.write_emb_of_mem (v := ((sR : Memref sig .scVector .vmem S4096 .f32).access (Rect.unit (s := S4096) ![16 * k] S16.size inb)))
      (Val := Elt F) g w (M := Finset.univ) (x := ix1 (⟨(p 0).val - 16 * k, hx⟩ : Fin 16)) (Finset.mem_univ _)
    rw [hemb] at e
    rw [e]
    exact hw _ p (by show (p 0).val = 16 * k + ((p 0).val - 16 * k); omega)

/-! ## One task -/

section Run
variable (d : Dev nD) (L : grid0.Coords)

theorem pts_sW_access (f : Buf (Elt F) ((sW : Memref sig .scVector .vmem S16 .f32).view.loc (V d (cV L) (jV L)))) :
    ((((sW : Memref sig .scVector .vmem S16 .f32).access (Rect.whole S16)).loc (V d (cV L) (jV L)) ↦{fullShare} f : sProp 𝕄))
      = ((sW : Memref sig .scVector .vmem S16 .f32).view.loc (V d (cV L) (jV L)) ↦{fullShare} f) := rfl
theorem pts_sR_access (r : Rect S4096) (f : Buf (Elt F) ((sR : Memref sig .scVector .vmem S4096 .f32).view.loc (V d (cV L) (jV L)))) :
    ((((sR : Memref sig .scVector .vmem S4096 .f32).access r).loc (V d (cV L) (jV L)) ↦{fullShare} f : sProp 𝕄))
      = ((sR : Memref sig .scVector .vmem S4096 .f32).view.loc (V d (cV L) (jV L)) ↦{fullShare} f) := rfl

/-- Before trip `k`: the fetched table row is in its scratch, and the first `16 k` entries of the row being filled are
    the profile read off it. -/
def rowInv (s : Nat) (wrow : S16.Idx → Elt F .f32) (k : Nat) (_ : Unit) : sProp 𝕄 :=
  iprop(∃ fw : Buf (Elt F) ((sW : Memref sig .scVector .vmem S16 .f32).view.loc (V d (cV L) (jV L))),
    ⌜∀ j : S16.Idx, (sW : Memref sig .scVector .vmem S16 .f32).view.read (Elt F) fw j = wrow j⌝
    ∗ ((sW : Memref sig .scVector .vmem S16 .f32).view.loc (V d (cV L) (jV L)) ↦{fullShare} fw)
    ∗ ∃ g : Buf (Elt F) ((sR : Memref sig .scVector .vmem S4096 .f32).view.loc (V d (cV L) (jV L))),
        ⌜∀ p : S4096.Idx, (p 0).val < 16 * k → (sR : Memref sig .scVector .vmem S4096 .f32).view.read (Elt F) g p = profRow s wrow p⌝
        ∗ ((sR : Memref sig .scVector .vmem S4096 .f32).view.loc (V d (cV L) (jV L)) ↦{fullShare} g))

/-- One trip: the check passes (every lane's index is a profile index, below sixteen), the gather reads the profile's
    sixteen entries at positions `16 k …` off the table row, and the store puts them there. -/
theorem trip_run (s : Nat) (wrow : S16.Idx → Elt F .f32) (k : Nat)
    (P : Prop) (dec : Decidable P) (hP : P) (v61 : IVec S16 32)
    (hv : ∀ x : S16.Idx, (v61 x).toNat = prof s (16 * k + (x 0).val))
    (hidx : P → ∀ a x, ((![v61] : Fin 1 → IVec S16 32) a x).toNat < S16.size a)
    (hl : (sW : Memref sig .scVector .vmem S16 .f32).view.Loads)
    {off : Fin 1 → Nat} (hoff : off = ![16 * k]) (inb : ∀ a, off a + S16.size a ≤ S4096.size a)
    (hl2 : (sR : Memref sig .scVector .vmem S4096 .f32).view.LoadsAt (Rect.unit (s := S4096) off S16.size inb).toLoadRect)
    (hs1 : ((sR : Memref sig .scVector .vmem S4096 .f32).access (Rect.unit (s := S4096) off S16.size inb)).Stores Finset.univ)
    (hs2 : (Finset.univ : Finset (Rect.unit (s := S4096) off S16.size inb).shape.Idx) = Finset.univ ∨ ∀ a, (Rect.unit (s := S4096) off S16.size inb).stride a = 1) :
    rowInv d L s wrow k ⟨⟩ ⊢ wp frame (wpE (defs₀ (F := F)) Setup.𝒱₀ (V d (cV L) (jV L)) none) Set.univ
      (.op (.assume P dec) fun hw => SparseCore.vectorLoadIdx (sW : Memref sig .scVector .vmem S16 .f32) ![v61] (hidx hw.down) hl >>= fun v62 =>
        .op (.load (sR : Memref sig .scVector .vmem S4096 .f32) (Rect.unit (s := S4096) off S16.size inb).toLoadRect hl2) fun _ =>
        .op (.store (sR : Memref sig .scVector .vmem S4096 .f32) (Rect.unit (s := S4096) off S16.size inb) v62 Finset.univ hs1 hs2) fun _ => .ret (⟨⟩ : Unit))
      (rowInv d L s wrow (k + 1)) := by
  unfold rowInv
  iintro ⟨%fw, %hfw, Hw, %g, %hg, Hr⟩
  rw [wp_assume_of _ _ _ _ hP]
  ihave Hw := (Entails.of_eq (pts_sW_access (F := F) d L fw).symm) $$ Hw
  iapply (SparseCore.wp_vectorLoadIdx Setup.𝒱₀ (V d (cV L) (jV L)) none Set.univ (base := (sW : Memref sig .scVector .vmem S16 .f32)) (S := Finset.univ) (q := fullShare) (Finset.subset_univ _)) $$ Hw
  iintro Hw
  iapply (wp_load Setup.𝒱₀ (V d (cV L) (jV L)) none Set.univ (m := (sR : Memref sig .scVector .vmem S4096 .f32)) (S := Finset.univ) (Finset.subset_univ _)) $$ Hr
  iintro Hr
  ihave Hr := (Entails.of_eq (pts_sR_access (F := F) d L (Rect.unit (s := S4096) off S16.size inb) g).symm) $$ Hr
  iapply (wp_store Setup.𝒱₀ (V d (cV L) (jV L)) none Set.univ (m := (sR : Memref sig .scVector .vmem S4096 .f32)) (r := Rect.unit (s := S4096) off S16.size inb) (Mk := Finset.univ) (S := Finset.univ) (Finset.subset_univ _)) $$ Hr
  iintro Hr
  rw [wp_ret]; imodintro
  iexists fw; isplitr; · ipureintro; exact hfw
  ihave Hw := (Entails.of_eq (pts_sW_access (F := F) d L fw)) $$ Hw
  isplitl [Hw]; · iexact Hw
  iexists _; isplitr
  rotate_left
  · iexact Hr
  · ipureintro
    refine fill_step (F := F) k hoff inb g _ (profRow s wrow) hg (fun x p hp => ?_)
    show (((sW : Memref sig .scVector .vmem S16 .f32).access (Rect.whole S16)).read (Elt F) fw) (idxAt ![v61] (hidx hP) x)
      = wrow (ix1 (⟨prof s (p 0).val, prof_lt _ _⟩ : Fin 16))
    have e : idxAt ![v61] (hidx hP) x = (ix1 (⟨prof s (p 0).val, prof_lt _ _⟩ : Fin 16) : S16.Idx) := by
      funext a
      apply Fin.ext
      match a with
      | ⟨0, _⟩ => show (v61 x).toNat = prof s (p 0).val; rw [hv x, hp]
    rw [e, show ((sW : Memref sig .scVector .vmem S16 .f32).access (Rect.whole S16)).read (Elt F) fw
        = (sW : Memref sig .scVector .vmem S16 .f32).view.read (Elt F) fw from Memref.read_access_whole (Elt F) (cc0_scratch0 : Ref sig .scVector) fw]
    exact hfw _

end Run

/-! ## A task's program, over what differs from task to task -/

section Task
variable (d : Dev nD) (L : grid0.Coords)

/-- A task's first part: the table row fetched into its scratch and waited for, then the counted loop that fills the
    profile row sixteen entries a trip. What differs between the four tasks of a subcore is a parameter: the row's
    offsets, the semaphore, the loop's bounds, the index check, the index vector of a trip and the store's offsets. -/
def partG (off1 : Fin 2 → Nat) (inb1 : ∀ a, off1 a + S1x16.size a ≤ S16x16.size a) (sem1 : DmaSem sig)
    (l : Scf.Loop 32) (ok : l.OK) (chk : IVec S16 32 → Prop) (dec : ∀ v, Decidable (chk v))
    (idxinb : ∀ v, chk v → ∀ a x, ((![v] : Fin 1 → IVec S16 32) a x).toNat < S16.size a)
    (pay : Fin l.trips → IVec S16 32) (offs : Fin l.trips → Fin 1 → Nat) (inb2 : ∀ k a, offs k a + S16.size a ≤ S4096.size a) :
    Prog (TpuEff nD τ sig (Elt F) Λ₀ (.scVector (cV L) (jV L))) PUnit :=
  .op (.enqueueDma (wtRowM off1 inb1) (.here (sW : Memref sig .scVector .vmem S16 .f32)) (.dma sem1)
      ((View.wordExact_bits rfl).reshape _ _) (Memref.isWhole_whole _).wordExact ⟨Or.inl rfl, trivial⟩) fun _ =>
  .op (.waitDma2 sem1 (wtRowM off1 inb1) (sW : Memref sig .scVector .vmem S16 .f32)
      ((View.wordExact_bits rfl).reshape _ _) (Memref.isWhole_whole _).wordExact) fun _ =>
  (Scf.Loop.for l ok (⟨⟩ : Unit) fun k _ =>
      .op (.assume (chk (pay k)) (dec (pay k))) fun hw =>
        SparseCore.vectorLoadIdx (sW : Memref sig .scVector .vmem S16 .f32) ![pay k] (idxinb (pay k) hw.down) (View.loads_vmem h_S16) >>= fun v62 =>
        .op (.load (sR : Memref sig .scVector .vmem S4096 .f32) (Rect.unit (s := S4096) (offs k) S16.size (inb2 k)).toLoadRect (View.loadsAt_vmem h_S16)) fun _ =>
        .op (.store (sR : Memref sig .scVector .vmem S4096 .f32) (Rect.unit (s := S4096) (offs k) S16.size (inb2 k)) v62 Finset.univ
          (View.stores_vmem_bits_univ h_S16 rfl) (.inl rfl)) fun _ => .ret (⟨⟩ : Unit))
    >>= fun _ => .ret ⟨⟩

/-- The whole task ahead of the rest of the program: its first part, then the filled row copied out to its row of the
    profile table and waited for. -/
def taskG (off1 : Fin 2 → Nat) (inb1 : ∀ a, off1 a + S1x16.size a ≤ S16x16.size a) (sem1 : DmaSem sig)
    (l : Scf.Loop 32) (ok : l.OK) (chk : IVec S16 32 → Prop) (dec : ∀ v, Decidable (chk v))
    (idxinb : ∀ v, chk v → ∀ a x, ((![v] : Fin 1 → IVec S16 32) a x).toNat < S16.size a)
    (pay : Fin l.trips → IVec S16 32) (offs : Fin l.trips → Fin 1 → Nat) (inb2 : ∀ k a, offs k a + S16.size a ≤ S4096.size a)
    (off3 : Fin 3 → Nat) (inb3 : ∀ a, off3 a + S1x1x4096.size a ≤ S16x8x4096.size a) (sem2 : DmaSem sig)
    {α : Type} (kk : Prog (TpuEff nD τ sig (Elt F) Λ₀ (.scVector (cV L) (jV L))) α) :
    Prog (TpuEff nD τ sig (Elt F) Λ₀ (.scVector (cV L) (jV L))) α :=
  partG (F := F) L off1 inb1 sem1 l ok chk dec idxinb pay offs inb2 >>= fun _ =>
  .op (.enqueueDma (sR : Memref sig .scVector .vmem S4096 .f32) (.here (v2RowM off3 inb3)) (.dma sem2)
      (Memref.isWhole_whole _).wordExact ((View.wordExact_bits rfl).reshape _ _) ⟨Or.inl rfl, trivial⟩) fun _ =>
  .op (.waitDma2 sem2 (sR : Memref sig .scVector .vmem S4096 .f32) (v2RowM off3 inb3)
      (Memref.isWhole_whole _).wordExact ((View.wordExact_bits rfl).reshape _ _)) fun _ => kk

/-- The printed parts are instances. -/
theorem part1_eq (ha2 ha3 ha4 ha5) (v2 : IVec S16 32) (v4 : BitVec 32) (h : k0_cond1 L = 1#1) :
    k0_part1 (F := F) L wtV ha2 v2V ha3 sW ha4 sR ha5 cc0_scoped0 cc0_scoped1 cc0_scoped2 cc0_scoped3 cc0_scoped4 cc0_scoped5 cc0_scoped6 cc0_scoped7 v2 v4 h
      = partG (F := F) L (k0_off1 L) (k0_off1_inb L h) cc0_scoped0.sem k0_t1_loop (k0_t1_ok L h) (k0_chk1 L) (k0_chk1.dec L)
          (fun v hw => k0_idx1_inb L v hw h) (fun k => payOf v2 v4 k.val) k0_off2 (fun k => k0_off2_inb L k h) := rfl

end Task

section Task2
variable (d : Dev nD) (L : grid0.Coords)

/-- What the copy-out leaves in the profile table's row: the profile of the transposed table. -/
theorem copy_lands {off3 : Fin 3 → Nat} (inb3 : ∀ a, off3 a + S1x1x4096.size a ≤ S16x8x4096.size a) (i : Fin 16) (r : Fin 8)
    (hoff3 : off3 = ![i.val, r.val, 0]) (f : (v2RowM off3 inb3).view.ty.Contents (Elt F)) (w : S4096.Idx → Elt F .f32)
    (wt : S16x16.Idx → Elt F .f32) (wrow : S16.Idx → Elt F .f32)
    (hwrow : ∀ j : S16.Idx, wrow j = wt (ix2 i (⟨(j 0).val, (j 0).isLt⟩ : Fin 16)))
    (hw : ∀ x : S4096.Idx, w x = profRow r.val wrow x) :
    ∀ y ∈ (v2RowM off3 inb3).view.set,
      (v2RowM off3 inb3).view.writes (Elt F) f [(⟨Rect.whole S4096, w⟩ : View.Piece (Elt F) S4096 .f32)] y = Cert.Spec.profileT wt y := by
  intro y hy
  rw [set_v2RowM inb3 i r hoff3] at hy
  unfold Setup.pRow at hy
  obtain ⟨-, h0, h1⟩ := Finset.mem_filter.mp hy
  have hemb : (v2RowM off3 inb3).view.emb (ix1 (⟨(y 2).val, (y 2).isLt⟩ : Fin 4096)) = y := by
    rw [emb_v2RowM inb3 i r hoff3]
    funext a; apply Fin.ext
    match a with
    | ⟨0, _⟩ => exact h0.symm
    | ⟨1, _⟩ => exact h1.symm
    | ⟨2, _⟩ => rfl
  have hemb' : ((v2RowM off3 inb3).view.slice (Rect.whole S4096)).emb (ix1 (⟨(y 2).val, (y 2).isLt⟩ : Fin 4096)) = y := by
    show (v2RowM off3 inb3).view.emb ((Rect.whole S4096).emb (ix1 (⟨(y 2).val, (y 2).isLt⟩ : Fin 4096))) = y
    rw [Rect.emb_whole_apply]; exact hemb
  have e := View.write_emb_of_mem (v := ((v2RowM off3 inb3).view.slice (Rect.whole S4096))) (Val := Elt F) f w (M := Finset.univ)
    (x := ix1 (⟨(y 2).val, (y 2).isLt⟩ : Fin 4096)) (Finset.mem_univ _)
  rw [hemb'] at e
  rw [View.writes_singleton, e]
  show w (ix1 (⟨(y 2).val, (y 2).isLt⟩ : Fin 4096)) = _
  rw [hw]
  unfold profRow Cert.Spec.profileT
  rw [hwrow]
  refine congrArg wt (funext fun a => ?_)
  match a with
  | ⟨0, _⟩ => exact Fin.ext h0.symm
  | ⟨1, _⟩ => exact Fin.ext (by show prof r.val (y 2).val = prof (y 1).val (y 2).val; rw [h1])

set_option maxHeartbeats 1000000 in
/-- One task, from its two rows, the two scratch buffers and its two semaphores at zero: the table row is unchanged, the
    profile row holds the profile of the table row, the semaphores are back at zero. -/
theorem task_run (i : Fin 16) (r : Fin 8) (q : PosShare TreeShare) (wt : Buf (Elt F) (Setup.tLoc d)) (f : Buf (Elt F) (Setup.pLoc d))
    (fw : Buf (Elt F) ((sW : Memref sig .scVector .vmem S16 .f32).view.loc (V d (cV L) (jV L))))
    (fr : Buf (Elt F) ((sR : Memref sig .scVector .vmem S4096 .f32).view.loc (V d (cV L) (jV L))))
    (O : CellTallies nD τ sig (HIx 1)) (W : Waits sig (HIx 1))
    {off1 : Fin 2 → Nat} (inb1 : ∀ a, off1 a + S1x16.size a ≤ S16x16.size a) (hoff1 : off1 = ![i.val, 0]) (sem1 sem2 : DmaSem sig)
    (l : Scf.Loop 32) (ok : l.OK) (htr : l.trips = 256) (chk : IVec S16 32 → Prop) (dec : ∀ v, Decidable (chk v))
    (idxinb : ∀ v, chk v → ∀ a x, ((![v] : Fin 1 → IVec S16 32) a x).toNat < S16.size a)
    (hchk : ∀ v, (∀ a x, ((![v] : Fin 1 → IVec S16 32) a x).toNat < S16.size a) → chk v)
    (pay : Fin l.trips → IVec S16 32) (hpay : ∀ (k : Fin l.trips) (x : S16.Idx), (pay k x).toNat = prof r.val (16 * k.val + (x 0).val))
    (offs : Fin l.trips → Fin 1 → Nat) (hoffs : ∀ k, offs k = ![16 * k.val]) (inb2 : ∀ k a, offs k a + S16.size a ≤ S4096.size a)
    {off3 : Fin 3 → Nat} (inb3 : ∀ a, off3 a + S1x1x4096.size a ≤ S16x8x4096.size a) (hoff3 : off3 = ![i.val, r.val, 0])
    {α : Type} (kk : Prog (TpuEff nD τ sig (Elt F) Λ₀ (.scVector (cV L) (jV L))) α) (Q : α → sProp 𝕄) :
    (iprop(Transfers.MayWaits (V d (cV L) (jV L)) (none : HIx 1) O
        ∗ (Setup.tLoc d ↦[Setup.tRow i]{q} wt) ∗ (Setup.pLoc d ↦[Setup.pRow i r]{fullShare} f)
        ∗ ((sW : Memref sig .scVector .vmem S16 .f32).view.loc (V d (cV L) (jV L)) ↦{fullShare} fw)
        ∗ ((sR : Memref sig .scVector .vmem S4096 .f32).view.loc (V d (cV L) (jV L)) ↦{fullShare} fr)
        ∗ semVal (V d (cV L) (jV L), SemLoc.dma sem1) 0 ∗ semVal (V d (cV L) (jV L), SemLoc.dma sem2) 0 ∗ owes (V d (cV L) (jV L)) O W
        ∗ (iprop((Setup.tLoc d ↦[Setup.tRow i]{q} wt)
            ∗ (Setup.pLoc d ↦[Setup.pRow i r]{fullShare} (Cert.Spec.profileT wt : Buf (Elt F) (Setup.pLoc d)))
            ∗ (∃ fw, (sW : Memref sig .scVector .vmem S16 .f32).view.loc (V d (cV L) (jV L)) ↦{fullShare} fw)
            ∗ (∃ fr, (sR : Memref sig .scVector .vmem S4096 .f32).view.loc (V d (cV L) (jV L)) ↦{fullShare} fr)
            ∗ semVal (V d (cV L) (jV L), SemLoc.dma sem1) 0 ∗ semVal (V d (cV L) (jV L), SemLoc.dma sem2) 0
            ∗ owes (V d (cV L) (jV L)) O (insert (SemLoc.dma sem2, none) (insert (SemLoc.dma sem1, none) W)))
          -∗ wp frame (wpE (defs₀ (F := F)) Setup.𝒱₀ (V d (cV L) (jV L)) none) Set.univ kk Q)) : sProp 𝕄)
      ⊢ wp frame (wpE (defs₀ (F := F)) Setup.𝒱₀ (V d (cV L) (jV L)) none) Set.univ
          (taskG (F := F) L off1 inb1 sem1 l ok chk dec idxinb pay offs inb2 off3 inb3 sem2 kk) Q := by
  have hlane : ∀ k : Fin l.trips, ∀ a x, ((![pay k] : Fin 1 → IVec S16 32) a x).toNat < S16.size a := by
    intro k a x
    obtain rfl : a = 0 := Subsingleton.elim _ _
    show (pay k x).toNat < 16
    rw [hpay]; exact prof_lt _ _
  unfold taskG partG
  simp (config := { proj := false }) only [Prog.bind_op, Prog.bind_ret, Prog.bind_assoc]
  rw [← pts_wtRowM (F := F) d L inb1 i hoff1 q wt, ← pts_v2RowM (F := F) d L inb3 i r hoff3 f,
    ← pts_v2RowM (F := F) d L inb3 i r hoff3 (Cert.Spec.profileT wt : Buf (Elt F) (Setup.pLoc d))]
  iintro ⟨#Hmw, Hwt, Hp, Hsw, Hsr, Hs1, Hs2, HO, Hk⟩
  sl_exec
  sl_for (rowInv (F := F) d L r.val ((wtRowM off1 inb1).view.read (Elt F) wt)) $$ [Hsw Hsr]
  case region =>
    intro k acc
    exact trip_run (F := F) d L r.val _ k.val (chk (pay k)) (dec (pay k)) (hchk _ (hlane k)) (pay k) (hpay k) (idxinb (pay k)) _
      (hoffs k) (inb2 k) _ _ _
  · unfold rowInv
    iexists _; isplitr
    rotate_left
    · isplitl [Hsw]; · iexact Hsw
      iexists fr; isplitr
      · ipureintro; intro p hp; omega
      · iexact Hsr
    · ipureintro; intro j; rw [View.write_whole_univ]; rfl
  iintro %_ HI
  unfold rowInv
  icases HI with ⟨%fw', %hfw', Hsw, %g, %hg, Hsr⟩
  have hg' : ∀ x : S4096.Idx, (sR : Memref sig .scVector .vmem S4096 .f32).view.read (Elt F) g x
      = profRow r.val ((wtRowM off1 inb1).view.read (Elt F) wt) x := fun x => hg x (by
    have hx : (x 0).val < 4096 := (x 0).isLt
    rw [show Scf.trips l.lb l.ub l.st = 256 from htr]; omega)
  have hwrow : ∀ j : S16.Idx, (wtRowM off1 inb1).view.read (Elt F) wt j = wt (ix2 i (⟨(j 0).val, (j 0).isLt⟩ : Fin 16)) := by
    intro j; rw [View.read_apply, emb_wtRowM inb1 i hoff1]; rfl
  sl_exec
  iapply Hk
  isplitl [Hwt]; · iexact Hwt
  isplitl [Hp]
  · irw [← pointsTo_congr (ℓ := (v2RowM off3 inb3).view.loc (V d (cV L) (jV L))) (q := fullShare) (copy_lands (F := F) inb3 i r hoff3 f _ wt _ hwrow hg')]
    iexact Hp
  isplitl [Hsw]; · iexists _; iexact Hsw
  isplitl [Hsr]; · iexists _; iexact Hsr
  isplitl [Hs1]; · iexact Hs1
  isplitl [Hs2]; · iexact Hs2
  iexact HO

end Task2

/-! ## A subcore's own semaphores and scratch buffers -/

section Peel
variable {M : Type} [URA M]

theorem bigSep_fin4 (Φ : Fin 4 → sProp M) : bigSep Finset.univ Φ = iprop(Φ 0 ∗ Φ 1 ∗ Φ 2 ∗ Φ 3) := by
  rw [show (Finset.univ : Finset (Fin 4)) = insert 0 (insert 1 (insert 2 {3})) from by decide,
    bigSep_insert (by decide), bigSep_insert (by decide), bigSep_insert (by decide), bigSep_singleton]
  rfl

end Peel

section Own
variable (d : Dev nD) (L : grid0.Coords)

/-- Two of the subcore's own DMA semaphores, at zero, out of all its own. -/
theorem ownSems0_two (a b : DmaSem sig) (hab : b ≠ a) (ha : (SemLoc.dma a : SemLoc sig).isScoped .scVector = true)
    (hb : (SemLoc.dma b : SemLoc sig).isScoped .scVector = true) :
    (ownSems0 (V d (cV L) (jV L)) : sProp 𝕄)
      = iprop(semVal (V d (cV L) (jV L), SemLoc.dma a) 0 ∗ semVal (V d (cV L) (jV L), SemLoc.dma b) 0
          ∗ bigSep (((ownCells (V d (cV L) (jV L))).erase (V d (cV L) (jV L), SemLoc.dma a)).erase (V d (cV L) (jV L), SemLoc.dma b))
              fun g => semVal g 0) := by
  unfold SparseCore.Cfg.ownSems0
  rw [SparseCore.bigSep_erase' ((mem_ownCells (g := ((V d (cV L) (jV L), SemLoc.dma a) : GSem nD τ sig))).mpr ⟨rfl, ha⟩),
    SparseCore.bigSep_erase' (Finset.mem_erase.mpr ⟨fun e => hab (SemLoc.dma.inj (Prod.mk.inj e).2),
      (mem_ownCells (g := ((V d (cV L) (jV L), SemLoc.dma b) : GSem nD τ sig))).mpr ⟨rfl, hb⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

/-! ## The four tasks and the subcore's run -/

section Tile
variable (m : (ℓ : Loc nD τ sig) → Buf (Elt F) ℓ) (d : Dev nD) (L : grid0.Coords)

/-- The lane numbers, and the number of task `u` of the subcore at `L` as a word. -/
abbrev iotaV : IVec S16 32 := iota .scVector S16 32 [0] iota_S16_d0_w32_scVector
abbrev tWord (L : grid0.Coords) (u : BitVec 32) : BitVec 32 :=
  Scalar.addi (Scalar.muli (Scalar.addi (Scalar.muli (BitVec.ofNat 32 (L 1).val) 2#32) (BitVec.ofNat 32 (L 0).val)) 4#32) u

theorem lt256 (l : Scf.Loop 32) (htr : l.trips = 256) (k : Fin l.trips) : k.val < 256 := htr ▸ k.isLt

/-- Task 1 of the subcore at `L`, ahead of the rest. -/
abbrev task1 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off1 L) (k0_off1_inb L (cond1 L)) cc0_scoped0.sem k0_t1_loop (k0_t1_ok L (cond1 L)) (k0_chk1 L) (k0_chk1.dec L)
    (fun v hw => k0_idx1_inb L v hw (cond1 L)) (fun k => payOf iotaV (tWord L 0#32) k.val) k0_off2 (fun k => k0_off2_inb L k (cond1 L))
    (k0_off3 L) (k0_off3_inb L (cond1 L)) cc0_scoped1.sem kk

/-- Task 2 of the subcore at `L`, ahead of the rest. -/
abbrev task2 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off4 L) (k0_off4_inb L (cond2 L)) cc0_scoped2.sem k0_t2_loop (k0_t2_ok L (cond2 L)) (k0_chk2 L) (k0_chk2.dec L)
    (fun v hw => k0_idx2_inb L v hw (cond2 L)) (fun k => payOf iotaV (tWord L 1#32) k.val) k0_off5 (fun k => k0_off5_inb L k (cond2 L))
    (k0_off6 L) (k0_off6_inb L (cond2 L)) cc0_scoped3.sem kk

/-- Task 3 of the subcore at `L`, ahead of the rest. -/
abbrev task3 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off7 L) (k0_off7_inb L (cond3 L)) cc0_scoped4.sem k0_t3_loop (k0_t3_ok L (cond3 L)) (k0_chk3 L) (k0_chk3.dec L)
    (fun v hw => k0_idx3_inb L v hw (cond3 L)) (fun k => payOf iotaV (tWord L 2#32) k.val) k0_off8 (fun k => k0_off8_inb L k (cond3 L))
    (k0_off9 L) (k0_off9_inb L (cond3 L)) cc0_scoped5.sem kk

/-- Task 4 of the subcore at `L`, ahead of the rest. -/
abbrev task4 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off10 L) (k0_off10_inb L (cond4 L)) cc0_scoped6.sem k0_t4_loop (k0_t4_ok L (cond4 L)) (k0_chk4 L) (k0_chk4.dec L)
    (fun v hw => k0_idx4_inb L v hw (cond4 L)) (fun k => payOf iotaV (tWord L 3#32) k.val) k0_off11 (fun k => k0_off11_inb L k (cond4 L))
    (k0_off12 L) (k0_off12_inb L (cond4 L)) cc0_scoped7.sem kk

/-- The kernel on the subcore at `L` is its four tasks in turn. -/
theorem lambda_eq :
    cc0__lambda_ (F := F) L (Memref.whole main_v0_scv) (Memref.isWhole_whole _) (Memref.whole main_v1_scv) (Memref.isWhole_whole _)
        (Memref.whole cc0_scratch0) (Memref.isWhole_whole _) (Memref.whole cc0_scratch1) (Memref.isWhole_whole _)
        cc0_scoped0 cc0_scoped1 cc0_scoped2 cc0_scoped3 cc0_scoped4 cc0_scoped5 cc0_scoped6 cc0_scoped7
      = task1 (F := F) L (task2 (F := F) L (task3 (F := F) L (task4 (F := F) L (Prog.ret PUnit.unit)))) := by
  unfold cc0__lambda_
  simp (config := { proj := false }) only [dif_pos (cond1 L), dif_pos (cond2 L), dif_pos (cond3 L), dif_pos (cond4 L)]
  rfl

set_option maxHeartbeats 1000000 in
/-- One vector subcore's run: from its row of the transposed table and its four rows of the profile table, its four
    tasks leave each of those rows at the profile of the table. -/
theorem tile_body (hF : (Setup.K (F := F)).Facts) (O : CellTallies nD τ sig (HIx 1)) (W : Waits sig (HIx 1)) (hO : ∀ g, O g none = 0) :
    iprop(levAts (Setup.K (F := F)).L (Setup.K (F := F)).lev ∗ Setup.forTile m d (cL L) (iL L) (m (Setup.pLoc d))
        ∗ scopedBufs (V d (cV L) (jV L)) ∗ scopedSems0 (V d (cV L) (jV L)) ∗ owes (V d (cV L) (jV L)) O W)
      ⊢ wp frame (wpE (defs₀ (F := F)) Setup.𝒱₀ (V d (cV L) (jV L)) none) Set.univ
          (cc0__lambda_ L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7)
          fun _ => iprop(Setup.forTile m d (cL L) (iL L) (Setup.v2Val m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hc : (L 0).val < 2 := (L 0).isLt
  rw [lambda_eq (F := F) L]
  unfold Setup.forTile
  rw [(Setup.K (F := F)).scopedBufs_V hF d (cV L) (jV L), SparseCore.Cfg.scopedSems0_V (Val := Elt F) d (cV L) (jV L),
    ownBufs_V (F := F) d L, bigSep_fin4, bigSep_fin4]
  iintro ⟨#Hlv, ⟨Hwt, Hp0, Hp1, Hp2, Hp3⟩, ⟨⟨%fw, Hsw⟩, ⟨%fr, Hsr⟩, Hbufs⟩, Hsems, HO⟩
  ihave #Hmw := ((Setup.K (F := F)).mayWaits_none (thr := V d (cV L) (jV L)) hO) $$ Hlv
  -- task 1
  ihave Hsp := (Entails.of_eq (ownSems0_two (F := F) d L cc0_scoped0.sem cc0_scoped1.sem (by decide) (by decide) (by decide))) $$ Hsems
  icases Hsp with ⟨Hsa, Hsb, Hsems⟩
  iapply (task_run (F := F) d L (iL L) (Setup.res (cL L) 0) (Setup.half (cL L).val) (Setup.wtVal m d) (m (Setup.pLoc d)) fw fr O _
      (k0_off1_inb L (cond1 L)) (off1_eq L) cc0_scoped0.sem cc0_scoped1.sem k0_t1_loop (k0_t1_ok L (cond1 L)) (by decide) (k0_chk1 L) (k0_chk1.dec L)
      (fun v hw => k0_idx1_inb L v hw (cond1 L)) (fun v hv _ => hv) (fun k => payOf iotaV (tWord L 0#32) k.val)
      (fun k x => payOf_lane iota_S16_d0_w32_scVector (tWord L 0#32) (4 * (L 0).val + 0) (by omega) (resWord_t1 L) k.val (lt256 _ (by decide) k) x)
      k0_off2 k0_off2_eq (fun k => k0_off2_inb L k (cond1 L)) (k0_off3_inb L (cond1 L)) (off3_eq L) (task2 (F := F) L (task3 (F := F) L (task4 (F := F) L (Prog.ret PUnit.unit)))) _)
  isplitr; · iexact Hmw
  isplitl [Hwt]; · iexact Hwt
  isplitl [Hp0]; · iexact Hp0
  isplitl [Hsw]; · iexact Hsw
  isplitl [Hsr]; · iexact Hsr
  isplitl [Hsa]; · iexact Hsa
  isplitl [Hsb]; · iexact Hsb
  isplitl [HO]; · iexact HO
  iintro ⟨Hwt, Hp0, ⟨%fw, Hsw⟩, ⟨%fr, Hsr⟩, Hsa, Hsb, HO⟩
  ihave Hsems := (Entails.of_eq (ownSems0_two (F := F) d L cc0_scoped0.sem cc0_scoped1.sem (by decide) (by decide) (by decide)).symm) $$ [Hsa Hsb Hsems]
  · isplitl [Hsa]; · iexact Hsa
    isplitl [Hsb]; · iexact Hsb
    iexact Hsems
  -- task 2
  ihave Hsp := (Entails.of_eq (ownSems0_two (F := F) d L cc0_scoped2.sem cc0_scoped3.sem (by decide) (by decide) (by decide))) $$ Hsems
  icases Hsp with ⟨Hsa, Hsb, Hsems⟩
  iapply (task_run (F := F) d L (iL L) (Setup.res (cL L) 1) (Setup.half (cL L).val) (Setup.wtVal m d) (m (Setup.pLoc d)) fw fr O _
      (k0_off4_inb L (cond2 L)) (off4_eq L) cc0_scoped2.sem cc0_scoped3.sem k0_t2_loop (k0_t2_ok L (cond2 L)) (by decide) (k0_chk2 L) (k0_chk2.dec L)
      (fun v hw => k0_idx2_inb L v hw (cond2 L)) (fun v hv _ => hv) (fun k => payOf iotaV (tWord L 1#32) k.val)
      (fun k x => payOf_lane iota_S16_d0_w32_scVector (tWord L 1#32) (4 * (L 0).val + 1) (by omega) (resWord_t2 L) k.val (lt256 _ (by decide) k) x)
      k0_off5 k0_off5_eq (fun k => k0_off5_inb L k (cond2 L)) (k0_off6_inb L (cond2 L)) (off6_eq L) (task3 (F := F) L (task4 (F := F) L (Prog.ret PUnit.unit))) _)
  isplitr; · iexact Hmw
  isplitl [Hwt]; · iexact Hwt
  isplitl [Hp1]; · iexact Hp1
  isplitl [Hsw]; · iexact Hsw
  isplitl [Hsr]; · iexact Hsr
  isplitl [Hsa]; · iexact Hsa
  isplitl [Hsb]; · iexact Hsb
  isplitl [HO]; · iexact HO
  iintro ⟨Hwt, Hp1, ⟨%fw, Hsw⟩, ⟨%fr, Hsr⟩, Hsa, Hsb, HO⟩
  ihave Hsems := (Entails.of_eq (ownSems0_two (F := F) d L cc0_scoped2.sem cc0_scoped3.sem (by decide) (by decide) (by decide)).symm) $$ [Hsa Hsb Hsems]
  · isplitl [Hsa]; · iexact Hsa
    isplitl [Hsb]; · iexact Hsb
    iexact Hsems
  -- task 3
  ihave Hsp := (Entails.of_eq (ownSems0_two (F := F) d L cc0_scoped4.sem cc0_scoped5.sem (by decide) (by decide) (by decide))) $$ Hsems
  icases Hsp with ⟨Hsa, Hsb, Hsems⟩
  iapply (task_run (F := F) d L (iL L) (Setup.res (cL L) 2) (Setup.half (cL L).val) (Setup.wtVal m d) (m (Setup.pLoc d)) fw fr O _
      (k0_off7_inb L (cond3 L)) (off7_eq L) cc0_scoped4.sem cc0_scoped5.sem k0_t3_loop (k0_t3_ok L (cond3 L)) (by decide) (k0_chk3 L) (k0_chk3.dec L)
      (fun v hw => k0_idx3_inb L v hw (cond3 L)) (fun v hv _ => hv) (fun k => payOf iotaV (tWord L 2#32) k.val)
      (fun k x => payOf_lane iota_S16_d0_w32_scVector (tWord L 2#32) (4 * (L 0).val + 2) (by omega) (resWord_t3 L) k.val (lt256 _ (by decide) k) x)
      k0_off8 k0_off8_eq (fun k => k0_off8_inb L k (cond3 L)) (k0_off9_inb L (cond3 L)) (off9_eq L) (task4 (F := F) L (Prog.ret PUnit.unit)) _)
  isplitr; · iexact Hmw
  isplitl [Hwt]; · iexact Hwt
  isplitl [Hp2]; · iexact Hp2
  isplitl [Hsw]; · iexact Hsw
  isplitl [Hsr]; · iexact Hsr
  isplitl [Hsa]; · iexact Hsa
  isplitl [Hsb]; · iexact Hsb
  isplitl [HO]; · iexact HO
  iintro ⟨Hwt, Hp2, ⟨%fw, Hsw⟩, ⟨%fr, Hsr⟩, Hsa, Hsb, HO⟩
  ihave Hsems := (Entails.of_eq (ownSems0_two (F := F) d L cc0_scoped4.sem cc0_scoped5.sem (by decide) (by decide) (by decide)).symm) $$ [Hsa Hsb Hsems]
  · isplitl [Hsa]; · iexact Hsa
    isplitl [Hsb]; · iexact Hsb
    iexact Hsems
  -- task 4
  ihave Hsp := (Entails.of_eq (ownSems0_two (F := F) d L cc0_scoped6.sem cc0_scoped7.sem (by decide) (by decide) (by decide))) $$ Hsems
  icases Hsp with ⟨Hsa, Hsb, Hsems⟩
  iapply (task_run (F := F) d L (iL L) (Setup.res (cL L) 3) (Setup.half (cL L).val) (Setup.wtVal m d) (m (Setup.pLoc d)) fw fr O _
      (k0_off10_inb L (cond4 L)) (off10_eq L) cc0_scoped6.sem cc0_scoped7.sem k0_t4_loop (k0_t4_ok L (cond4 L)) (by decide) (k0_chk4 L) (k0_chk4.dec L)
      (fun v hw => k0_idx4_inb L v hw (cond4 L)) (fun v hv _ => hv) (fun k => payOf iotaV (tWord L 3#32) k.val)
      (fun k x => payOf_lane iota_S16_d0_w32_scVector (tWord L 3#32) (4 * (L 0).val + 3) (by omega) (resWord_t4 L) k.val (lt256 _ (by decide) k) x)
      k0_off11 k0_off11_eq (fun k => k0_off11_inb L k (cond4 L)) (k0_off12_inb L (cond4 L)) (off12_eq L) (Prog.ret PUnit.unit) _)
  isplitr; · iexact Hmw
  isplitl [Hwt]; · iexact Hwt
  isplitl [Hp3]; · iexact Hp3
  isplitl [Hsw]; · iexact Hsw
  isplitl [Hsr]; · iexact Hsr
  isplitl [Hsa]; · iexact Hsa
  isplitl [Hsb]; · iexact Hsb
  isplitl [HO]; · iexact HO
  iintro ⟨Hwt, Hp3, ⟨%fw, Hsw⟩, ⟨%fr, Hsr⟩, Hsa, Hsb, HO⟩
  ihave Hsems := (Entails.of_eq (ownSems0_two (F := F) d L cc0_scoped6.sem cc0_scoped7.sem (by decide) (by decide) (by decide)).symm) $$ [Hsa Hsb Hsems]
  · isplitl [Hsa]; · iexact Hsa
    isplitl [Hsb]; · iexact Hsb
    iexact Hsems
  rw [wp_ret]; imodintro
  isplitl [Hwt Hp0 Hp1 Hp2 Hp3]
  · isplitl [Hwt]; · iexact Hwt
    isplitl [Hp0]; · iexact Hp0
    isplitl [Hp1]; · iexact Hp1
    isplitl [Hp2]; · iexact Hp2
    iexact Hp3
  isplitl [Hsw Hsr Hbufs]
  · isplitl [Hsw]; · iexists _; iexact Hsw
    isplitl [Hsr]; · iexists _; iexact Hsr
    iexact Hbufs
  isplitl [Hsems]; · iexact Hsems
  iexists _; isplitr
  rotate_left
  · iexact HO
  · ipureintro; intro p hp
    simp only [Finset.mem_insert] at hp
    rcases hp with rfl | rfl | rfl | rfl | rfl | rfl | rfl | rfl | hp
    all_goals first | exact .inr rfl | exact .inl hp

end Tile

end Cert.Proof.Kernel.Tile
-- ==== Proof.KB.TcBody.lean ====
/-
  The second kernel's body, run once at symbolic operands.

  The body is 256 unrolled trips. Trip `g` computes `off = 2047 - 8 g`, loads the 2176 columns of the eight input rows
  that start at the multiple of 128 below `off`, rotates them so that column `off` comes first, keeps the first 2048
  columns and stores them as rows `8 g … 8 g + 7` of the output block. The run below goes through the printed parts
  one theorem per part; what it leaves in the output buffer — the list of the 256 stored pieces over contents nothing
  names, since the pieces cover the block — is the witness of the subtype, found by the run. The input buffer is only
  read and is handed back as it was.
-/
import proofs.«204505_g54743653155399_cont_9to1_m_379_15_alg».proof.Proof.KB.Setup
import proofs.«204505_g54743653155399_cont_9to1_m_379_15_alg».proof.Proof.Gen.Kernel.Skeleton
import Idealize.ShloMosaic.Lib.Tactic

noncomputable section

namespace Cert.Proof.Kernel.TcBody

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (Setup.MM F) :=
  M.view.loc (c : Thread nD τ) ↦{fullShare} f

set_option maxHeartbeats 4000000 in
/-- What the body leaves in the output block's buffer, WITH the proof that from the two buffers held whole — the input
    at `f0`, the output at anything — the body runs to its return, handing back the input as it was and the output at
    the witness. -/
noncomputable def bodyRun (c : Dev nD) (i : grid1.Coords)
    (M0 : Memref sig .tc .vmem S1x8x4096 .f32) (h0 : M0.IsWhole) (M1 : Memref sig .tc .vmem S1x1x2048x2048 .f32) (h1 : M1.IsWhole)
    (f0 : Bf (F := F) c M0) :
    { W : Bf (F := F) c M1 // ∀ (f1 : Bf (F := F) c M1) (E : Set ℕ) (Q : PUnit → sProp (Setup.MM F)),
        iprop(pt c M0 f0 ∗ pt c M1 f1 ∗ (iprop(pt c M0 f0 ∗ pt c M1 W) -∗ Q ⟨⟩))
          ⊢ wp frame (wpE (defs₀ (F := F)) Variants.none c none) E (cc1__lambda_ i M0 h0 M1 h1) Q } := by
  refine ⟨?_, fun f1 E Q => ?run⟩
  case run =>
    iintro ⟨H0, H1, Hk⟩
    sl_exec_parts!
    sl_step
    iapply Hk
    isplitl [H0]
    · iexact H0
    · iexact H1

end Cert.Proof.Kernel.TcBody

end
-- ==== Proof.KB.TcPiece.lean ====
/-
  One trip of the second kernel's body, as mathematics: what the trip stores, read at an index.

  Trip `g` loads the strip of 2176 columns of the eight input rows that starts at column `128 q`, where
  `q = (2047 - 8 g) / 128`; rotates it along the columns by `2176 - m` places, `m = (2047 - 8 g) % 128`; keeps
  the first 2048 columns; and stores them as rows `8 g … 8 g + 7` of the output block. A rotation by `k` places
  puts at column `j` what stood at column `j - k`, taken around the end; so with `k = 2176 - m` column `j` of the
  rotated strip is column `j + m` of the strip when `j + m < 2176`, which holds for the 2048 columns kept since
  `m < 128`. Column `j + m` of the strip is column `128 q + m + j = 2047 - 8 g + j` of the input. Hence the stored
  piece at `(0, 0, s, j)` is the input at `(0, s, 2047 - 8 g + j)`, which is what the block's windows read at row
  `8 g + s`, column `j`.
-/
import proofs.«204505_g54743653155399_cont_9to1_m_379_15_alg».proof.Kernel
import proofs.«204505_g54743653155399_cont_9to1_m_379_15_alg».proof.Proof.Gen.Kernel
import proofs.«204505_g54743653155399_cont_9to1_m_379_15_alg».proof.Proof.Spec
import Idealize.ShloMosaic.Lib.ValueLayout
import Idealize.ShloMosaic.Lib.KernelVsHost

namespace Cert.Proof.Kernel.TcPiece

open Cert.Kernel Cert.Kernel.Gen
open Idealize.ShloMosaic Idealize.ShloMosaic.ValueIdx

variable {α : Type}

/-- One trip's stored piece as a function of the rotation amount and of the strip it loaded: the strip without its
    leading unit axis, rotated along the columns, cut to its first 2048 columns, with two leading unit axes. -/
abbrev piece (amt : BitVec 32) (v : S1x8x2176.Idx → α) : S1x1x8x2048.Idx → α :=
  shapeCast S1x1x8x2048
    (extractStridedSlice S8x2048 ![0, 0]
      (dynamicRotate 1 amt none (shapeCast S8x2176 v shapeCasts_S1x8x2176_S8x2176) rotates_S8x2176_d1)
      slices_S8x2176_o0_0_S8x2048)
    shapeCasts_S8x2048_S1x1x8x2048

/-- An `[a, b]` array given two leading unit axes reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- The piece read at `(0, 0, s, j)`: the strip at `(0, s, j + m)`, when the rotation is by `2176 - m` places and
    `m < 128`, so that none of the first 2048 columns comes from around the end. -/
theorem piece_apply (amt : BitVec 32) (m : Nat) (hm : m < 128) (hamt : amt.toNat = 2176 - m)
    (v : S1x8x2176.Idx → α) (u w : Fin 1) (s : Fin 8) (j : Fin 2048) :
    piece amt v (ix4 u w s j) = v (ix3 (0 : Fin 1) s (⟨j.val + m, by omega⟩ : Fin 2176)) := by
  unfold piece
  rw [shapeCast_ab_11ab_apply]
  rw [slice2_axis1_apply 0 _ slices_S8x2176_o0_0_S8x2048 s j (⟨j.val, by omega⟩ : Fin 2176) (by simp)]
  rw [dynamicRotate_apply (1 : Fin 2) amt _ rotates_S8x2176_d1 _ (ix2 s (⟨j.val + m, by omega⟩ : Fin 2176)) (by
    intro b
    match b with
    | ⟨0, _⟩ => rfl
    | ⟨1, _⟩ =>
      show j.val + m = (j.val + 2176 - amt.toNat % 2176) % 2176
      rw [hamt]
      have hj := j.isLt
      by_cases h0 : m = 0
      · subst h0; simp; omega
      · rw [Nat.mod_eq_of_lt (by omega), Nat.mod_eq_of_lt (by omega)]; omega)]
  rw [shapeCast_1ab_ab_apply]

/-- Trip `g`'s piece is the window of the input block: with the strip loaded at the trip's own offsets and the
    rotation by `2176 - (2047 - 8 g) % 128` places, the piece at its index `x` is the input where the block's
    windows read it at the place `x` lands in the output block. -/
theorem piece_window (X : S1x8x4096.Idx → α) (i : grid1.Coords) (g : Fin 256) (amt : BitVec 32)
    (hamt : amt.toNat = 2176 - (2047 - 8 * g.val) % 128)
    (inb1 : ∀ a, k1_off1 i (BitVec.ofNat 32 g.val) a + S1x8x2176.size a ≤ S1x8x4096.size a)
    (inb2 : ∀ a, k1_off2 (BitVec.ofNat 32 g.val) a + S1x1x8x2048.size a ≤ S1x1x2048x2048.size a)
    (x : S1x1x8x2048.Idx) :
    piece amt (fun j => X ((Rect.unit (s := S1x8x4096) (k1_off1 i (BitVec.ofNat 32 g.val)) S1x8x2176.size inb1).toLoadRect.idx j)) x
      = Cert.Spec.windowsBlock X ((Rect.unit (s := S1x1x2048x2048) (k1_off2 (BitVec.ofNat 32 g.val)) S1x1x8x2048.size inb2).emb x) := by
  obtain ⟨u, w, s, j, rfl⟩ : ∃ (u w : Fin 1) (s : Fin 8) (j : Fin 2048), x = ix4 u w s j := ⟨x 0, x 1, x 2, x 3, eq_ix4 x⟩
  have hi1 : (i 1).val = 0 := by have h : (i 1).val < 1 := (i 1).isLt; omega
  have hg := g.isLt
  have hs := s.isLt
  have hj := j.isLt
  rw [piece_apply amt ((2047 - 8 * g.val) % 128) (Nat.mod_lt _ (by decide)) hamt]
  unfold Cert.Spec.windowsBlock
  refine congrArg X (funext fun a => ?_)
  match a with
  | ⟨0, _⟩ =>
    apply Fin.ext
    show k1_off1 i (BitVec.ofNat 32 g.val) 0 + 1 * 0 = 0
    rw [k1_off1_eq]; rfl
  | ⟨1, _⟩ =>
    apply Fin.ext
    show k1_off1 i (BitVec.ofNat 32 g.val) 1 + 1 * s.val = (k1_off2 (BitVec.ofNat 32 g.val) 2 + 1 * s.val) % 8
    rw [k1_off1_eq, k1_off2_eq]
    show 0 + 1 * s.val = (8 * g.val + 1 * s.val) % 8
    omega
  | ⟨2, _⟩ =>
    apply Fin.ext
    show k1_off1 i (BitVec.ofNat 32 g.val) 2 + 1 * (j.val + (2047 - 8 * g.val) % 128)
      = 2047 - 8 * ((k1_off2 (BitVec.ofNat 32 g.val) 2 + 1 * s.val) / 8) + (k1_off2 (BitVec.ofNat 32 g.val) 3 + 1 * j.val)
    rw [k1_off1_eq, k1_off2_eq]
    show 128 * ((2047 - (2048 * (i 1).val + 8 * g.val)) / 128) + 1 * (j.val + (2047 - 8 * g.val) % 128)
      = 2047 - 8 * ((8 * g.val + 1 * s.val) / 8) + (0 + 1 * j.val)
    rw [hi1]
    omega

/-- The same in the form each of the 256 stored pieces has: the trip's counter as the 32-bit word the program passes,
    the strip as what a load through the trip's rectangle reads of a buffer, the store's offsets as numbers. -/
theorem piece_window' {sig : RefSig} {κ : Kind} {sp : Space} {Val : EltTy → Type}
    (v : View sig κ sp S1x8x4096 .f32) (f : v.ty.Contents Val) (i : grid1.Coords)
    (gb : BitVec 32) (hg : gb.toNat < 256) (amt : BitVec 32)
    (hamt : amt.toNat = 2176 - (2047 - 8 * gb.toNat) % 128)
    (inb1 : ∀ a, k1_off1 i gb a + S1x8x2176.size a ≤ S1x8x4096.size a)
    (off2 : Fin 4 → Nat) (hoff2 : off2 = ![0, 0, 8 * gb.toNat, 0])
    (inb2 : ∀ a, off2 a + S1x1x8x2048.size a ≤ S1x1x2048x2048.size a)
    (x : S1x1x8x2048.Idx) :
    piece amt (v.readAt Val (Rect.unit (s := S1x8x4096) (k1_off1 i gb) S1x8x2176.size inb1).toLoadRect f) x
      = Cert.Spec.windowsBlock (v.read Val f) ((Rect.unit (s := S1x1x2048x2048) off2 S1x1x8x2048.size inb2).emb x) := by
  obtain ⟨g, rfl⟩ : ∃ g : Fin 256, gb = BitVec.ofNat 32 g.val :=
    ⟨⟨gb.toNat, hg⟩, BitVec.eq_of_toNat_eq (by rw [BitVec.toNat_ofNat]; exact (Nat.mod_eq_of_lt gb.isLt).symm)⟩
  have hgv : (BitVec.ofNat 32 g.val).toNat = g.val := by
    rw [BitVec.toNat_ofNat]; exact Nat.mod_eq_of_lt (by have := g.isLt; omega)
  rw [hgv] at hamt hoff2
  have e : off2 = k1_off2 (BitVec.ofNat 32 g.val) := by rw [hoff2, k1_off2_eq]
  subst e
  exact piece_window (v.read Val f) i g amt hamt inb1 inb2 x

end Cert.Proof.Kernel.TcPiece
-- ==== Proof.KB.TcValue.lean ====
/-
  What the second kernel's body leaves in its output block, read as a function of the block's index.

  The run of the body leaves the 256 stored pieces over contents nothing names. Read back through any whole memref of
  the block's shape that is the function taking, at each index, the payload of the piece that holds the index. The
  pieces are eight rows each and tile the 2048 rows, so every index is held; and every piece is the block's windows of
  the input block at the place the piece lands — the per-trip lemma at the trip's own rotation amount and offsets, which
  are closed 32-bit terms once the grid point's second coordinate, which has only the value 0, is written out. Hence the
  output block is the windows of the input block.
-/
import proofs.«204505_g54743653155399_cont_9to1_m_379_15_alg».proof.Proof.KB.TcBody
import proofs.«204505_g54743653155399_cont_9to1_m_379_15_alg».proof.Proof.KB.TcPiece
import Idealize.ShloMosaic.Lib.Pipeline.FrameBody
import Idealize.ShloMosaic.Lib.Pipeline.Value
import Idealize.ShloMosaic.Lib.Ring

noncomputable section

namespace Cert.Proof.Kernel.TcBody

open Cert.Kernel Cert.Kernel.Gen Cert.Proof.Kernel.TcPiece
open Idealize.ShloMosaic Idealize.ShloMosaic.ValueIdx
open Idealize.ShloMosaic.TcCoe Idealize.ShloMosaic.Tactic

variable {F : FTy → Type} [FloatOps F]

/-- A grid point with its second coordinate written out: the grid's second axis has one point. -/
def pt2 (i0 : Fin 16) : grid1.Coords := fun a => match a with
  | ⟨0, _⟩ => i0
  | ⟨1, _⟩ => (0 : Fin 1)
  | ⟨_ + 2, h⟩ => absurd h (Nat.not_lt.2 (Nat.le_add_left _ _))

theorem eq_pt2 (i : grid1.Coords) : i = pt2 (i 0) := by
  funext a
  match a with
  | ⟨0, _⟩ => rfl
  | ⟨1, _⟩ => exact Fin.ext (by have h : (i 1).val < 1 := (i 1).isLt; show (i 1).val = 0; omega)

set_option maxHeartbeats 200000 in
/-- What the run leaves in the output block's buffer: the 256 stored pieces, last store first, over contents nothing
    names. -/
theorem witness_eq (c : Dev nD) (i : grid1.Coords)
    (M0 : Memref sig .tc .vmem S1x8x4096 .f32) (h0 : M0.IsWhole) (M1 : Memref sig .tc .vmem S1x1x2048x2048 .f32) (h1 : M1.IsWhole)
    (f0 : Bf (F := F) c M0) :
    (bodyRun c i M0 h0 M1 h1 f0).1 = M1.view.writes (Elt F) M1.view.junk (bodyRun.sl.H1_256 c i M0 f0) := by
  first
    | (delta bodyRun; dsimp only; done)
    | (delta bodyRun; dsimp only; rfl)

set_option maxHeartbeats 2000000 in
set_option maxRecDepth 65536 in
/-- Every stored piece is the block's windows of the input at the place the piece lands: the per-trip lemma at each of
    the 256 trips, the trip's rotation amount and offsets evaluated. -/
theorem pieces_window (c : Dev nD) (i0 : Fin 16) (M0 : Memref sig .tc .vmem S1x8x4096 .f32) (f0 : Bf (F := F) c M0) :
    ∀ p ∈ bodyRun.sl.H1_256 c (pt2 i0) M0 f0, ∀ x : p.1.shape.Idx,
      p.2 x = Cert.Spec.windowsBlock (M0.view.read (Elt F) f0) (p.1.emb x) := by
  refine List.forall_mem_cons.2 ⟨fun x => piece_window' (Val := Elt F) M0.view f0 (pt2 i0) _ (by decide +kernel) _ (by decide +revert +kernel) _ _ (by rfl) (by decide +kernel) x, ?_⟩
  repeat (refine List.forall_mem_cons.2 ⟨fun x => piece_window' (Val := Elt F) M0.view f0 (pt2 i0) _ (by decide +kernel) _ (by decide +revert +kernel) _ _ (by rfl) (by decide +kernel) x, ?_⟩)
  first | exact fun _ h => absurd h List.not_mem_nil | fail "the walk over the pieces stopped early"

set_option maxHeartbeats 400000 in
set_option maxRecDepth 65536 in
/-- The 256 pieces, eight rows each, tile the block's 2048 rows: every index of the block lies in one of them. -/
theorem pieces_cover (c : Dev nD) (i : grid1.Coords) (M0 : Memref sig .tc .vmem S1x8x4096 .f32) (f0 : Bf (F := F) c M0)
    (y : S1x1x2048x2048.Idx) : ∃ p ∈ bodyRun.sl.H1_256 c i M0 f0, y ∈ p.1.set :=
  View.cover_of_tiledL (bodyRun.sl.H1_256 c i M0 f0) S1x1x8x2048.size (by sl_kernel_rfl) y

set_option maxHeartbeats 200000 in
/-- What the body leaves in the output block, read through the block's memref: the windows of the input block. -/
theorem bodyRun_read (c : Dev nD) (i : grid1.Coords)
    (M0 : Memref sig .tc .vmem S1x8x4096 .f32) (h0 : M0.IsWhole) (M1 : Memref sig .tc .vmem S1x1x2048x2048 .f32) (h1 : M1.IsWhole)
    (f0 : Bf (F := F) c M0) :
    M1.view.read (Elt F) (bodyRun c i M0 h0 M1 h1 f0).1 = Cert.Spec.windowsBlock (M0.view.read (Elt F) f0) := by
  obtain ⟨i0, rfl⟩ : ∃ i0, i = pt2 i0 := ⟨i 0, eq_pt2 i⟩
  rw [witness_eq, View.read_writes_junk_eq_canon]
  funext y
  exact View.canon_apply_of_pieces (Cert.Spec.windowsBlock (M0.view.read (Elt F) f0)) _ (pieces_window c i0 M0 f0) y
    (pieces_cover c (pt2 i0) M0 f0 y)

end Cert.Proof.Kernel.TcBody

end
-- ==== Proof.KI.Setup.lean ====
/-
  What the launch of the program and the proofs of its two kernels share: the program as the launch theorem of a
  SparseCore program reads it, the ghost state (the handshakes' rounds, the rounds of the second kernel's staging cells,
  the counters of local copies), the five arrays as locations of a device, and what each handshake carries.

  The first kernel runs on the thirty-two vector subcores. Subcore `i` of SparseCore `c` does four tasks
  `t = 4 (2 i + c) + u`, `u < 4`: head `h = t / 8 = i`, row residue `s = t % 8 = 4 c + u`. It reads row `i` of the
  transposed table (so do both SparseCores: each holds half a share of it) and writes rows `(i, 4 c + u)` of the
  profile table, which nobody else touches. So a SparseCore is handed half a share of the transposed table and the
  sixty-four profile rows `(h, 4 c + u)`; a subcore its row of the former and its four rows of the latter; and they
  come back with the profile rows holding the profile of the transposed table.
-/
import proofs.«204505_g54743653155399_cont_9to1_m_379_15_alg».proof.KernelIdeal
import proofs.«204505_g54743653155399_cont_9to1_m_379_15_alg».proof.Proof.Gen.KernelIdeal
import proofs.«204505_g54743653155399_cont_9to1_m_379_15_alg».proof.Proof.Spec
import Idealize.ShloMosaic.Lib.SparseCore.Launch
import Idealize.ShloMosaic.Lib.Pipeline.Kit
import Idealize.ShloMosaic.Lib.Pipeline.Regions
import Idealize.ShloMosaic.Lib.Tactic

noncomputable section

namespace Cert.Proof.KernelIdeal.Setup

open Cert.KernelIdeal

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging cells' rounds, the local copies' counters -/

abbrev UH : Type := URounds (GSem nD τ sig) ℕ
abbrev UP : Type := URounds (GSem nD τ sig) Unit
abbrev UU : Type := UH × (UP × Counters)

/-- The model every assertion of this proof is about. -/
abbrev MM (F : FTy → Type) : Type := MT nD τ sig (HIx 1) (Elt F) ℕ UU ℕ

local notation "𝕄" => MM F

/-- The handshakes' rounds: the left factor. -/
abbrev EH : Emb UH (MM F) := embL
/-- The staging cells' rounds: the left factor of the right factor. -/
def EP : Emb UP (MM F) := (Emb.inl : Emb UP (UP × Counters)).trans embR

instance EP_landsIn : (EP : Emb UP (MM F)).LandsIn (upEmb : UEmb _ (MM F)) := by unfold EP; infer_instance

/-! ## The arrays -/

variable (m : (ℓ : Loc nD τ sig) → Buf (Elt F) ℓ) (ρ : Dev nD → PrngReg)

/-- `attn` and `W` (the arguments), the transposed table, the profile table, the result, as locations of device `d`. -/
abbrev aLoc (d : Dev nD) : Loc nD τ sig := (SparseCore.T d).loc main_arg0
abbrev wLoc (d : Dev nD) : Loc nD τ sig := (SparseCore.T d).loc main_arg1
abbrev tLoc (d : Dev nD) : Loc nD τ sig := (SparseCore.T d).loc main_v0
abbrev pLoc (d : Dev nD) : Loc nD τ sig := (SparseCore.T d).loc main_v1
abbrev oLoc (d : Dev nD) : Loc nD τ sig := (SparseCore.T d).loc main_v2

/-- The transposed table and the profile table as the program's later stages find them: functions of `W` at launch. -/
def wtVal (d : Dev nD) : Buf (Elt F) (tLoc d) := Cert.Spec.transposed (m (wLoc d))
def v2Val (d : Dev nD) : Buf (Elt F) (pLoc d) := Cert.Spec.profileT (wtVal m d)
def outVal (d : Dev nD) : Buf (Elt F) (oLoc d) := Cert.Spec.windows (v2Val m d)

theorem outVal_eq (d : Dev nD) : outVal m d = Cert.Spec.bias (m (wLoc d)) := by
  unfold outVal v2Val wtVal
  rw [Cert.Spec.profileT_transposed, Cert.Spec.windows_profile]

/-- Row `h` of the transposed table; row `(h, r)` of the profile table. -/
def tRow (h : Fin 16) : Finset S16x16.Idx := Finset.univ.filter fun y => (y 0).val = h.val
def pRow (h : Fin 16) (r : Fin 8) : Finset S16x8x4096.Idx := Finset.univ.filter fun y => (y 0).val = h.val ∧ (y 1).val = r.val

/-- The half of the full share SparseCore `c` reads the transposed table with. -/
def half (c : ℕ) : PosShare TreeShare := if c = 0 then fullShare.left else fullShare.right

/-- The residue of subcore-task `u` on SparseCore `c`: `4 c + u`. -/
def res (c : Fin 2) (u : Fin 4) : Fin 8 := ⟨4 * c.val + u.val, by omega⟩

variable [FloatOps F]

/-- What SparseCore `c` is handed: half a share of the transposed table, its sixty-four profile rows at `f`. -/
def forCore (d : Dev nD) (c : Fin 2) (f : Buf (Elt F) (pLoc d)) : sProp 𝕄 :=
  iprop((tLoc d ↦{half c.val} wtVal m d)
    ∗ bigSep Finset.univ fun i : Fin 16 => bigSep Finset.univ fun u : Fin 4 => pLoc d ↦[pRow i (res c u)]{fullShare} f)

/-- What subcore `i` of SparseCore `c` is handed: its row of the transposed table at that share, its four profile rows at `f`. -/
def forTile (d : Dev nD) (c : Fin 2) (i : Fin 16) (f : Buf (Elt F) (pLoc d)) : sProp 𝕄 :=
  iprop((tLoc d ↦[tRow i]{half c.val} wtVal m d)
    ∗ bigSep Finset.univ fun u : Fin 4 => pLoc d ↦[pRow i (res c u)]{fullShare} f)

/-- The one SparseCore call: out with the profile rows at their launch contents, back with them at the profile of the
    transposed table. Neither kernel's proof consumes anything of the launch's. -/
def P : (K (F := F)).Pay (nD := nD) (Val := Elt F) (Name := ℕ) (U := UU) where
  st := fun q d c => match q with | 0 => forCore m d (Fin.cast nCore_zero c) (m (pLoc d))
  dn := fun q d c => match q with | 0 => forCore m d (Fin.cast nCore_zero c) (v2Val m d)
  go := fun q d c i => match q with | 0 => forTile m d (Fin.cast nCore_zero c) (Fin.cast nSub_zero i) (m (pLoc d))
  td := fun q d c i => match q with | 0 => forTile m d (Fin.cast nCore_zero c) (Fin.cast nSub_zero i) (v2Val m d)
  x := fun _ _ => iprop(emp)

instance forCore_storable (d : Dev nD) (c : Fin 2) (f : Buf (Elt F) (pLoc d)) : BI.Storable (upEmb : UEmb _ 𝕄) (forCore m d c f) := by
  unfold forCore; infer_instance
instance forTile_storable (d : Dev nD) (c : Fin 2) (i : Fin 16) (f : Buf (Elt F) (pLoc d)) : BI.Storable (upEmb : UEmb _ 𝕄) (forTile m d c i f) := by
  unfold forTile; infer_instance

instance P_storable : (P (F := F) m).IsStorable where
  st q d c := match q with | 0 => (inferInstance : BI.Storable (upEmb : UEmb _ 𝕄) (forCore m d (Fin.cast nCore_zero c) (m (pLoc d))))
  dn q d c := match q with | 0 => (inferInstance : BI.Storable (upEmb : UEmb _ 𝕄) (forCore m d (Fin.cast nCore_zero c) (v2Val m d)))
  go q d c i := match q with | 0 => (inferInstance : BI.Storable (upEmb : UEmb _ 𝕄) (forTile m d (Fin.cast nCore_zero c) (Fin.cast nSub_zero i) (m (pLoc d))))
  td q d c i := match q with | 0 => (inferInstance : BI.Storable (upEmb : UEmb _ 𝕄) (forTile m d (Fin.cast nCore_zero c) (Fin.cast nSub_zero i) (v2Val m d)))

end Cert.Proof.KernelIdeal.Setup

end
-- ==== Proof.KI.Split.lean ====
/-
  How the arrays divide among the SparseCores and their subcores, and come back together.

  The rows of the transposed table are pairwise disjoint and cover it; so are the rows `(h, r)` of the profile table.
  Hence what a SparseCore holds — half a share of the whole transposed table, its sixty-four profile rows — IS what its
  sixteen subcores hold together, before the tasks and after them; and the transposed table at the full share with
  the whole profile table IS what the two SparseCores hold together. Because every profile row comes back holding the
  ONE whole-array function, the rows rejoin to the array at that function with no piecing.
-/
import proofs.«204505_g54743653155399_cont_9to1_m_379_15_alg».proof.Proof.KI.Setup

noncomputable section

namespace Cert.Proof.KernelIdeal.Split

open Cert.KernelIdeal Cert.Proof.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MM F

/-! ## The rows partition the arrays -/

theorem tRows_disjoint : ∀ i ∈ (Finset.univ : Finset (Fin 16)), ∀ j ∈ (Finset.univ : Finset (Fin 16)), i ≠ j → Disjoint (tRow i) (tRow j) :=
  fun i _ j _ hne => Finset.disjoint_filter.mpr fun _ _ h1 h2 => hne (Fin.ext (h1.symm.trans h2))

theorem tRows_cover : (Finset.univ : Finset (Fin 16)).biUnion tRow = Finset.univ := by
  ext y
  simp only [Finset.mem_biUnion, Finset.mem_univ, true_and, iff_true, tRow, Finset.mem_filter]
  exact ⟨⟨(y 0).val, (y 0).isLt⟩, rfl⟩

/-- A profile row is named by a SparseCore, a subcore and a task of it. -/
abbrev pRowOf (x : Fin 2 × Fin 16 × Fin 4) : Finset S16x8x4096.Idx := pRow x.2.1 (res x.1 x.2.2)

theorem res_injective : ∀ c c' : Fin 2, ∀ u u' : Fin 4, res c u = res c' u' → c = c' ∧ u = u' := by
  intro c c' u u' h
  have h' : 4 * c.val + u.val = 4 * c'.val + u'.val := congrArg Fin.val h
  exact ⟨Fin.ext (by omega), Fin.ext (by omega)⟩

theorem pRows_disjoint : ∀ x ∈ (Finset.univ : Finset (Fin 2 × Fin 16 × Fin 4)), ∀ x' ∈ (Finset.univ : Finset (Fin 2 × Fin 16 × Fin 4)),
    x ≠ x' → Disjoint (pRowOf x) (pRowOf x') := by
  intro x _ x' _ hne
  refine Finset.disjoint_filter.mpr fun y _ h1 h2 => hne ?_
  have hi : x.2.1 = x'.2.1 := Fin.ext (h1.1.symm.trans h2.1)
  have hr : res x.1 x.2.2 = res x'.1 x'.2.2 := Fin.ext (h1.2.symm.trans h2.2)
  obtain ⟨hc, hu⟩ := res_injective _ _ _ _ hr
  exact Prod.ext hc (Prod.ext hi hu)

theorem pRows_cover : (Finset.univ : Finset (Fin 2 × Fin 16 × Fin 4)).biUnion pRowOf = Finset.univ := by
  ext y
  simp only [Finset.mem_biUnion, Finset.mem_univ, true_and, iff_true, pRowOf, pRow, Finset.mem_filter]
  have h1 : (y 1).val < 8 := (y 1).isLt
  refine ⟨(⟨(y 1).val / 4, by omega⟩, ⟨(y 0).val, (y 0).isLt⟩, ⟨(y 1).val % 4, Nat.mod_lt _ (by decide)⟩), rfl, ?_⟩
  show (y 1).val = 4 * ((y 1).val / 4) + (y 1).val % 4
  omega

/-! ## A SparseCore's holdings are its subcores' -/

theorem tPts_rows (d : Dev nD) (q : PosShare TreeShare) (f : Buf (Elt F) (tLoc d)) :
    (tLoc d ↦{q} f : sProp 𝕄) = bigSep Finset.univ fun i : Fin 16 => tLoc d ↦[tRow i]{q} f := by
  rw [← pointsTo_biUnion Finset.univ (ℓ := tLoc d) tRow tRows_disjoint, tRows_cover]; try rfl

variable (m : (ℓ : Loc nD τ sig) → Buf (Elt F) ℓ) [FloatOps F]

theorem forCore_eq (d : Dev nD) (c : Fin 2) (f : Buf (Elt F) (pLoc d)) :
    forCore m d c f = bigSep Finset.univ fun i : Fin 16 => forTile m d c i f := by
  unfold forCore forTile
  rw [bigSep_sep', tPts_rows]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's operands for a SparseCore are its tasks' together, and so are its results. -/
theorem vecSplit : (K (F := F)).VecSplit' (P m) 0 := by
  intro d c
  show forCore m d (Fin.cast nCore_zero c) (m (pLoc d)) ⊢ |={Set.univ}=> iprop(
      (bigSep Finset.univ fun i : Fin ((K (F := F)).nSub 0) => forTile m d (Fin.cast nCore_zero c) (Fin.cast nSub_zero i) (m (pLoc d)))
      ∗ ((bigSep Finset.univ fun i : Fin ((K (F := F)).nSub 0) => forTile m d (Fin.cast nCore_zero c) (Fin.cast nSub_zero i) (v2Val m d))
          -∗ forCore m d (Fin.cast nCore_zero c) (v2Val m d)))
  rw [bigSep_tasks (F := F) (fun i => forTile m d (Fin.cast nCore_zero c) i (m (pLoc d))),
    bigSep_tasks (F := F) (fun i => forTile m d (Fin.cast nCore_zero c) i (v2Val m d)), forCore_eq, forCore_eq]
  iintro H; imodintro
  isplitl [H]; · iexact H
  iintro H; iexact H

/-! ## The arrays are the two SparseCores' holdings -/

theorem pPts_rows (d : Dev nD) (f : Buf (Elt F) (pLoc d)) :
    (pLoc d ↦{fullShare} f : sProp 𝕄)
      = bigSep Finset.univ fun c : Fin 2 => bigSep Finset.univ fun i : Fin 16 => bigSep Finset.univ fun u : Fin 4 => pLoc d ↦[pRow i (res c u)]{fullShare} f := by
  rw [← bigSep_congr (fun c _ => bigSep_univ_prod (fun x : Fin 16 × Fin 4 => (pLoc d ↦[pRow x.1 (res c x.2)]{fullShare} f : sProp 𝕄))),
    ← bigSep_univ_prod (fun x : Fin 2 × Fin 16 × Fin 4 => (pLoc d ↦[pRowOf x]{fullShare} f : sProp 𝕄)),
    ← pointsTo_biUnion Finset.univ (ℓ := pLoc d) pRowOf pRows_disjoint, pRows_cover]; try rfl

theorem tPts_halves (d : Dev nD) (f : Buf (Elt F) (tLoc d)) :
    (tLoc d ↦{fullShare} f : sProp 𝕄) ⊣⊢ iprop((tLoc d ↦{half (0 : Fin 2).val} f) ∗ tLoc d ↦{half (1 : Fin 2).val} f) :=
  pointsTo_share (PosShare.mem_left_op_right fullShare)

/-- The transposed table at the full share and the whole profile table at `f` are what the two SparseCores hold. -/
theorem cores_of_arrays (d : Dev nD) (f : Buf (Elt F) (pLoc d)) :
    iprop((tLoc d ↦{fullShare} wtVal m d) ∗ pLoc d ↦{fullShare} f) ⊣⊢ (iprop(forCore m d 0 f ∗ forCore m d 1 f) : sProp 𝕄) := by
  unfold forCore
  rw [pPts_rows, show (Finset.univ : Finset (Fin 2)) = {0, 1} by decide, SparseCore.bigSep_insert' (by decide), bigSep_singleton]
  constructor
  · iintro ⟨Ht, H0, H1⟩
    ihave Ht' := (tPts_halves d _).1 $$ Ht
    icases Ht' with ⟨Ht0, Ht1⟩
    isplitl [Ht0 H0]
    · isplitl [Ht0]; · iexact Ht0
      iexact H0
    · isplitl [Ht1]; · iexact Ht1
      iexact H1
  · iintro ⟨⟨Ht0, H0⟩, Ht1, H1⟩
    isplitl [Ht0 Ht1]
    · iapply (tPts_halves d _).2
      isplitl [Ht0]; · iexact Ht0
      iexact Ht1
    · isplitl [H0]; · iexact H0
      iexact H1

end Cert.Proof.KernelIdeal.Split

end
-- ==== Proof.KI.Region.lean ====
/-
  The second kernel as one region of @main: the head-by-head pipeline that turns each head's block of the profile
  table into the head's block of the result.

  The grid has sixteen points, one per head `h`. At point `h` the pipeline fetches the block `[h, :, :]` of the profile
  table, the body writes the block `[h, 0, :, :]` of the result as the windows of what it fetched
  (`blk[0, 0, i, j] = x[0, i % 8, 2047 - 8 (i / 8) + j]`), and the pipeline writes it back. The blocks of the result
  tile it, so after the last point the result is the windows of the whole profile table.
-/
import proofs.«204505_g54743653155399_cont_9to1_m_379_15_alg».proof.Proof.KI.Setup
import proofs.«204505_g54743653155399_cont_9to1_m_379_15_alg».proof.Proof.Gen.KernelIdeal.Launch
import proofs.«204505_g54743653155399_cont_9to1_m_379_15_alg».proof.Proof.Gen.KernelIdeal.Points
import Idealize.ShloMosaic.Lib.Pipeline.Frame
import Idealize.ShloMosaic.Lib.Pipeline.FrameBody
import Idealize.ShloMosaic.Lib.Pipeline.Value

set_option maxRecDepth 16384

noncomputable section

namespace Cert.Proof.KernelIdeal.Region

open Cert.KernelIdeal Cert.KernelIdeal.Gen Cert.Proof.KernelIdeal.Setup

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## What the body does, as the proof of the body supplies it -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The body run once at symbolic operands: from the input buffer at `f0` and the output buffer at anything it returns with
    the input as it was and the output at a function of `f0` alone, which reads as the windows of what `f0` reads as. -/
structure BodySpec (F : FTy → Type) [FloatOps F] where
  run : (c : Dev nD) → (i : grid1.Coords) → (M0 : Memref sig .tc .vmem S1x8x4096 .f32) → (h0 : M0.IsWhole)
    → (M1 : Memref sig .tc .vmem S1x1x2048x2048 .f32) → (h1 : M1.IsWhole) → (f0 : Bf (F := F) c M0) →
    { W : Bf (F := F) c M1 // ∀ (f1 : Bf (F := F) c M1) (E : Set ℕ) (Q : PUnit → sProp (MM F)),
        iprop(pt c M0 f0 ∗ pt c M1 f1 ∗ (iprop(pt c M0 f0 ∗ pt c M1 W) -∗ Q ⟨⟩))
          ⊢ wp frame (wpE (defs₀ (F := F)) Variants.none c none) E (cc1__lambda_ i M0 h0 M1 h1) Q }
  read : ∀ (c : Dev nD) (i : grid1.Coords) (M0 : Memref sig .tc .vmem S1x8x4096 .f32) (h0 : M0.IsWhole)
    (M1 : Memref sig .tc .vmem S1x1x2048x2048 .f32) (h1 : M1.IsWhole) (f0 : Bf (F := F) c M0),
    M1.view.read (Elt F) (run c i M0 h0 M1 h1 f0).1 = Cert.Spec.windowsBlock (M0.view.read (Elt F) f0)

variable (B : BodySpec F)

/-! ## The pipeline's proof data -/

abbrev adm : (p : Fin 1) → (pcfgs (F := F) p).Adm := fun p => (cfgs p).toPCfg_adm

-- the TensorCore's arrays on core `c` as the region finds them
variable (c : Dev nD) (Vc : (b : Ref sig .tc) → Buf (Elt F) ((c : Thread nD τ).loc b))

/-- The head's block of the profile table at point `t`. -/
def iblk (t : Fin cfg1.N) : ((cfg1.win 0).xblock (cfg1.grid.coords t)).Idx → Elt F (cfg1.win 0).elt :=
  ((cfg1.win 0).blk t).view.read (Elt F) (Vc (Pipeline.arrRef spec1 0))

/-- The level bound the TensorCore's recorded waits keep through the region: those of its handshakes so far. -/
def recBound : Set (SemLoc sig × HIx 1) := {p | (K (F := F)).lev ((c : Thread nD τ), p.1) p.2 ≤ 8}

/-- The proof data: the arrays as the region finds them; after the body at point `t` the input's buffer at its block and
    the output's at the windows of it; no invariant; nothing owed; the recorded waits below the bound. -/
def dat : Dat τ (Elt F) (HIx 1) ℕ UU ℕ cfg1 c where
  A w := Vc (Pipeline.arrRef spec1 w)
  after w t := match w with
    | ⟨0, _⟩ => iblk c Vc t
    | ⟨1, _⟩ => Cert.Spec.windowsBlock (iblk c Vc t)
  Φ _ := iprop(emp)
  q _ := fullShare
  owed _ := 0
  recorded _ := recBound (F := F) c

theorem A_eq (w : Fin cfg1.W) : (dat (F := F) c Vc).A w = Vc (Pipeline.arrRef spec1 w) := by dsimp only [dat]
theorem after_0 (t : Fin cfg1.N) : (dat (F := F) c Vc).after 0 t = iblk c Vc t := by dsimp only [dat]
theorem after_1 (t : Fin cfg1.N) : (dat (F := F) c Vc).after 1 t = Cert.Spec.windowsBlock (iblk c Vc t) := by dsimp only [dat]

/-- The input's current staging buffer holds the head's block at every point. -/
theorem before_0 (t : Fin cfg1.N) (d) : (dat (F := F) c Vc).before 0 t d = iblk c Vc t :=
  ((dat (F := F) c Vc).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

/-! ## The body obligation -/

theorem hst0 (t : Fin cfg1.N) : (st1_0 t).IsWhole := hstage1_0 ((cfg1.slots t 0).cast nbuf1_0)
theorem hst1 (t : Fin cfg1.N) : (st1_1 t).IsWhole := hstage1_1 ((cfg1.slots t 1).cast nbuf1_1)

def bodyPre (t : Fin cfg1.N) : sProp 𝕄 :=
  iprop((dat (F := F) c Vc).Φ t.castSucc ∗ (dat (F := F) c Vc).owesAt none t.castSucc
    ∗ (∃ d, owns (c : Thread nD τ) (st1_0 t) fullShare ((dat (F := F) c Vc).before 0 t d))
    ∗ (∃ d, owns (c : Thread nD τ) (st1_1 t) fullShare ((dat (F := F) c Vc).before 1 t d)))

def bodyPost (t : Fin cfg1.N) : sProp 𝕄 :=
  iprop((dat (F := F) c Vc).Φ t.succ ∗ (dat (F := F) c Vc).owesAt none t.succ
    ∗ owns (c : Thread nD τ) (st1_0 t) fullShare ((dat (F := F) c Vc).after 0 t)
    ∗ owns (c : Thread nD τ) (st1_1 t) fullShare ((dat (F := F) c Vc).after 1 t))

include B in
/-- The body at any point: the input's buffer holds the head's block, the body leaves the windows of it in the output's. -/
theorem sound_body (t : Fin cfg1.N) :
    bodyPre c Vc t ⊢ wp frame (wpE (defs₀ (F := F)) Variants.none c none) Set.univ (bodyAt1 t) (fun _ => bodyPost c Vc t) := by
  unfold bodyPre bodyPost bodyAt1
  simp only [before_0]
  rw [show (dat (F := F) c Vc).Φ t.succ = (dat (F := F) c Vc).Φ t.castSucc from rfl,
    show (dat (F := F) c Vc).owesAt none t.succ = (dat (F := F) c Vc).owesAt none t.castSucc from rfl, after_0, after_1]
  unfold owns
  rw [(hst0 t).set_eq_univ, (hst1 t).set_eq_univ]
  iintro ⟨HΦ, HO, ⟨%d0, %f0, %hf0, H0⟩, ⟨%d1, %f1, %hf1, H1⟩⟩
  iapply ((B.run c (grid1.coords t) (st1_0 t) (hst0 t) (st1_1 t) (hst1 t) f0).2 f1 Set.univ _)
  isplitl [H0]; · iexact H0
  isplitl [H1]; · iexact H1
  iintro ⟨H0, H1⟩
  isplitl [HΦ]; · iexact HΦ
  isplitl [HO]; · iexact HO
  isplitl [H0]
  · iexists f0; isplitr; · ipureintro; exact hf0
    iexact H0
  iexists _; isplitr
  swap; · iexact H1
  ipureintro
  rw [B.read, hf0]

include B in
theorem body_obligation : BodyObligation (dat (F := F) c Vc) (defs₀ (F := F)) Variants.none none Set.univ := fun t => by
  rw [bigSep_W1, bigSep_W1]
  exact sound_body B c Vc t

/-! ## The result after the last point -/

section Final

/-- The printed index maps over the sixteen points: both windows move along the head axis together and stay at the
    origin of the other axes. -/
theorem idx_facts : ∀ t : Fin cfg1.N, win1_0.index t (0 : Fin 3) = win1_1.index t (0 : Fin 4)
    ∧ win1_0.index t (1 : Fin 3) = 0 ∧ win1_0.index t (2 : Fin 3) = 0
    ∧ win1_1.index t (1 : Fin 4) = 0 ∧ win1_1.index t (2 : Fin 4) = 0 ∧ win1_1.index t (3 : Fin 4) = 0
    ∧ win1_1.index t (0 : Fin 4) ≤ 15 :=
  (by decide +kernel : ∀ t : Fin grid1.N, _)

/-- Every head is some point's. -/
theorem idx_onto : ∀ q0 : Fin 16, ∃ t : Fin cfg1.N, win1_1.index t = ![q0.val, 0, 0, 0] :=
  (by decide +kernel : ∀ q0 : Fin 16, ∃ t : Fin grid1.N, win1_1.index t = ![q0.val, 0, 0, 0])

/-- What point `t` writes back is block `t` of the windows of the whole profile table: the windows of a head's block
    are the head's block of the windows. -/
theorem flushed_eq (t : Fin cfg1.N) :
    (dat (F := F) c Vc).flushed 1 t
      = ((cfg1.win 1).blk t).view.read (Elt F) (Cert.Spec.windows (Vc (Pipeline.arrRef spec1 0))) := by
  show (cfg1.win 1).cut (grid1.coords t) ((dat (F := F) c Vc).after 1 t) = _
  rw [after_1]
  obtain ⟨e0, e1, e2, e3, e4, e5, e6⟩ := idx_facts t
  funext j
  show Vc (Pipeline.arrRef spec1 0) (((cfg1.win 0).blk t).view.emb
        (ValueIdx.ix3 (0 : Fin 1) (⟨(j 2).val % 8, Nat.mod_lt _ (by decide)⟩ : Fin 8)
          (⟨2047 - 8 * ((j 2).val / 8) + (j 3).val, Cert.Spec.window_lt _ _ (j 2).isLt (j 3).isLt⟩ : Fin 4096)))
      = Cert.Spec.windows (Vc (Pipeline.arrRef spec1 0)) (((cfg1.win 1).blk t).view.emb j)
  unfold Cert.Spec.windows
  refine congrArg (Vc (Pipeline.arrRef spec1 0)) (funext fun a => Fin.ext ?_)
  have hj0 : (j 0).val < 1 := (j 0).isLt
  have hj1 : (j 1).val < 1 := (j 1).isLt
  have hj2 : (j 2).val < 2048 := (j 2).isLt
  have hj3 : (j 3).val < 2048 := (j 3).isLt
  match a with
  | ⟨0, _⟩ =>
    show win1_0.index t (0 : Fin 3) * 1 + 1 * 0 = win1_1.index t (0 : Fin 4) * 1 + 1 * (j 0).val
    omega
  | ⟨1, _⟩ =>
    show win1_0.index t (1 : Fin 3) * 8 + 1 * ((j 2).val % 8) = (win1_1.index t (2 : Fin 4) * 2048 + 1 * (j 2).val) % 8
    omega
  | ⟨2, _⟩ =>
    show win1_0.index t (2 : Fin 3) * 4096 + 1 * (2047 - 8 * ((j 2).val / 8) + (j 3).val)
      = 2047 - 8 * ((win1_1.index t (2 : Fin 4) * 2048 + 1 * (j 2).val) / 8) + (win1_1.index t (3 : Fin 4) * 2048 + 1 * (j 3).val)
    omega

/-- An index of the result is in point `t`'s block iff each coordinate is in the block's range on its axis. -/
theorem mem_blk (t : Fin cfg1.N) (i : S16x1x2048x2048.Idx) :
    i ∈ ((cfg1.win 1).blk t).view.set ↔ ∀ a : Fin 4, win1_1.index t a * S1x1x2048x2048.size a ≤ (i a).val
      ∧ (i a).val < win1_1.index t a * S1x1x2048x2048.size a + S1x1x2048x2048.size a := by
  show i ∈ ((View.whole main_v2).slice (win1_1.rect t)).set ↔ _
  rw [View.set_slice_whole, Rect.mem_set_unit]
  exact Iff.rfl

/-- Every index of the result is in some point's block: its head's. -/
theorem covered (i : S16x1x2048x2048.Idx) : ∃ t : Fin cfg1.N, (cfg1.win 1).flush t = true ∧ i ∈ ((cfg1.win 1).blk t).view.set := by
  have hi0 : (i 0).val < 16 := (i 0).isLt
  have hi1 : (i 1).val < 1 := (i 1).isLt
  have hi2 : (i 2).val < 2048 := (i 2).isLt
  have hi3 : (i 3).val < 2048 := (i 3).isLt
  obtain ⟨t, ht⟩ := idx_onto ⟨(i 0).val, hi0⟩
  have q0 : win1_1.index t (0 : Fin 4) = (i 0).val := congrFun ht 0
  have q1 : win1_1.index t (1 : Fin 4) = 0 := congrFun ht 1
  have q2 : win1_1.index t (2 : Fin 4) = 0 := congrFun ht 2
  have q3 : win1_1.index t (3 : Fin 4) = 0 := congrFun ht 3
  refine ⟨t, flush1_1 t, ?_⟩
  rw [mem_blk]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 1 ≤ (i 1).val ∧ (i 1).val < win1_1.index t (1 : Fin 4) * 1 + 1; omega
  | ⟨2, _⟩ => show win1_1.index t (2 : Fin 4) * 2048 ≤ (i 2).val ∧ (i 2).val < win1_1.index t (2 : Fin 4) * 2048 + 2048; omega
  | ⟨3, _⟩ => show win1_1.index t (3 : Fin 4) * 2048 ≤ (i 3).val ∧ (i 3).val < win1_1.index t (3 : Fin 4) * 2048 + 2048; omega

/-- The result after the last point: the windows of the profile table as the region found it. -/
theorem final_out : (dat (F := F) c Vc).arrAt 1 cfg1.N = Cert.Spec.windows (Vc (Pipeline.arrRef spec1 0)) := by
  funext i
  rw [(dat (F := F) c Vc).arrAt_eq_piecewise 1 _ (fun t _ => flushed_eq c Vc t) i]
  exact if_pos (covered i)

/-- The profile table after the last point: as the region found it (the pipeline only reads it). -/
theorem final_in : (dat (F := F) c Vc).arrAt 0 cfg1.N = Vc (Pipeline.arrRef spec1 0) :=
  ((dat (F := F) c Vc).arrAt_in 0 rfl _).trans (A_eq c Vc 0)

end Final

/-! ## The region -/

section Seg

-- every core's TensorCore arrays as the region finds them
variable (VV : (c : Dev nD) → (b : Ref sig .tc) → Buf (Elt F) ((c : Thread nD τ).loc b))

def pdats : (p : Fin 1) → (c : Dev nD) → Dat τ (Elt F) (HIx 1) ℕ UU ℕ (Pipeline.pin (pcfgs (F := F)) adm p) c
  | 0 => fun c => dat c (VV c)

abbrev LL : GSem nD τ sig → Finset (HIx 1) := (K (F := F)).L
abbrev lvl : GSem nD τ sig → HIx 1 → ℕ := (K (F := F)).lev

/-- What the core holds beside its arrays when it enters the region: it owes nothing, its recorded waits below the bound. -/
def owesIn (c : Dev nD) : sProp 𝕄 := iprop(∃ W : Waits sig (HIx 1), ⌜(↑W : Set (SemLoc sig × HIx 1)) ⊆ recBound (F := F) c⌝ ∗ owes (c : Thread nD τ) 0 W)

include B in
/-- The region: the profile table and the result into the pipeline, the other arrays bypassing, the core owing nothing
    throughout; it leaves with the two arrays at what the pipeline computes from the proof data. -/
def reg : Pipeline.RegionSeg (pcfgs (F := F)) adm (pdats VV) none defs₀ 𝒱₀ (LL (F := F)) (lvl (F := F)) 0 where
  win := launch1.win.to₀
  block_pos := launch1.block_pos
  stage_whole := launch1.stage_whole
  K := PEmpty
  osem k := k.elim
  ho := Pipeline.OwnSemFacts.none _
  hbody c := (body_obligation B c (VV c)).loose
  hwaits c := (show (levAts (LL (F := F)) (lvl (F := F)) : sProp 𝕄) ⊢ emp by iintro -; iempintro).trans
    (Pipeline.cellsWaits_of_owed_zero _ (pdats VV) none 0 c fun _ => rfl)
  pre c := iprop(unscopedBufs c (VV c) ∗ owesIn c)
  post c := iprop((pdats VV 0 c).arrays ((pdats VV 0 c).arrAt · (Pipeline.pin (pcfgs (F := F)) adm 0).N)
    ∗ Pipeline.unscopedRest (Ix := HIx 1) (Name := ℕ) (U := UU) (Lvl := ℕ) spec1 c (VV c)
    ∗ (pdats VV 0 c).owesAt none (Fin.last (Pipeline.pin (pcfgs (F := F)) adm 0).N))
  X _ := iprop(emp)
  Y _ := iprop(emp)
  Z c := Pipeline.unscopedRest (Ix := HIx 1) (Name := ℕ) (U := UU) (Lvl := ℕ) spec1 c (VV c)
  hentry c := by
    rw [Pipeline.ownSems0_none]
    have hsplit := Pipeline.arrays_of_unscopedBufs (pcfgs (F := F)) adm (pdats VV) launch1.win launch1.arr_whole c
      ((pdats VV 0 c).share_full fun _ => rfl) (VV c) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesIn
      icases HO with ⟨%W, %hW, HO⟩
      iexists W; isplitr; · ipureintro; exact fun p hp => Or.inl (hW hp)
      iexact HO
    isplitr; · iempintro
    iexact Hr
  hin c := by iintro -; iempintro
  hout c := by
    rw [Pipeline.ownSems0_none, scopedRest1_eq]
    iintro -; isplitr; · iempintro
    isplitr <;> iempintro
  hexit c := by
    iintro ⟨Ha, HO, -, Hz⟩
    imodintro
    isplitl [Ha]; · iexact Ha
    isplitl [Hz]; · iexact Hz
    iexact HO

end Seg

end Cert.Proof.KernelIdeal.Region

end
-- ==== Proof.KI.Launch.lean ====
/-
  The launch of the program: the first kernel's task as the launch theorem's obligation, the launch element of the
  ghost state, and @main on the TensorCore — the transposition, the SparseCore call, the region of the second kernel.
-/
import proofs.«204505_g54743653155399_cont_9to1_m_379_15_alg».proof.Proof.KI.Setup
import proofs.«204505_g54743653155399_cont_9to1_m_379_15_alg».proof.Proof.KI.Split
import proofs.«204505_g54743653155399_cont_9to1_m_379_15_alg».proof.Proof.KI.Region
import Idealize.ShloMosaic.Lib.StableHlo.Run
import Idealize.ShloMosaic.Lib.ValueLayout

noncomputable section

namespace Cert.Proof.KernelIdeal.Launch

open Cert.KernelIdeal Cert.KernelIdeal.Gen Cert.Proof.KernelIdeal.Setup Cert.Proof.KernelIdeal.Split

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type}

local notation "𝕄" => MM F

variable (m : (ℓ : Loc nD τ sig) → Buf (Elt F) ℓ) (ρ : Dev nD → PrngReg)

/-! ## The first kernel's task, as the launch theorem asks for it -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

variable [FloatOps F]

/-- The task of the subcore at grid coordinates `L`: from its row of the transposed table and its four profile rows at
    their launch contents, the kernel function runs to its return with the four rows at the profile of the transposed
    table, the subcore's own storage as it found it, owing what it owed. -/
def TileStmt : Prop :=
  ∀ (d : Dev nD) (L : grid0.Coords) (O : CellTallies nD τ sig (HIx 1)) (W : Waits sig (HIx 1)), (∀ g, O g none = 0) →
    iprop(levAts (K (F := F)).L (K (F := F)).lev ∗ forTile m d (cL L) (iL L) (m (pLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__lambda_ L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7)
          fun _ => iprop(forTile m d (cL L) (iL L) (v2Val m d) ∗ scopedBufs (V d (cV L) (jV L)) ∗ scopedSems0 (V d (cV L) (jV L))
            ∗ ∃ W', ⌜∀ p ∈ W', p ∈ W ∨ p.2 = none⌝ ∗ owes (V d (cV L) (jV L)) O W')

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__lambda_ (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          cc0_scoped0 cc0_scoped1 cc0_scoped2 cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A X G' B C D' : sProp 𝕄} : iprop(A ∗ X ∗ G' ∗ B ∗ C ∗ D') ⊢ iprop(A ∗ G' ∗ B ∗ C ∗ D') := by
  iintro ⟨HA, -, HG, HB, HC, HD⟩
  isplitl [HA]; · iexact HA
  isplitl [HG]; · iexact HG
  isplitl [HB]; · iexact HB
  isplitl [HC]; · iexact HC
  iexact HD

theorem tileObl (hT : TileStmt m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((hT d (coordsV ⟨_, hc.1⟩ ⟨_, hc.2⟩) O W hO).trans (wp_mono frame _ _ fun _ => obl_post))

omit [FloatOps F] in
/-- Of the right factor's pair, at the counters' unit, the staging cells' rounds are the left. -/
theorem ownU_pair' (a : UP) :
    (BI.own ((embR : Emb (UP × Counters) (MM F)) (a, 1)) : sProp 𝕄) ⊢ BI.own ((EP : Emb UP (MM F)) a) :=
  Entails.of_eq rfl

/-! ## The launch element: the handshakes' rounds, the staging cells' rounds; nothing of the first kernel's own -/

abbrev cfgsP : Fin 1 → Pipeline.Cfg sig Λ₀ := Pipeline.pin (pcfgs (F := F)) Region.adm

theorem cellOf_injP : Function.Injective (Pipeline.cellOf (nD := nD) (τ := τ) (cfgsP (F := F))) := cellOf_inj

def u₀ : UU := (initOf (K (F := F)).hsCells (K (F := F)).hsToks,
  (initOf (Pipeline.cells (cfgsP (F := F)) cellOf_injP) (Pipeline.launchToks (cfgsP (F := F)) cellOf_injP), 1))

/-- What @main's proof starts from on device `d` beside what the launch deals every TensorCore: the ghost state of the
    second kernel's staging cells. -/
def G (d : Dev nD) : sProp 𝕄 :=
  iprop(Pipeline.cellsGhost (cfgsP (F := F)) EP 0 d ∗ Pipeline.toksInit (cfgsP (F := F)) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (ownU_pair' _) $$ HR
  imod (Pipeline.fund_ghost (cfgsP (F := F)) EP cellOf_injP) $$ HR' with ⟨Hcg, Htk⟩
  imodintro
  isplitl [HH]; · iexact HH
  isplitl [Hcg Htk]
  · unfold G
    rw [bigSep_sep']
    isplitl [Hcg]
    · ihave Hcg' := (Entails.of_eq (show (bigSep Finset.univ fun d : Dev nD => bigSep Finset.univ fun p : Fin 1 => (Pipeline.cellsGhost (cfgsP (F := F)) EP p d : sProp 𝕄))
          = bigSep Finset.univ fun d : Dev nD => Pipeline.cellsGhost (cfgsP (F := F)) EP 0 d from bigSep_congr fun d _ => bigSep_univ_of_subsingleton (0 : Fin 1))) $$ Hcg
      iexact Hcg'
    · ihave Htk' := (Entails.of_eq (show (bigSep Finset.univ fun d : Dev nD => bigSep Finset.univ fun p : Fin 1 => (Pipeline.toksInit (cfgsP (F := F)) EP p d : sProp 𝕄))
          = bigSep Finset.univ fun d : Dev nD => Pipeline.toksInit (cfgsP (F := F)) EP 0 d from bigSep_congr fun d _ => bigSep_univ_of_subsingleton (0 : Fin 1))) $$ Htk
      iexact Htk'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev a' : DevRef τ sig := Proc.devRef .tc (main_arg0 : Ref sig .tc)
abbrev w' : DevRef τ sig := Proc.devRef .tc (main_arg1 : Ref sig .tc)
abbrev t' : DevRef τ sig := Proc.devRef .tc (main_v0 : Ref sig .tc)
abbrev p' : DevRef τ sig := Proc.devRef .tc (main_v1 : Ref sig .tc)
abbrev o' : DevRef τ sig := Proc.devRef .tc (main_v2 : Ref sig .tc)

/-- @main's first statement: the table transposed. -/
abbrev opT : HloOp τ sig (Elt F) :=
  StableHlo.unary main_arg1 main_v0 ((transpose S16x16 [1, 0] · transposes_S16x16_S16x16_1_0) : (⟨S16x16, .f32⟩ : BufTy).Contents (Elt F) → (⟨S16x16, .f32⟩ : BufTy).Contents (Elt F))

/-- The TensorCore's five arrays, all unscoped. -/
abbrev S5 : Finset (DevRef τ sig) := {a', w', t', p', o'}

omit [FloatOps F] in
theorem held_S5 (d : Dev nD) (W : Valuation τ sig (Elt F)) :
    (held (T d) S5 W : sProp 𝕄) = iprop((aLoc d ↦{fullShare} W a') ∗ (wLoc d ↦{fullShare} W w') ∗ (tLoc d ↦{fullShare} W t')
      ∗ (pLoc d ↦{fullShare} W p') ∗ oLoc d ↦{fullShare} W o') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (wLoc d ↦{fullShare} W main_arg1) ∗ (tLoc d ↦{fullShare} W main_v0)
      ∗ (pLoc d ↦{fullShare} W main_v1) ∗ oLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation; after the transposition; after the SparseCore call. -/
def V0 (d : Dev nD) : Valuation τ sig (Elt F) := fun b => m (d, b)
def V1 (d : Dev nD) : Valuation τ sig (Elt F) := (opT (F := F)).result (V0 m d)
def V2 (d : Dev nD) : Valuation τ sig (Elt F) := Function.update (V1 m d) p' (v2Val m d)

theorem unscoped_held (d : Dev nD) : (unscopedBufs d (fun b => m ((SparseCore.T d).loc b)) : sProp 𝕄) = held (T d) S5 (V0 m d) := by
  rw [unscopedBufs_eq, held_S5]; rfl

/-- The host transposition is the transposed table of the specification. -/
theorem transpose_eq (X : (⟨S16x16, .f32⟩ : BufTy).Contents (Elt F)) :
    (transpose S16x16 [1, 0] X transposes_S16x16_S16x16_1_0 : (⟨S16x16, .f32⟩ : BufTy).Contents (Elt F)) = Cert.Spec.transposed X := by
  funext y
  rw [ValueIdx.eq_ix2 y]
  exact (ValueIdx.transpose_ix2_apply X transposes_S16x16_S16x16_1_0 (y 0) (y 1)).trans rfl

theorem V1_t (d : Dev nD) : V1 m d t' = wtVal m d :=
  (StableHlo.unary_result _ _ _ _ _ _).trans (transpose_eq _)
theorem V1_a (d : Dev nD) : V1 m d a' = m (aLoc d) := (opT (F := F)).result_of_not_mem (V0 m d) (b := a') (show a' ∉ ({t'} : Finset (DevRef τ sig)) by decide)
theorem V1_w (d : Dev nD) : V1 m d w' = m (wLoc d) := (opT (F := F)).result_of_not_mem (V0 m d) (b := w') (show w' ∉ ({t'} : Finset (DevRef τ sig)) by decide)
theorem V1_p (d : Dev nD) : V1 m d p' = m (pLoc d) := (opT (F := F)).result_of_not_mem (V0 m d) (b := p') (show p' ∉ ({t'} : Finset (DevRef τ sig)) by decide)
theorem V1_o (d : Dev nD) : V1 m d o' = m (oLoc d) := (opT (F := F)).result_of_not_mem (V0 m d) (b := o') (show o' ∉ ({t'} : Finset (DevRef τ sig)) by decide)

theorem hT5 : (opT (F := F)).bufs ⊆ S5 := show ({w', t'} : Finset (DevRef τ sig)) ⊆ S5 by decide

/-- What the call takes for the two SparseCores, and what it hands back. -/
theorem st0_eq (d : Dev nD) : (bigSep Finset.univ fun c : Fin ((K (F := F)).nCore 0) => (P m).st 0 d c)
    = iprop(forCore m d 0 (m (pLoc d)) ∗ forCore m d 1 (m (pLoc d))) := by
  show (bigSep (Finset.univ : Finset (Fin 2)) fun c => forCore m d c (m (pLoc d))) = _
  rw [show (Finset.univ : Finset (Fin 2)) = {0, 1} by decide, SparseCore.bigSep_insert' (by decide), bigSep_singleton]
theorem dn0_eq (d : Dev nD) : (bigSep Finset.univ fun c : Fin ((K (F := F)).nCore 0) => (P m).dn 0 d c)
    = iprop(forCore m d 0 (v2Val m d) ∗ forCore m d 1 (v2Val m d)) := by
  show (bigSep (Finset.univ : Finset (Fin 2)) fun c => forCore m d c (v2Val m d)) = _
  rw [show (Finset.univ : Finset (Fin 2)) = {0, 1} by decide, SparseCore.bigSep_insert' (by decide), bigSep_singleton]

/-- What @main leaves the claim: the arguments at their launch contents, the result at the windows of the profile of the
    transposed table. -/
def FIN (d : Dev nD) : sProp 𝕄 :=
  iprop((aLoc d ↦{fullShare} m (aLoc d)) ∗ (wLoc d ↦{fullShare} m (wLoc d)) ∗ oLoc d ↦{fullShare} outVal m d)

/-- The region's entry valuation over the TensorCore's references: the transposed table and the profile table computed,
    the rest as launched. -/
def VV (d : Dev nD) (b : Ref sig .tc) : Buf (Elt F) ((d : Thread nD τ).loc b) := V2 m d (Proc.devRef .tc b)

theorem V2_p (d : Dev nD) : V2 m d p' = v2Val m d := Function.update_self ..
theorem V2_a (d : Dev nD) : V2 m d a' = m (aLoc d) := (Function.update_of_ne (show a' ≠ p' by decide) _ _).trans (V1_a m d)
theorem V2_w (d : Dev nD) : V2 m d w' = m (wLoc d) := (Function.update_of_ne (show w' ≠ p' by decide) _ _).trans (V1_w m d)
theorem V2_t (d : Dev nD) : V2 m d t' = wtVal m d := (Function.update_of_ne (show t' ≠ p' by decide) _ _).trans (V1_t m d)
theorem V2_o (d : Dev nD) : V2 m d o' = m (oLoc d) := (Function.update_of_ne (show o' ≠ p' by decide) _ _).trans (V1_o m d)

variable (B : Region.BodySpec F)

/-- The region is entered from the five arrays — the transposed table and the profile table computed — and the
    TensorCore owing nothing, its recorded waits those of the one call. -/
theorem pre_intro (d : Dev nD) (W : Waits sig (HIx 1)) (hW : (K (F := F)).WBelow (SparseCore.T d) W (8 * 1)) :
    iprop((aLoc d ↦{fullShare} V1 m d a') ∗ (wLoc d ↦{fullShare} V1 m d w') ∗ (tLoc d ↦{fullShare} wtVal m d)
        ∗ (pLoc d ↦{fullShare} v2Val m d) ∗ (oLoc d ↦{fullShare} V1 m d o') ∗ owes (SparseCore.T d) 0 W)
      ⊢ ((Region.reg B (VV m)).pre d : sProp 𝕄) := by
  show _ ⊢ iprop(unscopedBufs d (VV m d) ∗ Region.owesIn d)
  rw [unscopedBufs_eq, V1_a, V1_w, V1_o]
  unfold VV Region.owesIn
  rw [V2_a, V2_w, V2_t, V2_p, V2_o]
  iintro ⟨Ha, Hw, Ht, Hp, Ho, HO⟩
  isplitl [Ha Hw Ht Hp Ho]
  · isplitl [Ha]; · iexact Ha
    isplitl [Hw]; · iexact Hw
    isplitl [Ht]; · iexact Ht
    isplitl [Hp]; · iexact Hp
    iexact Ho
  iexists W; isplitr
  · ipureintro; intro p hp; exact hW p hp
  iexact HO

/-- It is left with the arguments and the transposed table as they were, the profile table as it was, the result at its
    windows, the TensorCore owing nothing, its recorded waits still below the handshakes' bound. -/
theorem post_elim (d : Dev nD) :
    ((Region.reg B (VV m)).post d : sProp 𝕄)
      ⊢ iprop((aLoc d ↦{fullShare} m (aLoc d)) ∗ (wLoc d ↦{fullShare} m (wLoc d)) ∗ (tLoc d ↦{fullShare} wtVal m d)
        ∗ (pLoc d ↦{fullShare} v2Val m d) ∗ (oLoc d ↦{fullShare} outVal m d)
        ∗ ∃ W, ⌜(K (F := F)).WBelow (SparseCore.T d) W (8 * 1)⌝ ∗ owes (SparseCore.T d) 0 W) := by
  show iprop((Region.pdats (VV m) 0 d).arrays ((Region.pdats (VV m) 0 d).arrAt · (Pipeline.pin (pcfgs (F := F)) Region.adm 0).N)
      ∗ Pipeline.unscopedRest (Ix := HIx 1) (Name := ℕ) (U := UU) (Lvl := ℕ) spec1 d (VV m d)
      ∗ (Region.pdats (VV m) 0 d).owesAt none (Fin.last (Pipeline.pin (pcfgs (F := F)) Region.adm 0).N)) ⊢ _
  rw [Pipeline.arrays_eq (Pipeline.pin (pcfgs (F := F)) Region.adm) (Region.pdats (VV m)) 0 d launch1.arr_whole
      ((Region.pdats (VV m) 0 d).share_full fun _ => rfl), bigSep_W1, unscopedRest1_eq]
  have e0 : (Region.pdats (VV m) 0 d).arrAt 0 (Pipeline.pin (pcfgs (F := F)) Region.adm 0).N = v2Val m d :=
    (Region.final_in d (VV m d)).trans (V2_p m d)
  have e1 : (Region.pdats (VV m) 0 d).arrAt 1 (Pipeline.pin (pcfgs (F := F)) Region.adm 0).N = outVal m d :=
    (Region.final_out d (VV m d)).trans (congrArg Cert.Spec.windows (V2_p m d))
  rw [e0, e1]
  unfold VV
  rw [V2_a, V2_w, V2_t]
  unfold Pipeline.Dat.owesAt Pipeline.owesWithin
  iintro ⟨⟨Hp, Ho⟩, ⟨Ha, Hw, Ht⟩, %W, %hW, HO⟩
  isplitl [Ha]; · iexact Ha
  isplitl [Hw]; · iexact Hw
  isplitl [Ht]; · iexact Ht
  isplitl [Hp]; · iexact Hp
  isplitl [Ho]; · iexact Ho
  iexists W; isplitr
  · ipureintro
    intro p hp
    rcases hW hp with h | ⟨w, s, rfl⟩
    · exact h
    · simp
  iexact HO

include B in
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, Hg⟩
  -- the transposition, over the five arrays
  iapply (wp_hlo_within 𝒱 (SparseCore.T d) none Set.univ (op := opT) (S := S5) hT5 (V := V0 m d)) $$ [Hb Hheld]
  · isplitl [Hb]; · iexact Hb
    iexact Hheld
  iintro ⟨Hb, Hheld⟩
  rw [wp_ret]; imodintro
  ihave Hh := (Entails.of_eq (held_S5 (F := F) d _)) $$ Hheld
  icases Hh with ⟨Ha, Hw, Ht, Hp, Ho⟩
  -- the call: the transposed table and the profile table to the two SparseCores and back
  iapply ((K (F := F)).wp_run (D (F := F)) 𝒱 (EH := EH) (P := P m) κ d 0) $$ [Hst Ht Hp Ha Hw Ho Hb Hg]
  isplitr; · iexact Hctx
  isplitl [Hst]; · iexact Hst
  isplitl [Ht Hp]
  · rw [st0_eq]
    iapply (cores_of_arrays m d _).1
    isplitl [Ht]
    · iapply (Entails.of_eq (congrArg (fun f => (tLoc d ↦{fullShare} f : sProp 𝕄)) (V1_t m d))); iexact Ht
    · iapply (Entails.of_eq (congrArg (fun f => (pLoc d ↦{fullShare} f : sProp 𝕄)) (V1_p m d))); iexact Hp
  iintro ⟨Hst, Hdn⟩
  ihave Hdn' := (Entails.of_eq (dn0_eq m d)) $$ Hdn
  ihave Harr := (cores_of_arrays m d _).2 $$ Hdn'
  icases Harr with ⟨Ht, Hp⟩

  -- the TensorCore owes nothing more: the one call is behind it
  unfold SparseCore.Cfg.tcSt
  icases Hst with ⟨⟨%W, %hW, HO⟩, Hrest⟩
  rw [(K (F := F)).Otc_end d (le_refl 1)]
  ihave Hpre := (pre_intro m B d W hW) $$ [Ha Hw Ht Hp Ho HO]
  · isplitl [Ha]; · iexact Ha
    isplitl [Hw]; · iexact Hw
    isplitl [Ht]; · iexact Ht
    isplitl [Hp]; · iexact Hp
    isplitl [Ho]; · iexact Ho
    iexact HO
  unfold G
  icases Hg with ⟨Hcg, Htk⟩
  ihave Hlev := (SparseCore.Cfg.ctx_levAts κ) $$ Hctx
  -- the region, entered through the program's own body table
  iapply ((K (F := F)).wp_liftProg (D (F := F)) 𝒱 (SparseCore.T d) Set.univ none
      (Prog.lift (.customCall (Pipeline.entry 0) ())) _)
  iapply (Pipeline.RegionSeg.wp (pcfgs (F := F)) Region.adm (Region.pdats (VV m)) none cellOf_injP EP defs₀ 𝒱₀
      (Region.LL (F := F)) (Region.lvl (F := F)) (Region.reg B (VV m)) d none (fun u hu => nomatch hu) (fun x => .ret x) _) $$ [Hb Hpre Hlev Hcg Htk Hrest]
  isplitl [Hrest]
  · iintro ⟨Hb, Hpost⟩
    rw [wp_ret]; imodintro; imodintro
    ihave Hq := (post_elim m B d) $$ Hpost
    icases Hq with ⟨Ha, Hw, Ht, Hp, Ho, %W', %hW', HO⟩
    isplitl [HO Hrest]
    · isplitl [HO]
      · iexists W'; isplitr; · ipureintro; exact hW'
        iexact HO
      iexact Hrest
    unfold FIN
    isplitl [Ha]; · iexact Ha
    isplitl [Hw]; · iexact Hw
    iexact Ho
  isplitl [Hb]; · iexact Hb
  isplitl [Hpre]; · iexact Hpre
  isplitl [Hlev]; · iexact Hlev
  isplitl [Hcg]; · iexact Hcg
  iexact Htk

/-! ## The final memory, read -/

def fq (d : Dev nD) (s' : Phys nD τ sig (Elt F)) : Prop :=
  s'.mem.mem (oLoc d) = outVal m d ∧ s'.mem.mem (aLoc d) = m (aLoc d) ∧ s'.mem.mem (wLoc d) = m (wLoc d)

theorem hfin (d : Dev nD) (s' : Phys nD τ sig (Elt F)) : iprop(FIN m d ∗ SI s') ⊢ (⌜fq m d s'⌝ : sProp 𝕄) := by
  unfold FIN
  iintro ⟨⟨Ha, Hw, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := wLoc d) (I := Finset.univ) (q := fullShare) (f := m (wLoc d)))) $$ [HSI Hw]
  · isplitl [HSI] <;> iassumption
  icases H with ⟨%h2, HSI, -⟩
  ihave H := (SI_pointsTo_agree (st := s') (ℓ := oLoc d) (I := Finset.univ) (q := fullShare) (f := outVal m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

def QC : PUnit × MemSt nD τ sig (Elt F) → Prop := fun r => ∀ c : Dev nD,
  r.2.mem (oLoc c) = outVal m c ∧ r.2.mem (aLoc c) = m (aLoc c) ∧ r.2.mem (wLoc c) = m (wLoc c)

include B in
/-- Every weakly fair execution of the program's threads from a memory with every semaphore at zero terminates, nothing
    faulting, the arguments as launched and the result at the windows of the profile of the transposed table. -/
theorem run_main [∀ e, Nonempty (Elt F e)] (hT : TileStmt m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m hT)
    (fun q _ => match q with | 0 => SparseCore.Cfg.VecSplit.of_plain (vecSplit m))
    m ρ main (G (F := F)) (FIN m) (u₀ (F := F)) (sep_elim_left.trans (hu₀ m)) (hmain m ρ B) (fq m) (hfin m) (QC m) (fun _ h => h)

end Cert.Proof.KernelIdeal.Launch

end
-- ==== Proof.KI.TileValue.lean ====
/-
  The index arithmetic of one profile row.

  A task fills its row sixteen entries at a time. At trip `k` lane `x` holds the entry at position
  `p = 16 k + x` of the row, and the table index it is read at is `clip(p - s - 2040, 0, 14)`, computed on 32-bit
  words: the two subtractions may wrap below zero, where the word read as a signed number is negative, the signed
  maximum with zero gives zero, and the signed minimum with fourteen leaves it. With `p < 4096` and `s < 8` nothing
  else wraps, so the word's value is `min 14 (p - s - 2040)` on the naturals with truncated subtraction.
-/
import Idealize.ShloMosaic.PureOps
import Idealize.ShloMosaic.Lib.Scf
import proofs.«204505_g54743653155399_cont_9to1_m_379_15_alg».proof.Proof.Spec

namespace Cert.Proof.KernelIdeal.Tile

open Idealize.ShloMosaic

/-- The clipped index word: `min 14 (max 0 (a - s - 2040))`, signed, on 32-bit words. -/
def clipIdx (a s : BitVec 32) : BitVec 32 :=
  IntOp.minsi 14#32 (IntOp.maxsi 0#32 (IntOp.subi (IntOp.subi a s) 2040#32))

/-- A word read as a signed number, by cases on its top bit. -/
theorem toInt_cases (x : BitVec 32) :
    x.toInt = if x.toNat < 2147483648 then (x.toNat : Int) else (x.toNat : Int) - 4294967296 := by
  rw [BitVec.toInt_eq_toNat_cond]
  have := x.isLt
  split <;> split <;> omega

/-- The signed clip of a word into `0 … 14`: the word itself capped at fourteen when it is non-negative as a signed
    number, zero when it is negative. -/
theorem clip_toNat (x : BitVec 32) :
    (IntOp.minsi 14#32 (IntOp.maxsi 0#32 x)).toNat = if x.toNat < 2147483648 then min 14 x.toNat else 0 := by
  have hx := x.isLt
  have h0 : (0#32 : BitVec 32).toInt = 0 := by decide
  have h14 : (14#32 : BitVec 32).toInt = 14 := by decide
  unfold IntOp.minsi IntOp.maxsi
  simp only [BitVec.slt, h0, h14]
  by_cases hneg : x.toNat < 2147483648
  · have hxi : x.toInt = x.toNat := by rw [toInt_cases, if_pos hneg]
    rw [if_pos hneg]
    have hlt : ¬ x.toInt < 0 := by omega
    rw [show decide (x.toInt < 0) = false from decide_eq_false hlt]
    simp only [Bool.false_eq_true, if_false]
    by_cases h : (14 : Int) < x.toInt
    · rw [show decide ((14 : Int) < x.toInt) = true from decide_eq_true h]
      simp only [if_true]
      show 14 = min 14 x.toNat
      omega
    · rw [show decide ((14 : Int) < x.toInt) = false from decide_eq_false h]
      simp only [Bool.false_eq_true, if_false]
      omega
  · have hxi : x.toInt = (x.toNat : Int) - 4294967296 := by rw [toInt_cases, if_neg hneg]
    rw [if_neg hneg]
    have hlt : x.toInt < 0 := by omega
    rw [show decide (x.toInt < 0) = true from decide_eq_true hlt]
    simp only [if_true, h0]
    rw [show decide ((14 : Int) < 0) = false from by decide]
    simp only [Bool.false_eq_true, if_false]
    rfl

/-- Whatever the word, its clip is at most fourteen. -/
theorem clip_le (x : BitVec 32) : (IntOp.minsi 14#32 (IntOp.maxsi 0#32 x)).toNat ≤ 14 := by
  rw [clip_toNat]; split <;> omega

/-- The clipped index of position `p` for the residue `s` is the profile's. -/
theorem clipIdx_toNat (p s : Nat) (hp : p < 4096) (hs : s < 8) :
    (clipIdx (BitVec.ofNat 32 p) (BitVec.ofNat 32 s)).toNat = Cert.Spec.prof s p := by
  unfold clipIdx Cert.Spec.prof
  rw [clip_toNat]
  unfold IntOp.subi
  have e : ((BitVec.ofNat 32 p - BitVec.ofNat 32 s) - 2040#32).toNat
      = (4294967296 - 2040 + ((4294967296 - s + p) % 4294967296)) % 4294967296 := by
    rw [BitVec.toNat_sub, BitVec.toNat_sub, BitVec.toNat_ofNat, BitVec.toNat_ofNat, BitVec.toNat_ofNat]
    have e1 : p % 2 ^ 32 = p := Nat.mod_eq_of_lt (by omega)
    have e2 : s % 2 ^ 32 = s := Nat.mod_eq_of_lt (by omega)
    have e3 : 2040 % 2 ^ 32 = 2040 := by decide
    rw [e1, e2, e3]
  rw [e]
  split <;> omega

/-- Position `16 k + x` as the kernel computes it: the lane number plus sixteen times the trip's induction word. -/
theorem lane_word (k x : Nat) (hk : k < 256) (hx : x < 16) :
    IntOp.addi (BitVec.ofNat 32 (0 * 16 + x)) (IntOp.muli (Scf.iv 0#32 1#32 k) 16#32) = BitVec.ofNat 32 (16 * k + x) := by
  unfold IntOp.addi IntOp.muli Scf.iv
  apply BitVec.eq_of_toNat_eq
  simp only [BitVec.toNat_add, BitVec.toNat_mul, BitVec.toNat_ofNat]
  omega

end Cert.Proof.KernelIdeal.Tile
-- ==== Proof.KI.TileViews.lean ====
/-
  One vector subcore's storage and the rows it touches, in the two spellings the proof moves between.

  A task names its row of the transposed table and its row of the profile table as the program slices them: a
  unit-size rectangle of the whole array at the offsets the kernel computes, with the unit axes dropped. The launch
  hands the same elements over as "row `i`" and "row `(i, r)`" of the TensorCore's arrays. Here: the offsets in closed
  form (on subcore `i` of SparseCore `c` the four tasks read row `i` and write rows `(i, 4 c + u)`), every task's
  guard true, the two spellings' element sets equal, where an index of the sliced row sits in the whole array, and the
  subcore's own semaphores and scratch buffers taken out of what the launch deals it.
-/
import proofs.«204505_g54743653155399_cont_9to1_m_379_15_alg».proof.Proof.KI.Setup
import Idealize.ShloMosaic.Lib.SparseCore.Ops

noncomputable section

namespace Cert.Proof.KernelIdeal.Tile

open Cert.KernelIdeal Cert.KernelIdeal.Gen
open Cert.Proof.KernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Setup.MM F

/-! ## The grid point as a subcore -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev iL (L : grid0.Coords) : Fin 16 := Fin.cast bound_one (L 1)

/-! ## The guards and the offsets, in closed form -/

theorem cond1 : ∀ L : grid0.Coords, k0_cond1 L = 1#1 := by decide +kernel
theorem cond2 : ∀ L : grid0.Coords, k0_cond2 L = 1#1 := by decide +kernel
theorem cond3 : ∀ L : grid0.Coords, k0_cond3 L = 1#1 := by decide +kernel
theorem cond4 : ∀ L : grid0.Coords, k0_cond4 L = 1#1 := by decide +kernel

theorem off1_eq : ∀ L : grid0.Coords, k0_off1 L = ![(L 1).val, 0] := by decide +kernel
theorem off4_eq : ∀ L : grid0.Coords, k0_off4 L = ![(L 1).val, 0] := by decide +kernel
theorem off7_eq : ∀ L : grid0.Coords, k0_off7 L = ![(L 1).val, 0] := by decide +kernel
theorem off10_eq : ∀ L : grid0.Coords, k0_off10 L = ![(L 1).val, 0] := by decide +kernel
theorem off3_eq : ∀ L : grid0.Coords, k0_off3 L = ![(L 1).val, 4 * (L 0).val + 0, 0] := by decide +kernel
theorem off6_eq : ∀ L : grid0.Coords, k0_off6 L = ![(L 1).val, 4 * (L 0).val + 1, 0] := by decide +kernel
theorem off9_eq : ∀ L : grid0.Coords, k0_off9 L = ![(L 1).val, 4 * (L 0).val + 2, 0] := by decide +kernel
theorem off12_eq : ∀ L : grid0.Coords, k0_off12 L = ![(L 1).val, 4 * (L 0).val + 3, 0] := by decide +kernel

/-! ## The arrays and the scratch, as the kernel names them -/

abbrev wtV : Memref sig .scVector .hbm S16x16 .f32 := Memref.whole main_v0_scv
abbrev v2V : Memref sig .scVector .hbm S16x8x4096 .f32 := Memref.whole main_v1_scv
/-- The fetched table row; the profile row being filled. -/
abbrev sW : Memref sig .scVector .vmem S16 .f32 := Memref.whole cc0_scratch0
abbrev sR : Memref sig .scVector .vmem S4096 .f32 := Memref.whole cc0_scratch1

/-- A row of the transposed table as a task slices it, the unit axis dropped. -/
abbrev wtRowM (off : Fin 2 → Nat) (inb : ∀ a, off a + S1x16.size a ≤ S16x16.size a) : Memref sig .scVector .hbm S16 .f32 :=
  ((wtV : Memref sig .scVector .hbm S16x16 .f32).slice (Rect.unit (s := S16x16) off S1x16.size inb) (fun _ => rfl)).squeeze S16 squeezes_S1x16_S16
/-- A row of the profile table as a task slices it, the two unit axes dropped. -/
abbrev v2RowM (off : Fin 3 → Nat) (inb : ∀ a, off a + S1x1x4096.size a ≤ S16x8x4096.size a) : Memref sig .scVector .hbm S4096 .f32 :=
  ((v2V : Memref sig .scVector .hbm S16x8x4096 .f32).slice (Rect.unit (s := S16x8x4096) off S1x1x4096.size inb) (fun _ => rfl)).squeeze S4096 squeezes_S1x1x4096_S4096

/-! ## The sliced rows' elements -/

theorem set_wtRowM {off : Fin 2 → Nat} (inb : ∀ a, off a + S1x16.size a ≤ S16x16.size a) (i : Fin 16) (hoff : off = ![i.val, 0]) :
    (wtRowM off inb).view.set = Setup.tRow i := by
  subst hoff
  show (((View.whole (main_v0_scv : Ref sig .scVector)).slice (Rect.unit (s := S16x16) ![i.val, 0] S1x16.size inb)).reshape S16 squeezes_S1x16_S16.numel_eq).set = _
  rw [View.set_reshape, View.set_slice_whole]
  ext y
  rw [Rect.mem_set_unit]
  unfold Setup.tRow
  rw [Finset.mem_filter]
  constructor
  · intro h
    have h0 := h 0
    simp at h0
    exact ⟨Finset.mem_univ _, by omega⟩
  · rintro ⟨-, h⟩ a
    have h1 := idx2_lt1 y
    match a with
    | ⟨0, _⟩ => simp; omega
    | ⟨1, _⟩ => simp; omega

theorem set_v2RowM {off : Fin 3 → Nat} (inb : ∀ a, off a + S1x1x4096.size a ≤ S16x8x4096.size a) (i : Fin 16) (r : Fin 8)
    (hoff : off = ![i.val, r.val, 0]) : (v2RowM off inb).view.set = Setup.pRow i r := by
  subst hoff
  show (((View.whole (main_v1_scv : Ref sig .scVector)).slice (Rect.unit (s := S16x8x4096) ![i.val, r.val, 0] S1x1x4096.size inb)).reshape S4096 squeezes_S1x1x4096_S4096.numel_eq).set = _
  rw [View.set_reshape, View.set_slice_whole]
  ext y
  rw [Rect.mem_set_unit]
  unfold Setup.pRow
  rw [Finset.mem_filter]
  constructor
  · intro h
    have h0 := h 0
    have h1 := h 1
    simp at h0 h1
    exact ⟨Finset.mem_univ _, by omega, by omega⟩
  · rintro ⟨-, h0, h1⟩ a
    match a with
    | ⟨0, _⟩ => simp; omega
    | ⟨1, _⟩ => simp; omega
    | ⟨2, hlt⟩ =>
      have h2 : ((y ⟨2, hlt⟩ : Fin 4096) : Nat) < 4096 := (y ⟨2, hlt⟩).isLt
      simp; exact h2

/-! ## Where a sliced row's index sits in the whole array -/

theorem emb_wtRowM {off : Fin 2 → Nat} (inb : ∀ a, off a + S1x16.size a ≤ S16x16.size a) (i : Fin 16) (hoff : off = ![i.val, 0])
    (j : S16.Idx) : (wtRowM off inb).view.emb j = ix2 i (⟨(j 0).val, (j 0).isLt⟩ : Fin 16) := by
  subst hoff
  show (Rect.unit (s := S16x16) ![i.val, 0] S1x16.size inb).emb (Shape.reshapeEquiv squeezes_S1x16_S16.numel_eq j) = _
  have e : Shape.reshapeEquiv squeezes_S1x16_S16.numel_eq j = (ix2 (0 : Fin 1) (⟨(j 0).val, (j 0).isLt⟩ : Fin 16) : S1x16.Idx) :=
    Shape.reshapeEquiv_eq_of_rowMajor _ (by rw [Shape.rowMajor_val_two, Shape.rowMajor_val_one]; simp)
  rw [e]
  funext a
  apply Fin.ext
  rw [Rect.emb_apply]
  match a with
  | ⟨0, _⟩ => simp
  | ⟨1, _⟩ => simp

theorem emb_v2RowM {off : Fin 3 → Nat} (inb : ∀ a, off a + S1x1x4096.size a ≤ S16x8x4096.size a) (i : Fin 16) (r : Fin 8)
    (hoff : off = ![i.val, r.val, 0]) (j : S4096.Idx) :
    (v2RowM off inb).view.emb j = ix3 i r (⟨(j 0).val, (j 0).isLt⟩ : Fin 4096) := by
  subst hoff
  show (Rect.unit (s := S16x8x4096) ![i.val, r.val, 0] S1x1x4096.size inb).emb (Shape.reshapeEquiv squeezes_S1x1x4096_S4096.numel_eq j) = _
  have e : Shape.reshapeEquiv squeezes_S1x1x4096_S4096.numel_eq j
      = (ix3 (0 : Fin 1) (0 : Fin 1) (⟨(j 0).val, (j 0).isLt⟩ : Fin 4096) : S1x1x4096.Idx) :=
    Shape.reshapeEquiv_eq_of_rowMajor _ (by rw [Shape.rowMajor_val_three, Shape.rowMajor_val_one]; simp)
  rw [e]
  funext a
  apply Fin.ext
  rw [Rect.emb_apply]
  match a with
  | ⟨0, _⟩ => simp
  | ⟨1, _⟩ => simp
  | ⟨2, _⟩ => simp

end Cert.Proof.KernelIdeal.Tile
-- ==== Proof.KI.TileBody.lean ====
/-
  One vector subcore's run of the first kernel, with the value it writes.

  Subcore `i` of SparseCore `c` does four tasks `u < 4`. Task `u` fetches row `i` of the transposed table into a
  sixteen-entry scratch and waits for it; fills a 4096-entry scratch sixteen entries a trip over 256 trips, entry
  `p = 16 k + x` being the fetched row read at `clip(p - s - 2040, 0, 14)` for the task's residue `s = 4 c + u`; then
  copies the filled scratch out to row `(i, s)` of the profile table and waits for it. So the task leaves
  `v2[i, s, p] = wt[i, min 14 (p - s - 2040)]`: the profile of the transposed table on that row.

  The four tasks' printed texts differ only in names (the offsets' functions, the semaphores, the loop's bounds, the
  index check), so the task is written once over those as parameters — the program (`partG`, `taskG`), the loop's
  invariant (`rowInv`: the fetched row in place, the first `16 k` entries of the row being filled already the
  profile's), one trip (`trip_run`) and the whole task (`task_run`) — and the printed parts are instances by
  unfolding. The subcore's run (`tile_body`) is the four instances in turn, each taking its two semaphores out of the
  subcore's own and putting them back.
-/
import proofs.«204505_g54743653155399_cont_9to1_m_379_15_alg».proof.Proof.KI.Setup
import proofs.«204505_g54743653155399_cont_9to1_m_379_15_alg».proof.Proof.KI.TileValue
import proofs.«204505_g54743653155399_cont_9to1_m_379_15_alg».proof.Proof.KI.TileViews
import Idealize.ShloMosaic.Lib.SparseCore.Ops

noncomputable section

namespace Cert.Proof.KernelIdeal.Tile

open Cert.KernelIdeal Cert.KernelIdeal.Gen
open Cert.Proof.KernelIdeal

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => Setup.MM F

variable [FloatOps F]

/-! ## The subcore's thread, its rows in the kernel's spelling -/

section Pts
variable (d : Dev nD) (L : grid0.Coords)

theorem pts_wtRowM {off : Fin 2 → Nat} (inb : ∀ a, off a + S1x16.size a ≤ S16x16.size a) (i : Fin 16) (hoff : off = ![i.val, 0])
    (q : PosShare TreeShare) (f : Buf (Elt F) (Setup.tLoc d)) :
    ((wtRowM off inb).view.loc (V d (cV L) (jV L)) ↦[(wtRowM off inb).view.set]{q} f : sProp 𝕄) = (Setup.tLoc d ↦[Setup.tRow i]{q} f) := by
  rw [set_wtRowM inb i hoff]

theorem pts_v2RowM {off : Fin 3 → Nat} (inb : ∀ a, off a + S1x1x4096.size a ≤ S16x8x4096.size a) (i : Fin 16) (r : Fin 8)
    (hoff : off = ![i.val, r.val, 0]) (f : Buf (Elt F) (Setup.pLoc d)) :
    ((v2RowM off inb).view.loc (V d (cV L) (jV L)) ↦[(v2RowM off inb).view.set]{fullShare} f : sProp 𝕄)
      = (Setup.pLoc d ↦[Setup.pRow i r]{fullShare} f) := by
  rw [set_v2RowM inb i r hoff]

end Pts

/-! ## The index vector of a trip -/

open Cert.Spec (prof prof_lt)

/-- The row residue `t mod 8` of the task number `t`, as the kernel computes it (a floored remainder). -/
def resWord (v4 : BitVec 32) : BitVec 32 :=
  let v40 : BitVec 1 := Scalar.cmpi .eq 8#32 0#32
  let v41 : BitVec 32 := Scalar.select v40 1#32 8#32
  let v42 : BitVec 32 := Scalar.remsi v4 v41
  let v43 : BitVec 1 := Scalar.cmpi .ne v42 0#32
  let v44 : BitVec 1 := Scalar.cmpi .slt v42 0#32
  let v45 : BitVec 1 := Scalar.cmpi .slt v41 0#32
  let v46 : BitVec 1 := Scalar.xori v44 v45
  let v47 : BitVec 1 := Scalar.andi v46 v43
  let v48 : BitVec 32 := Scalar.addi v42 v41
  Scalar.select v47 v48 v42

/-- The sixteen table indices of trip `k`: lane `x` holds `clip(x + 16 k - s - 2040, 0, 14)`. -/
def payOf (v2 : IVec S16 32) (v4 : BitVec 32) (k : Nat) : IVec S16 32 :=
  minsi (broadcast S16 14#32) (maxsi (broadcast S16 0#32)
    (subi (subi (addi v2 (broadcast S16 (Scalar.muli (Scf.iv 0#32 1#32 k) 16#32))) (broadcast S16 (resWord v4))) (broadcast S16 2040#32)))

theorem payOf_lane (hio : S16.Iotas .scVector 32 [0]) (v4 : BitVec 32) (s : Nat) (hs : s < 8) (hv4 : resWord v4 = BitVec.ofNat 32 s)
    (k : Nat) (hk : k < 256) (x : S16.Idx) :
    (payOf (iota .scVector S16 32 [0] hio) v4 k x).toNat = prof s (16 * k + (x 0).val) := by
  have hx : (x 0).val < 16 := (x 0).isLt
  show (clipIdx (IntOp.addi (BitVec.ofNat 32 (0 * 16 + (x 0).val)) (IntOp.muli (Scf.iv 0#32 1#32 k) 16#32)) (resWord v4)).toNat = _
  rw [hv4, lane_word k _ hk hx, clipIdx_toNat _ _ (by omega) hs]

theorem resWord_t1 : ∀ L : grid0.Coords, resWord (Scalar.addi (Scalar.muli (Scalar.addi (Scalar.muli (BitVec.ofNat 32 (L 1).val) 2#32) (BitVec.ofNat 32 (L 0).val)) 4#32) 0#32)
    = BitVec.ofNat 32 (4 * (L 0).val + 0) := by decide +kernel
theorem resWord_t2 : ∀ L : grid0.Coords, resWord (Scalar.addi (Scalar.muli (Scalar.addi (Scalar.muli (BitVec.ofNat 32 (L 1).val) 2#32) (BitVec.ofNat 32 (L 0).val)) 4#32) 1#32)
    = BitVec.ofNat 32 (4 * (L 0).val + 1) := by decide +kernel
theorem resWord_t3 : ∀ L : grid0.Coords, resWord (Scalar.addi (Scalar.muli (Scalar.addi (Scalar.muli (BitVec.ofNat 32 (L 1).val) 2#32) (BitVec.ofNat 32 (L 0).val)) 4#32) 2#32)
    = BitVec.ofNat 32 (4 * (L 0).val + 2) := by decide +kernel
theorem resWord_t4 : ∀ L : grid0.Coords, resWord (Scalar.addi (Scalar.muli (Scalar.addi (Scalar.muli (BitVec.ofNat 32 (L 1).val) 2#32) (BitVec.ofNat 32 (L 0).val)) 4#32) 3#32)
    = BitVec.ofNat 32 (4 * (L 0).val + 3) := by decide +kernel

/-! ## What a row holds: the profile read off the fetched table row -/

/-- Position `p` of the profile row for residue `s`, read off a table row `w`. -/
def profRow {α : Type} (s : Nat) (w : S16.Idx → α) : S4096.Idx → α :=
  fun p => w (ix1 (⟨prof s (p 0).val, prof_lt _ _⟩ : Fin 16))

/-- One trip's store: sixteen more entries of the row are the profile's. -/
theorem fill_step (k : Nat) {off : Fin 1 → Nat} (hoff : off = ![16 * k]) (inb : ∀ a, off a + S16.size a ≤ S4096.size a)
    (g : ((sR : Memref sig .scVector .vmem S4096 .f32).access (Rect.unit (s := S4096) off S16.size inb)).ty.Contents (Elt F))
    (w : S16.Idx → Elt F .f32) (tgt : S4096.Idx → Elt F .f32)
    (hg : ∀ p : S4096.Idx, (p 0).val < 16 * k → g p = tgt p)
    (hw : ∀ x : S16.Idx, ∀ p : S4096.Idx, (p 0).val = 16 * k + (x 0).val → w x = tgt p) :
    ∀ p : S4096.Idx, (p 0).val < 16 * (k + 1) →
      (((sR : Memref sig .scVector .vmem S4096 .f32).access (Rect.unit (s := S4096) off S16.size inb)).write (Elt F) g w Finset.univ) p = tgt p := by
  subst hoff
  intro p hp
  by_cases h : (p 0).val < 16 * k
  · rw [View.write_of_not_mem]
    · exact hg p h
    · rw [View.setOn_univ]
      show p ∉ ((View.whole (cc0_scratch1 : Ref sig .scVector)).slice (Rect.unit (s := S4096) ![16 * k] S16.size inb)).set
      rw [View.set_slice_whole, Rect.mem_set_unit]
      intro hmem
      have h0 := (hmem 0).1
      simp at h0
      omega
  · have hx : (p 0).val - 16 * k < 16 := by omega
    have hemb : ((sR : Memref sig .scVector .vmem S4096 .f32).access (Rect.unit (s := S4096) ![16 * k] S16.size inb)).emb
        (ix1 (⟨(p 0).val - 16 * k, hx⟩ : Fin 16)) = p := by
      funext a
      apply Fin.ext
      match a with
      | ⟨0, _⟩ =>
        show (![16 * k] : Fin 1 → Nat) 0 + 1 * ((p 0).val - 16 * k) = (p 0).val
        simp; omega
    have e := View.write_emb_of_mem (v := ((sR : Memref sig .scVector .vmem S4096 .f32).access (Rect.unit (s := S4096) ![16 * k] S16.size inb)))
      (Val := Elt F) g w (M := Finset.univ) (x := ix1 (⟨(p 0).val - 16 * k, hx⟩ : Fin 16)) (Finset.mem_univ _)
    rw [hemb] at e
    rw [e]
    exact hw _ p (by show (p 0).val = 16 * k + ((p 0).val - 16 * k); omega)

/-! ## One task -/

section Run
variable (d : Dev nD) (L : grid0.Coords)

theorem pts_sW_access (f : Buf (Elt F) ((sW : Memref sig .scVector .vmem S16 .f32).view.loc (V d (cV L) (jV L)))) :
    ((((sW : Memref sig .scVector .vmem S16 .f32).access (Rect.whole S16)).loc (V d (cV L) (jV L)) ↦{fullShare} f : sProp 𝕄))
      = ((sW : Memref sig .scVector .vmem S16 .f32).view.loc (V d (cV L) (jV L)) ↦{fullShare} f) := rfl
theorem pts_sR_access (r : Rect S4096) (f : Buf (Elt F) ((sR : Memref sig .scVector .vmem S4096 .f32).view.loc (V d (cV L) (jV L)))) :
    ((((sR : Memref sig .scVector .vmem S4096 .f32).access r).loc (V d (cV L) (jV L)) ↦{fullShare} f : sProp 𝕄))
      = ((sR : Memref sig .scVector .vmem S4096 .f32).view.loc (V d (cV L) (jV L)) ↦{fullShare} f) := rfl

/-- Before trip `k`: the fetched table row is in its scratch, and the first `16 k` entries of the row being filled are
    the profile read off it. -/
def rowInv (s : Nat) (wrow : S16.Idx → Elt F .f32) (k : Nat) (_ : Unit) : sProp 𝕄 :=
  iprop(∃ fw : Buf (Elt F) ((sW : Memref sig .scVector .vmem S16 .f32).view.loc (V d (cV L) (jV L))),
    ⌜∀ j : S16.Idx, (sW : Memref sig .scVector .vmem S16 .f32).view.read (Elt F) fw j = wrow j⌝
    ∗ ((sW : Memref sig .scVector .vmem S16 .f32).view.loc (V d (cV L) (jV L)) ↦{fullShare} fw)
    ∗ ∃ g : Buf (Elt F) ((sR : Memref sig .scVector .vmem S4096 .f32).view.loc (V d (cV L) (jV L))),
        ⌜∀ p : S4096.Idx, (p 0).val < 16 * k → (sR : Memref sig .scVector .vmem S4096 .f32).view.read (Elt F) g p = profRow s wrow p⌝
        ∗ ((sR : Memref sig .scVector .vmem S4096 .f32).view.loc (V d (cV L) (jV L)) ↦{fullShare} g))

/-- One trip: the check passes (every lane's index is a profile index, below sixteen), the gather reads the profile's
    sixteen entries at positions `16 k …` off the table row, and the store puts them there. -/
theorem trip_run (s : Nat) (wrow : S16.Idx → Elt F .f32) (k : Nat)
    (P : Prop) (dec : Decidable P) (hP : P) (v61 : IVec S16 32)
    (hv : ∀ x : S16.Idx, (v61 x).toNat = prof s (16 * k + (x 0).val))
    (hidx : P → ∀ a x, ((![v61] : Fin 1 → IVec S16 32) a x).toNat < S16.size a)
    (hl : (sW : Memref sig .scVector .vmem S16 .f32).view.Loads)
    {off : Fin 1 → Nat} (hoff : off = ![16 * k]) (inb : ∀ a, off a + S16.size a ≤ S4096.size a)
    (hl2 : (sR : Memref sig .scVector .vmem S4096 .f32).view.LoadsAt (Rect.unit (s := S4096) off S16.size inb).toLoadRect)
    (hs1 : ((sR : Memref sig .scVector .vmem S4096 .f32).access (Rect.unit (s := S4096) off S16.size inb)).Stores Finset.univ)
    (hs2 : (Finset.univ : Finset (Rect.unit (s := S4096) off S16.size inb).shape.Idx) = Finset.univ ∨ ∀ a, (Rect.unit (s := S4096) off S16.size inb).stride a = 1) :
    rowInv d L s wrow k ⟨⟩ ⊢ wp frame (wpE (defs₀ (F := F)) Setup.𝒱₀ (V d (cV L) (jV L)) none) Set.univ
      (.op (.assume P dec) fun hw => SparseCore.vectorLoadIdx (sW : Memref sig .scVector .vmem S16 .f32) ![v61] (hidx hw.down) hl >>= fun v62 =>
        .op (.load (sR : Memref sig .scVector .vmem S4096 .f32) (Rect.unit (s := S4096) off S16.size inb).toLoadRect hl2) fun _ =>
        .op (.store (sR : Memref sig .scVector .vmem S4096 .f32) (Rect.unit (s := S4096) off S16.size inb) v62 Finset.univ hs1 hs2) fun _ => .ret (⟨⟩ : Unit))
      (rowInv d L s wrow (k + 1)) := by
  unfold rowInv
  iintro ⟨%fw, %hfw, Hw, %g, %hg, Hr⟩
  rw [wp_assume_of _ _ _ _ hP]
  ihave Hw := (Entails.of_eq (pts_sW_access (F := F) d L fw).symm) $$ Hw
  iapply (SparseCore.wp_vectorLoadIdx Setup.𝒱₀ (V d (cV L) (jV L)) none Set.univ (base := (sW : Memref sig .scVector .vmem S16 .f32)) (S := Finset.univ) (q := fullShare) (Finset.subset_univ _)) $$ Hw
  iintro Hw
  iapply (wp_load Setup.𝒱₀ (V d (cV L) (jV L)) none Set.univ (m := (sR : Memref sig .scVector .vmem S4096 .f32)) (S := Finset.univ) (Finset.subset_univ _)) $$ Hr
  iintro Hr
  ihave Hr := (Entails.of_eq (pts_sR_access (F := F) d L (Rect.unit (s := S4096) off S16.size inb) g).symm) $$ Hr
  iapply (wp_store Setup.𝒱₀ (V d (cV L) (jV L)) none Set.univ (m := (sR : Memref sig .scVector .vmem S4096 .f32)) (r := Rect.unit (s := S4096) off S16.size inb) (Mk := Finset.univ) (S := Finset.univ) (Finset.subset_univ _)) $$ Hr
  iintro Hr
  rw [wp_ret]; imodintro
  iexists fw; isplitr; · ipureintro; exact hfw
  ihave Hw := (Entails.of_eq (pts_sW_access (F := F) d L fw)) $$ Hw
  isplitl [Hw]; · iexact Hw
  iexists _; isplitr
  rotate_left
  · iexact Hr
  · ipureintro
    refine fill_step (F := F) k hoff inb g _ (profRow s wrow) hg (fun x p hp => ?_)
    show (((sW : Memref sig .scVector .vmem S16 .f32).access (Rect.whole S16)).read (Elt F) fw) (idxAt ![v61] (hidx hP) x)
      = wrow (ix1 (⟨prof s (p 0).val, prof_lt _ _⟩ : Fin 16))
    have e : idxAt ![v61] (hidx hP) x = (ix1 (⟨prof s (p 0).val, prof_lt _ _⟩ : Fin 16) : S16.Idx) := by
      funext a
      apply Fin.ext
      match a with
      | ⟨0, _⟩ => show (v61 x).toNat = prof s (p 0).val; rw [hv x, hp]
    rw [e, show ((sW : Memref sig .scVector .vmem S16 .f32).access (Rect.whole S16)).read (Elt F) fw
        = (sW : Memref sig .scVector .vmem S16 .f32).view.read (Elt F) fw from Memref.read_access_whole (Elt F) (cc0_scratch0 : Ref sig .scVector) fw]
    exact hfw _

end Run

/-! ## A task's program, over what differs from task to task -/

section Task
variable (d : Dev nD) (L : grid0.Coords)

/-- A task's first part: the table row fetched into its scratch and waited for, then the counted loop that fills the
    profile row sixteen entries a trip. What differs between the four tasks of a subcore is a parameter: the row's
    offsets, the semaphore, the loop's bounds, the index check, the index vector of a trip and the store's offsets. -/
def partG (off1 : Fin 2 → Nat) (inb1 : ∀ a, off1 a + S1x16.size a ≤ S16x16.size a) (sem1 : DmaSem sig)
    (l : Scf.Loop 32) (ok : l.OK) (chk : IVec S16 32 → Prop) (dec : ∀ v, Decidable (chk v))
    (idxinb : ∀ v, chk v → ∀ a x, ((![v] : Fin 1 → IVec S16 32) a x).toNat < S16.size a)
    (pay : Fin l.trips → IVec S16 32) (offs : Fin l.trips → Fin 1 → Nat) (inb2 : ∀ k a, offs k a + S16.size a ≤ S4096.size a) :
    Prog (TpuEff nD τ sig (Elt F) Λ₀ (.scVector (cV L) (jV L))) PUnit :=
  .op (.enqueueDma (wtRowM off1 inb1) (.here (sW : Memref sig .scVector .vmem S16 .f32)) (.dma sem1)
      ((View.wordExact_bits rfl).reshape _ _) (Memref.isWhole_whole _).wordExact ⟨Or.inl rfl, trivial⟩) fun _ =>
  .op (.waitDma2 sem1 (wtRowM off1 inb1) (sW : Memref sig .scVector .vmem S16 .f32)
      ((View.wordExact_bits rfl).reshape _ _) (Memref.isWhole_whole _).wordExact) fun _ =>
  (Scf.Loop.for l ok (⟨⟩ : Unit) fun k _ =>
      .op (.assume (chk (pay k)) (dec (pay k))) fun hw =>
        SparseCore.vectorLoadIdx (sW : Memref sig .scVector .vmem S16 .f32) ![pay k] (idxinb (pay k) hw.down) (View.loads_vmem h_S16) >>= fun v62 =>
        .op (.load (sR : Memref sig .scVector .vmem S4096 .f32) (Rect.unit (s := S4096) (offs k) S16.size (inb2 k)).toLoadRect (View.loadsAt_vmem h_S16)) fun _ =>
        .op (.store (sR : Memref sig .scVector .vmem S4096 .f32) (Rect.unit (s := S4096) (offs k) S16.size (inb2 k)) v62 Finset.univ
          (View.stores_vmem_bits_univ h_S16 rfl) (.inl rfl)) fun _ => .ret (⟨⟩ : Unit))
    >>= fun _ => .ret ⟨⟩

/-- The whole task ahead of the rest of the program: its first part, then the filled row copied out to its row of the
    profile table and waited for. -/
def taskG (off1 : Fin 2 → Nat) (inb1 : ∀ a, off1 a + S1x16.size a ≤ S16x16.size a) (sem1 : DmaSem sig)
    (l : Scf.Loop 32) (ok : l.OK) (chk : IVec S16 32 → Prop) (dec : ∀ v, Decidable (chk v))
    (idxinb : ∀ v, chk v → ∀ a x, ((![v] : Fin 1 → IVec S16 32) a x).toNat < S16.size a)
    (pay : Fin l.trips → IVec S16 32) (offs : Fin l.trips → Fin 1 → Nat) (inb2 : ∀ k a, offs k a + S16.size a ≤ S4096.size a)
    (off3 : Fin 3 → Nat) (inb3 : ∀ a, off3 a + S1x1x4096.size a ≤ S16x8x4096.size a) (sem2 : DmaSem sig)
    {α : Type} (kk : Prog (TpuEff nD τ sig (Elt F) Λ₀ (.scVector (cV L) (jV L))) α) :
    Prog (TpuEff nD τ sig (Elt F) Λ₀ (.scVector (cV L) (jV L))) α :=
  partG (F := F) L off1 inb1 sem1 l ok chk dec idxinb pay offs inb2 >>= fun _ =>
  .op (.enqueueDma (sR : Memref sig .scVector .vmem S4096 .f32) (.here (v2RowM off3 inb3)) (.dma sem2)
      (Memref.isWhole_whole _).wordExact ((View.wordExact_bits rfl).reshape _ _) ⟨Or.inl rfl, trivial⟩) fun _ =>
  .op (.waitDma2 sem2 (sR : Memref sig .scVector .vmem S4096 .f32) (v2RowM off3 inb3)
      (Memref.isWhole_whole _).wordExact ((View.wordExact_bits rfl).reshape _ _)) fun _ => kk

/-- The printed parts are instances. -/
theorem part1_eq (ha2 ha3 ha4 ha5) (v2 : IVec S16 32) (v4 : BitVec 32) (h : k0_cond1 L = 1#1) :
    k0_part1 (F := F) L wtV ha2 v2V ha3 sW ha4 sR ha5 cc0_scoped0 cc0_scoped1 cc0_scoped2 cc0_scoped3 cc0_scoped4 cc0_scoped5 cc0_scoped6 cc0_scoped7 v2 v4 h
      = partG (F := F) L (k0_off1 L) (k0_off1_inb L h) cc0_scoped0.sem k0_t1_loop (k0_t1_ok L h) (k0_chk1 L) (k0_chk1.dec L)
          (fun v hw => k0_idx1_inb L v hw h) (fun k => payOf v2 v4 k.val) k0_off2 (fun k => k0_off2_inb L k h) := rfl

end Task

section Task2
variable (d : Dev nD) (L : grid0.Coords)

/-- What the copy-out leaves in the profile table's row: the profile of the transposed table. -/
theorem copy_lands {off3 : Fin 3 → Nat} (inb3 : ∀ a, off3 a + S1x1x4096.size a ≤ S16x8x4096.size a) (i : Fin 16) (r : Fin 8)
    (hoff3 : off3 = ![i.val, r.val, 0]) (f : (v2RowM off3 inb3).view.ty.Contents (Elt F)) (w : S4096.Idx → Elt F .f32)
    (wt : S16x16.Idx → Elt F .f32) (wrow : S16.Idx → Elt F .f32)
    (hwrow : ∀ j : S16.Idx, wrow j = wt (ix2 i (⟨(j 0).val, (j 0).isLt⟩ : Fin 16)))
    (hw : ∀ x : S4096.Idx, w x = profRow r.val wrow x) :
    ∀ y ∈ (v2RowM off3 inb3).view.set,
      (v2RowM off3 inb3).view.writes (Elt F) f [(⟨Rect.whole S4096, w⟩ : View.Piece (Elt F) S4096 .f32)] y = Cert.Spec.profileT wt y := by
  intro y hy
  rw [set_v2RowM inb3 i r hoff3] at hy
  unfold Setup.pRow at hy
  obtain ⟨-, h0, h1⟩ := Finset.mem_filter.mp hy
  have hemb : (v2RowM off3 inb3).view.emb (ix1 (⟨(y 2).val, (y 2).isLt⟩ : Fin 4096)) = y := by
    rw [emb_v2RowM inb3 i r hoff3]
    funext a; apply Fin.ext
    match a with
    | ⟨0, _⟩ => exact h0.symm
    | ⟨1, _⟩ => exact h1.symm
    | ⟨2, _⟩ => rfl
  have hemb' : ((v2RowM off3 inb3).view.slice (Rect.whole S4096)).emb (ix1 (⟨(y 2).val, (y 2).isLt⟩ : Fin 4096)) = y := by
    show (v2RowM off3 inb3).view.emb ((Rect.whole S4096).emb (ix1 (⟨(y 2).val, (y 2).isLt⟩ : Fin 4096))) = y
    rw [Rect.emb_whole_apply]; exact hemb
  have e := View.write_emb_of_mem (v := ((v2RowM off3 inb3).view.slice (Rect.whole S4096))) (Val := Elt F) f w (M := Finset.univ)
    (x := ix1 (⟨(y 2).val, (y 2).isLt⟩ : Fin 4096)) (Finset.mem_univ _)
  rw [hemb'] at e
  rw [View.writes_singleton, e]
  show w (ix1 (⟨(y 2).val, (y 2).isLt⟩ : Fin 4096)) = _
  rw [hw]
  unfold profRow Cert.Spec.profileT
  rw [hwrow]
  refine congrArg wt (funext fun a => ?_)
  match a with
  | ⟨0, _⟩ => exact Fin.ext h0.symm
  | ⟨1, _⟩ => exact Fin.ext (by show prof r.val (y 2).val = prof (y 1).val (y 2).val; rw [h1])

set_option maxHeartbeats 1000000 in
/-- One task, from its two rows, the two scratch buffers and its two semaphores at zero: the table row is unchanged, the
    profile row holds the profile of the table row, the semaphores are back at zero. -/
theorem task_run (i : Fin 16) (r : Fin 8) (q : PosShare TreeShare) (wt : Buf (Elt F) (Setup.tLoc d)) (f : Buf (Elt F) (Setup.pLoc d))
    (fw : Buf (Elt F) ((sW : Memref sig .scVector .vmem S16 .f32).view.loc (V d (cV L) (jV L))))
    (fr : Buf (Elt F) ((sR : Memref sig .scVector .vmem S4096 .f32).view.loc (V d (cV L) (jV L))))
    (O : CellTallies nD τ sig (HIx 1)) (W : Waits sig (HIx 1))
    {off1 : Fin 2 → Nat} (inb1 : ∀ a, off1 a + S1x16.size a ≤ S16x16.size a) (hoff1 : off1 = ![i.val, 0]) (sem1 sem2 : DmaSem sig)
    (l : Scf.Loop 32) (ok : l.OK) (htr : l.trips = 256) (chk : IVec S16 32 → Prop) (dec : ∀ v, Decidable (chk v))
    (idxinb : ∀ v, chk v → ∀ a x, ((![v] : Fin 1 → IVec S16 32) a x).toNat < S16.size a)
    (hchk : ∀ v, (∀ a x, ((![v] : Fin 1 → IVec S16 32) a x).toNat < S16.size a) → chk v)
    (pay : Fin l.trips → IVec S16 32) (hpay : ∀ (k : Fin l.trips) (x : S16.Idx), (pay k x).toNat = prof r.val (16 * k.val + (x 0).val))
    (offs : Fin l.trips → Fin 1 → Nat) (hoffs : ∀ k, offs k = ![16 * k.val]) (inb2 : ∀ k a, offs k a + S16.size a ≤ S4096.size a)
    {off3 : Fin 3 → Nat} (inb3 : ∀ a, off3 a + S1x1x4096.size a ≤ S16x8x4096.size a) (hoff3 : off3 = ![i.val, r.val, 0])
    {α : Type} (kk : Prog (TpuEff nD τ sig (Elt F) Λ₀ (.scVector (cV L) (jV L))) α) (Q : α → sProp 𝕄) :
    (iprop(Transfers.MayWaits (V d (cV L) (jV L)) (none : HIx 1) O
        ∗ (Setup.tLoc d ↦[Setup.tRow i]{q} wt) ∗ (Setup.pLoc d ↦[Setup.pRow i r]{fullShare} f)
        ∗ ((sW : Memref sig .scVector .vmem S16 .f32).view.loc (V d (cV L) (jV L)) ↦{fullShare} fw)
        ∗ ((sR : Memref sig .scVector .vmem S4096 .f32).view.loc (V d (cV L) (jV L)) ↦{fullShare} fr)
        ∗ semVal (V d (cV L) (jV L), SemLoc.dma sem1) 0 ∗ semVal (V d (cV L) (jV L), SemLoc.dma sem2) 0 ∗ owes (V d (cV L) (jV L)) O W
        ∗ (iprop((Setup.tLoc d ↦[Setup.tRow i]{q} wt)
            ∗ (Setup.pLoc d ↦[Setup.pRow i r]{fullShare} (Cert.Spec.profileT wt : Buf (Elt F) (Setup.pLoc d)))
            ∗ (∃ fw, (sW : Memref sig .scVector .vmem S16 .f32).view.loc (V d (cV L) (jV L)) ↦{fullShare} fw)
            ∗ (∃ fr, (sR : Memref sig .scVector .vmem S4096 .f32).view.loc (V d (cV L) (jV L)) ↦{fullShare} fr)
            ∗ semVal (V d (cV L) (jV L), SemLoc.dma sem1) 0 ∗ semVal (V d (cV L) (jV L), SemLoc.dma sem2) 0
            ∗ owes (V d (cV L) (jV L)) O (insert (SemLoc.dma sem2, none) (insert (SemLoc.dma sem1, none) W)))
          -∗ wp frame (wpE (defs₀ (F := F)) Setup.𝒱₀ (V d (cV L) (jV L)) none) Set.univ kk Q)) : sProp 𝕄)
      ⊢ wp frame (wpE (defs₀ (F := F)) Setup.𝒱₀ (V d (cV L) (jV L)) none) Set.univ
          (taskG (F := F) L off1 inb1 sem1 l ok chk dec idxinb pay offs inb2 off3 inb3 sem2 kk) Q := by
  have hlane : ∀ k : Fin l.trips, ∀ a x, ((![pay k] : Fin 1 → IVec S16 32) a x).toNat < S16.size a := by
    intro k a x
    obtain rfl : a = 0 := Subsingleton.elim _ _
    show (pay k x).toNat < 16
    rw [hpay]; exact prof_lt _ _
  unfold taskG partG
  simp (config := { proj := false }) only [Prog.bind_op, Prog.bind_ret, Prog.bind_assoc]
  rw [← pts_wtRowM (F := F) d L inb1 i hoff1 q wt, ← pts_v2RowM (F := F) d L inb3 i r hoff3 f,
    ← pts_v2RowM (F := F) d L inb3 i r hoff3 (Cert.Spec.profileT wt : Buf (Elt F) (Setup.pLoc d))]
  iintro ⟨#Hmw, Hwt, Hp, Hsw, Hsr, Hs1, Hs2, HO, Hk⟩
  sl_exec
  sl_for (rowInv (F := F) d L r.val ((wtRowM off1 inb1).view.read (Elt F) wt)) $$ [Hsw Hsr]
  case region =>
    intro k acc
    exact trip_run (F := F) d L r.val _ k.val (chk (pay k)) (dec (pay k)) (hchk _ (hlane k)) (pay k) (hpay k) (idxinb (pay k)) _
      (hoffs k) (inb2 k) _ _ _
  · unfold rowInv
    iexists _; isplitr
    rotate_left
    · isplitl [Hsw]; · iexact Hsw
      iexists fr; isplitr
      · ipureintro; intro p hp; omega
      · iexact Hsr
    · ipureintro; intro j; rw [View.write_whole_univ]; rfl
  iintro %_ HI
  unfold rowInv
  icases HI with ⟨%fw', %hfw', Hsw, %g, %hg, Hsr⟩
  have hg' : ∀ x : S4096.Idx, (sR : Memref sig .scVector .vmem S4096 .f32).view.read (Elt F) g x
      = profRow r.val ((wtRowM off1 inb1).view.read (Elt F) wt) x := fun x => hg x (by
    have hx : (x 0).val < 4096 := (x 0).isLt
    rw [show Scf.trips l.lb l.ub l.st = 256 from htr]; omega)
  have hwrow : ∀ j : S16.Idx, (wtRowM off1 inb1).view.read (Elt F) wt j = wt (ix2 i (⟨(j 0).val, (j 0).isLt⟩ : Fin 16)) := by
    intro j; rw [View.read_apply, emb_wtRowM inb1 i hoff1]; rfl
  sl_exec
  iapply Hk
  isplitl [Hwt]; · iexact Hwt
  isplitl [Hp]
  · irw [← pointsTo_congr (ℓ := (v2RowM off3 inb3).view.loc (V d (cV L) (jV L))) (q := fullShare) (copy_lands (F := F) inb3 i r hoff3 f _ wt _ hwrow hg')]
    iexact Hp
  isplitl [Hsw]; · iexists _; iexact Hsw
  isplitl [Hsr]; · iexists _; iexact Hsr
  isplitl [Hs1]; · iexact Hs1
  isplitl [Hs2]; · iexact Hs2
  iexact HO

end Task2

/-! ## A subcore's own semaphores and scratch buffers -/

section Peel
variable {M : Type} [URA M]

theorem bigSep_fin4 (Φ : Fin 4 → sProp M) : bigSep Finset.univ Φ = iprop(Φ 0 ∗ Φ 1 ∗ Φ 2 ∗ Φ 3) := by
  rw [show (Finset.univ : Finset (Fin 4)) = insert 0 (insert 1 (insert 2 {3})) from by decide,
    bigSep_insert (by decide), bigSep_insert (by decide), bigSep_insert (by decide), bigSep_singleton]
  rfl

end Peel

section Own
variable (d : Dev nD) (L : grid0.Coords)

/-- Two of the subcore's own DMA semaphores, at zero, out of all its own. -/
theorem ownSems0_two (a b : DmaSem sig) (hab : b ≠ a) (ha : (SemLoc.dma a : SemLoc sig).isScoped .scVector = true)
    (hb : (SemLoc.dma b : SemLoc sig).isScoped .scVector = true) :
    (ownSems0 (V d (cV L) (jV L)) : sProp 𝕄)
      = iprop(semVal (V d (cV L) (jV L), SemLoc.dma a) 0 ∗ semVal (V d (cV L) (jV L), SemLoc.dma b) 0
          ∗ bigSep (((ownCells (V d (cV L) (jV L))).erase (V d (cV L) (jV L), SemLoc.dma a)).erase (V d (cV L) (jV L), SemLoc.dma b))
              fun g => semVal g 0) := by
  unfold SparseCore.Cfg.ownSems0
  rw [SparseCore.bigSep_erase' ((mem_ownCells (g := ((V d (cV L) (jV L), SemLoc.dma a) : GSem nD τ sig))).mpr ⟨rfl, ha⟩),
    SparseCore.bigSep_erase' (Finset.mem_erase.mpr ⟨fun e => hab (SemLoc.dma.inj (Prod.mk.inj e).2),
      (mem_ownCells (g := ((V d (cV L) (jV L), SemLoc.dma b) : GSem nD τ sig))).mpr ⟨rfl, hb⟩⟩)]

/-- The two scratch buffers are among the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Own

/-! ## The four tasks and the subcore's run -/

section Tile
variable (m : (ℓ : Loc nD τ sig) → Buf (Elt F) ℓ) (d : Dev nD) (L : grid0.Coords)

/-- The lane numbers, and the number of task `u` of the subcore at `L` as a word. -/
abbrev iotaV : IVec S16 32 := iota .scVector S16 32 [0] iota_S16_d0_w32_scVector
abbrev tWord (L : grid0.Coords) (u : BitVec 32) : BitVec 32 :=
  Scalar.addi (Scalar.muli (Scalar.addi (Scalar.muli (BitVec.ofNat 32 (L 1).val) 2#32) (BitVec.ofNat 32 (L 0).val)) 4#32) u

theorem lt256 (l : Scf.Loop 32) (htr : l.trips = 256) (k : Fin l.trips) : k.val < 256 := htr ▸ k.isLt

/-- Task 1 of the subcore at `L`, ahead of the rest. -/
abbrev task1 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off1 L) (k0_off1_inb L (cond1 L)) cc0_scoped0.sem k0_t1_loop (k0_t1_ok L (cond1 L)) (k0_chk1 L) (k0_chk1.dec L)
    (fun v hw => k0_idx1_inb L v hw (cond1 L)) (fun k => payOf iotaV (tWord L 0#32) k.val) k0_off2 (fun k => k0_off2_inb L k (cond1 L))
    (k0_off3 L) (k0_off3_inb L (cond1 L)) cc0_scoped1.sem kk

/-- Task 2 of the subcore at `L`, ahead of the rest. -/
abbrev task2 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off4 L) (k0_off4_inb L (cond2 L)) cc0_scoped2.sem k0_t2_loop (k0_t2_ok L (cond2 L)) (k0_chk2 L) (k0_chk2.dec L)
    (fun v hw => k0_idx2_inb L v hw (cond2 L)) (fun k => payOf iotaV (tWord L 1#32) k.val) k0_off5 (fun k => k0_off5_inb L k (cond2 L))
    (k0_off6 L) (k0_off6_inb L (cond2 L)) cc0_scoped3.sem kk

/-- Task 3 of the subcore at `L`, ahead of the rest. -/
abbrev task3 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off7 L) (k0_off7_inb L (cond3 L)) cc0_scoped4.sem k0_t3_loop (k0_t3_ok L (cond3 L)) (k0_chk3 L) (k0_chk3.dec L)
    (fun v hw => k0_idx3_inb L v hw (cond3 L)) (fun k => payOf iotaV (tWord L 2#32) k.val) k0_off8 (fun k => k0_off8_inb L k (cond3 L))
    (k0_off9 L) (k0_off9_inb L (cond3 L)) cc0_scoped5.sem kk

/-- Task 4 of the subcore at `L`, ahead of the rest. -/
abbrev task4 (L : grid0.Coords) {α : Type} (kk : Prog (TpuEff nD τ sig (Elt F) Λ₀ (.scVector (cV L) (jV L))) α) :
    Prog (TpuEff nD τ sig (Elt F) Λ₀ (.scVector (cV L) (jV L))) α :=
  taskG (F := F) L (k0_off10 L) (k0_off10_inb L (cond4 L)) cc0_scoped6.sem k0_t4_loop (k0_t4_ok L (cond4 L)) (k0_chk4 L) (k0_chk4.dec L)
    (fun v hw => k0_idx4_inb L v hw (cond4 L)) (fun k => payOf iotaV (tWord L 3#32) k.val) k0_off11 (fun k => k0_off11_inb L k (cond4 L))
    (k0_off12 L) (k0_off12_inb L (cond4 L)) cc0_scoped7.sem kk

/-- The kernel on the subcore at `L` is its four tasks in turn. -/
theorem lambda_eq :
    cc0__lambda_ (F := F) L (Memref.whole main_v0_scv) (Memref.isWhole_whole _) (Memref.whole main_v1_scv) (Memref.isWhole_whole _)
        (Memref.whole cc0_scratch0) (Memref.isWhole_whole _) (Memref.whole cc0_scratch1) (Memref.isWhole_whole _)
        cc0_scoped0 cc0_scoped1 cc0_scoped2 cc0_scoped3 cc0_scoped4 cc0_scoped5 cc0_scoped6 cc0_scoped7
      = task1 (F := F) L (task2 (F := F) L (task3 (F := F) L (task4 (F := F) L (Prog.ret PUnit.unit)))) := by
  unfold cc0__lambda_
  simp (config := { proj := false }) only [dif_pos (cond1 L), dif_pos (cond2 L), dif_pos (cond3 L), dif_pos (cond4 L)]
  rfl

set_option maxHeartbeats 1000000 in
/-- One vector subcore's run: from its row of the transposed table and its four rows of the profile table, its four
    tasks leave each of those rows at the profile of the table. -/
theorem tile_body (hF : (Setup.K (F := F)).Facts) (O : CellTallies nD τ sig (HIx 1)) (W : Waits sig (HIx 1)) (hO : ∀ g, O g none = 0) :
    iprop(levAts (Setup.K (F := F)).L (Setup.K (F := F)).lev ∗ Setup.forTile m d (cL L) (iL L) (m (Setup.pLoc d))
        ∗ scopedBufs (V d (cV L) (jV L)) ∗ scopedSems0 (V d (cV L) (jV L)) ∗ owes (V d (cV L) (jV L)) O W)
      ⊢ wp frame (wpE (defs₀ (F := F)) Setup.𝒱₀ (V d (cV L) (jV L)) none) Set.univ
          (cc0__lambda_ L (Memref.whole main_v0_scv) (Memref.isWhole_whole _) (Memref.whole main_v1_scv) (Memref.isWhole_whole _)
            (Memref.whole cc0_scratch0) (Memref.isWhole_whole _) (Memref.whole cc0_scratch1) (Memref.isWhole_whole _)
            cc0_scoped0 cc0_scoped1 cc0_scoped2 cc0_scoped3 cc0_scoped4 cc0_scoped5 cc0_scoped6 cc0_scoped7)
          fun _ => iprop(Setup.forTile m d (cL L) (iL L) (Setup.v2Val m d) ∗ scopedBufs (V d (cV L) (jV L)) ∗ scopedSems0 (V d (cV L) (jV L))
            ∗ ∃ W', ⌜∀ p ∈ W', p ∈ W ∨ p.2 = none⌝ ∗ owes (V d (cV L) (jV L)) O W') := by
  have hc : (L 0).val < 2 := (L 0).isLt
  rw [lambda_eq (F := F) L]
  unfold Setup.forTile
  rw [(Setup.K (F := F)).scopedBufs_V hF d (cV L) (jV L), SparseCore.Cfg.scopedSems0_V (Val := Elt F) d (cV L) (jV L),
    ownBufs_V (F := F) d L, bigSep_fin4, bigSep_fin4]
  iintro ⟨#Hlv, ⟨Hwt, Hp0, Hp1, Hp2, Hp3⟩, ⟨⟨%fw, Hsw⟩, ⟨%fr, Hsr⟩, Hbufs⟩, Hsems, HO⟩
  ihave #Hmw := ((Setup.K (F := F)).mayWaits_none (thr := V d (cV L) (jV L)) hO) $$ Hlv
  -- task 1
  ihave Hsp := (Entails.of_eq (ownSems0_two (F := F) d L cc0_scoped0.sem cc0_scoped1.sem (by decide) (by decide) (by decide))) $$ Hsems
  icases Hsp with ⟨Hsa, Hsb, Hsems⟩
  iapply (task_run (F := F) d L (iL L) (Setup.res (cL L) 0) (Setup.half (cL L).val) (Setup.wtVal m d) (m (Setup.pLoc d)) fw fr O _
      (k0_off1_inb L (cond1 L)) (off1_eq L) cc0_scoped0.sem cc0_scoped1.sem k0_t1_loop (k0_t1_ok L (cond1 L)) (by decide) (k0_chk1 L) (k0_chk1.dec L)
      (fun v hw => k0_idx1_inb L v hw (cond1 L)) (fun v hv _ => hv) (fun k => payOf iotaV (tWord L 0#32) k.val)
      (fun k x => payOf_lane iota_S16_d0_w32_scVector (tWord L 0#32) (4 * (L 0).val + 0) (by omega) (resWord_t1 L) k.val (lt256 _ (by decide) k) x)
      k0_off2 k0_off2_eq (fun k => k0_off2_inb L k (cond1 L)) (k0_off3_inb L (cond1 L)) (off3_eq L) (task2 (F := F) L (task3 (F := F) L (task4 (F := F) L (Prog.ret PUnit.unit)))) _)
  isplitr; · iexact Hmw
  isplitl [Hwt]; · iexact Hwt
  isplitl [Hp0]; · iexact Hp0
  isplitl [Hsw]; · iexact Hsw
  isplitl [Hsr]; · iexact Hsr
  isplitl [Hsa]; · iexact Hsa
  isplitl [Hsb]; · iexact Hsb
  isplitl [HO]; · iexact HO
  iintro ⟨Hwt, Hp0, ⟨%fw, Hsw⟩, ⟨%fr, Hsr⟩, Hsa, Hsb, HO⟩
  ihave Hsems := (Entails.of_eq (ownSems0_two (F := F) d L cc0_scoped0.sem cc0_scoped1.sem (by decide) (by decide) (by decide)).symm) $$ [Hsa Hsb Hsems]
  · isplitl [Hsa]; · iexact Hsa
    isplitl [Hsb]; · iexact Hsb
    iexact Hsems
  -- task 2
  ihave Hsp := (Entails.of_eq (ownSems0_two (F := F) d L cc0_scoped2.sem cc0_scoped3.sem (by decide) (by decide) (by decide))) $$ Hsems
  icases Hsp with ⟨Hsa, Hsb, Hsems⟩
  iapply (task_run (F := F) d L (iL L) (Setup.res (cL L) 1) (Setup.half (cL L).val) (Setup.wtVal m d) (m (Setup.pLoc d)) fw fr O _
      (k0_off4_inb L (cond2 L)) (off4_eq L) cc0_scoped2.sem cc0_scoped3.sem k0_t2_loop (k0_t2_ok L (cond2 L)) (by decide) (k0_chk2 L) (k0_chk2.dec L)
      (fun v hw => k0_idx2_inb L v hw (cond2 L)) (fun v hv _ => hv) (fun k => payOf iotaV (tWord L 1#32) k.val)
      (fun k x => payOf_lane iota_S16_d0_w32_scVector (tWord L 1#32) (4 * (L 0).val + 1) (by omega) (resWord_t2 L) k.val (lt256 _ (by decide) k) x)
      k0_off5 k0_off5_eq (fun k => k0_off5_inb L k (cond2 L)) (k0_off6_inb L (cond2 L)) (off6_eq L) (task3 (F := F) L (task4 (F := F) L (Prog.ret PUnit.unit))) _)
  isplitr; · iexact Hmw
  isplitl [Hwt]; · iexact Hwt
  isplitl [Hp1]; · iexact Hp1
  isplitl [Hsw]; · iexact Hsw
  isplitl [Hsr]; · iexact Hsr
  isplitl [Hsa]; · iexact Hsa
  isplitl [Hsb]; · iexact Hsb
  isplitl [HO]; · iexact HO
  iintro ⟨Hwt, Hp1, ⟨%fw, Hsw⟩, ⟨%fr, Hsr⟩, Hsa, Hsb, HO⟩
  ihave Hsems := (Entails.of_eq (ownSems0_two (F := F) d L cc0_scoped2.sem cc0_scoped3.sem (by decide) (by decide) (by decide)).symm) $$ [Hsa Hsb Hsems]
  · isplitl [Hsa]; · iexact Hsa
    isplitl [Hsb]; · iexact Hsb
    iexact Hsems
  -- task 3
  ihave Hsp := (Entails.of_eq (ownSems0_two (F := F) d L cc0_scoped4.sem cc0_scoped5.sem (by decide) (by decide) (by decide))) $$ Hsems
  icases Hsp with ⟨Hsa, Hsb, Hsems⟩
  iapply (task_run (F := F) d L (iL L) (Setup.res (cL L) 2) (Setup.half (cL L).val) (Setup.wtVal m d) (m (Setup.pLoc d)) fw fr O _
      (k0_off7_inb L (cond3 L)) (off7_eq L) cc0_scoped4.sem cc0_scoped5.sem k0_t3_loop (k0_t3_ok L (cond3 L)) (by decide) (k0_chk3 L) (k0_chk3.dec L)
      (fun v hw => k0_idx3_inb L v hw (cond3 L)) (fun v hv _ => hv) (fun k => payOf iotaV (tWord L 2#32) k.val)
      (fun k x => payOf_lane iota_S16_d0_w32_scVector (tWord L 2#32) (4 * (L 0).val + 2) (by omega) (resWord_t3 L) k.val (lt256 _ (by decide) k) x)
      k0_off8 k0_off8_eq (fun k => k0_off8_inb L k (cond3 L)) (k0_off9_inb L (cond3 L)) (off9_eq L) (task4 (F := F) L (Prog.ret PUnit.unit)) _)
  isplitr; · iexact Hmw
  isplitl [Hwt]; · iexact Hwt
  isplitl [Hp2]; · iexact Hp2
  isplitl [Hsw]; · iexact Hsw
  isplitl [Hsr]; · iexact Hsr
  isplitl [Hsa]; · iexact Hsa
  isplitl [Hsb]; · iexact Hsb
  isplitl [HO]; · iexact HO
  iintro ⟨Hwt, Hp2, ⟨%fw, Hsw⟩, ⟨%fr, Hsr⟩, Hsa, Hsb, HO⟩
  ihave Hsems := (Entails.of_eq (ownSems0_two (F := F) d L cc0_scoped4.sem cc0_scoped5.sem (by decide) (by decide) (by decide)).symm) $$ [Hsa Hsb Hsems]
  · isplitl [Hsa]; · iexact Hsa
    isplitl [Hsb]; · iexact Hsb
    iexact Hsems
  -- task 4
  ihave Hsp := (Entails.of_eq (ownSems0_two (F := F) d L cc0_scoped6.sem cc0_scoped7.sem (by decide) (by decide) (by decide))) $$ Hsems
  icases Hsp with ⟨Hsa, Hsb, Hsems⟩
  iapply (task_run (F := F) d L (iL L) (Setup.res (cL L) 3) (Setup.half (cL L).val) (Setup.wtVal m d) (m (Setup.pLoc d)) fw fr O _
      (k0_off10_inb L (cond4 L)) (off10_eq L) cc0_scoped6.sem cc0_scoped7.sem k0_t4_loop (k0_t4_ok L (cond4 L)) (by decide) (k0_chk4 L) (k0_chk4.dec L)
      (fun v hw => k0_idx4_inb L v hw (cond4 L)) (fun v hv _ => hv) (fun k => payOf iotaV (tWord L 3#32) k.val)
      (fun k x => payOf_lane iota_S16_d0_w32_scVector (tWord L 3#32) (4 * (L 0).val + 3) (by omega) (resWord_t4 L) k.val (lt256 _ (by decide) k) x)
      k0_off11 k0_off11_eq (fun k => k0_off11_inb L k (cond4 L)) (k0_off12_inb L (cond4 L)) (off12_eq L) (Prog.ret PUnit.unit) _)
  isplitr; · iexact Hmw
  isplitl [Hwt]; · iexact Hwt
  isplitl [Hp3]; · iexact Hp3
  isplitl [Hsw]; · iexact Hsw
  isplitl [Hsr]; · iexact Hsr
  isplitl [Hsa]; · iexact Hsa
  isplitl [Hsb]; · iexact Hsb
  isplitl [HO]; · iexact HO
  iintro ⟨Hwt, Hp3, ⟨%fw, Hsw⟩, ⟨%fr, Hsr⟩, Hsa, Hsb, HO⟩
  ihave Hsems := (Entails.of_eq (ownSems0_two (F := F) d L cc0_scoped6.sem cc0_scoped7.sem (by decide) (by decide) (by decide)).symm) $$ [Hsa Hsb Hsems]
  · isplitl [Hsa]; · iexact Hsa
    isplitl [Hsb]; · iexact Hsb
    iexact Hsems
  rw [wp_ret]; imodintro
  isplitl [Hwt Hp0 Hp1 Hp2 Hp3]
  · isplitl [Hwt]; · iexact Hwt
    isplitl [Hp0]; · iexact Hp0
    isplitl [Hp1]; · iexact Hp1
    isplitl [Hp2]; · iexact Hp2
    iexact Hp3
  isplitl [Hsw Hsr Hbufs]
  · isplitl [Hsw]; · iexists _; iexact Hsw
    isplitl [Hsr]; · iexists _; iexact Hsr
    iexact Hbufs
  isplitl [Hsems]; · iexact Hsems
  iexists _; isplitr
  rotate_left
  · iexact HO
  · ipureintro; intro p hp
    simp only [Finset.mem_insert] at hp
    rcases hp with rfl | rfl | rfl | rfl | rfl | rfl | rfl | rfl | hp
    all_goals first | exact .inr rfl | exact .inl hp

end Tile

end Cert.Proof.KernelIdeal.Tile
-- ==== Proof.KI.TcBody.lean ====
/-
  The second kernel's body, run once at symbolic operands.

  The body is 256 unrolled trips. Trip `g` computes `off = 2047 - 8 g`, loads the 2176 columns of the eight input rows
  that start at the multiple of 128 below `off`, rotates them so that column `off` comes first, keeps the first 2048
  columns and stores them as rows `8 g … 8 g + 7` of the output block. The run below goes through the printed parts
  one theorem per part; what it leaves in the output buffer — the list of the 256 stored pieces over contents nothing
  names, since the pieces cover the block — is the witness of the subtype, found by the run. The input buffer is only
  read and is handed back as it was.
-/
import proofs.«204505_g54743653155399_cont_9to1_m_379_15_alg».proof.Proof.KI.Setup
import proofs.«204505_g54743653155399_cont_9to1_m_379_15_alg».proof.Proof.Gen.KernelIdeal.Skeleton
import Idealize.ShloMosaic.Lib.Tactic

noncomputable section

namespace Cert.Proof.KernelIdeal.TcBody

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp (Setup.MM F) :=
  M.view.loc (c : Thread nD τ) ↦{fullShare} f

set_option maxHeartbeats 4000000 in
/-- What the body leaves in the output block's buffer, WITH the proof that from the two buffers held whole — the input
    at `f0`, the output at anything — the body runs to its return, handing back the input as it was and the output at
    the witness. -/
noncomputable def bodyRun (c : Dev nD) (i : grid1.Coords)
    (M0 : Memref sig .tc .vmem S1x8x4096 .f32) (h0 : M0.IsWhole) (M1 : Memref sig .tc .vmem S1x1x2048x2048 .f32) (h1 : M1.IsWhole)
    (f0 : Bf (F := F) c M0) :
    { W : Bf (F := F) c M1 // ∀ (f1 : Bf (F := F) c M1) (E : Set ℕ) (Q : PUnit → sProp (Setup.MM F)),
        iprop(pt c M0 f0 ∗ pt c M1 f1 ∗ (iprop(pt c M0 f0 ∗ pt c M1 W) -∗ Q ⟨⟩))
          ⊢ wp frame (wpE (defs₀ (F := F)) Variants.none c none) E (cc1__lambda_ i M0 h0 M1 h1) Q } := by
  refine ⟨?_, fun f1 E Q => ?run⟩
  case run =>
    iintro ⟨H0, H1, Hk⟩
    sl_exec_parts!
    sl_step
    iapply Hk
    isplitl [H0]
    · iexact H0
    · iexact H1

end Cert.Proof.KernelIdeal.TcBody

end
-- ==== Proof.KI.TcPiece.lean ====
/-
  One trip of the second kernel's body, as mathematics: what the trip stores, read at an index.

  Trip `g` loads the strip of 2176 columns of the eight input rows that starts at column `128 q`, where
  `q = (2047 - 8 g) / 128`; rotates it along the columns by `2176 - m` places, `m = (2047 - 8 g) % 128`; keeps
  the first 2048 columns; and stores them as rows `8 g … 8 g + 7` of the output block. A rotation by `k` places
  puts at column `j` what stood at column `j - k`, taken around the end; so with `k = 2176 - m` column `j` of the
  rotated strip is column `j + m` of the strip when `j + m < 2176`, which holds for the 2048 columns kept since
  `m < 128`. Column `j + m` of the strip is column `128 q + m + j = 2047 - 8 g + j` of the input. Hence the stored
  piece at `(0, 0, s, j)` is the input at `(0, s, 2047 - 8 g + j)`, which is what the block's windows read at row
  `8 g + s`, column `j`.
-/
import proofs.«204505_g54743653155399_cont_9to1_m_379_15_alg».proof.KernelIdeal
import proofs.«204505_g54743653155399_cont_9to1_m_379_15_alg».proof.Proof.Gen.KernelIdeal
import proofs.«204505_g54743653155399_cont_9to1_m_379_15_alg».proof.Proof.Spec
import Idealize.ShloMosaic.Lib.ValueLayout
import Idealize.ShloMosaic.Lib.KernelVsHost

namespace Cert.Proof.KernelIdeal.TcPiece

open Cert.KernelIdeal Cert.KernelIdeal.Gen
open Idealize.ShloMosaic Idealize.ShloMosaic.ValueIdx

variable {α : Type}

/-- One trip's stored piece as a function of the rotation amount and of the strip it loaded: the strip without its
    leading unit axis, rotated along the columns, cut to its first 2048 columns, with two leading unit axes. -/
abbrev piece (amt : BitVec 32) (v : S1x8x2176.Idx → α) : S1x1x8x2048.Idx → α :=
  shapeCast S1x1x8x2048
    (extractStridedSlice S8x2048 ![0, 0]
      (dynamicRotate 1 amt none (shapeCast S8x2176 v shapeCasts_S1x8x2176_S8x2176) rotates_S8x2176_d1)
      slices_S8x2176_o0_0_S8x2048)
    shapeCasts_S8x2048_S1x1x8x2048

/-- An `[a, b]` array given two leading unit axes reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- The piece read at `(0, 0, s, j)`: the strip at `(0, s, j + m)`, when the rotation is by `2176 - m` places and
    `m < 128`, so that none of the first 2048 columns comes from around the end. -/
theorem piece_apply (amt : BitVec 32) (m : Nat) (hm : m < 128) (hamt : amt.toNat = 2176 - m)
    (v : S1x8x2176.Idx → α) (u w : Fin 1) (s : Fin 8) (j : Fin 2048) :
    piece amt v (ix4 u w s j) = v (ix3 (0 : Fin 1) s (⟨j.val + m, by omega⟩ : Fin 2176)) := by
  unfold piece
  rw [shapeCast_ab_11ab_apply]
  rw [slice2_axis1_apply 0 _ slices_S8x2176_o0_0_S8x2048 s j (⟨j.val, by omega⟩ : Fin 2176) (by simp)]
  rw [dynamicRotate_apply (1 : Fin 2) amt _ rotates_S8x2176_d1 _ (ix2 s (⟨j.val + m, by omega⟩ : Fin 2176)) (by
    intro b
    match b with
    | ⟨0, _⟩ => rfl
    | ⟨1, _⟩ =>
      show j.val + m = (j.val + 2176 - amt.toNat % 2176) % 2176
      rw [hamt]
      have hj := j.isLt
      by_cases h0 : m = 0
      · subst h0; simp; omega
      · rw [Nat.mod_eq_of_lt (by omega), Nat.mod_eq_of_lt (by omega)]; omega)]
  rw [shapeCast_1ab_ab_apply]

/-- Trip `g`'s piece is the window of the input block: with the strip loaded at the trip's own offsets and the
    rotation by `2176 - (2047 - 8 g) % 128` places, the piece at its index `x` is the input where the block's
    windows read it at the place `x` lands in the output block. -/
theorem piece_window (X : S1x8x4096.Idx → α) (i : grid1.Coords) (g : Fin 256) (amt : BitVec 32)
    (hamt : amt.toNat = 2176 - (2047 - 8 * g.val) % 128)
    (inb1 : ∀ a, k1_off1 i (BitVec.ofNat 32 g.val) a + S1x8x2176.size a ≤ S1x8x4096.size a)
    (inb2 : ∀ a, k1_off2 (BitVec.ofNat 32 g.val) a + S1x1x8x2048.size a ≤ S1x1x2048x2048.size a)
    (x : S1x1x8x2048.Idx) :
    piece amt (fun j => X ((Rect.unit (s := S1x8x4096) (k1_off1 i (BitVec.ofNat 32 g.val)) S1x8x2176.size inb1).toLoadRect.idx j)) x
      = Cert.Spec.windowsBlock X ((Rect.unit (s := S1x1x2048x2048) (k1_off2 (BitVec.ofNat 32 g.val)) S1x1x8x2048.size inb2).emb x) := by
  obtain ⟨u, w, s, j, rfl⟩ : ∃ (u w : Fin 1) (s : Fin 8) (j : Fin 2048), x = ix4 u w s j := ⟨x 0, x 1, x 2, x 3, eq_ix4 x⟩
  have hi1 : (i 1).val = 0 := by have h : (i 1).val < 1 := (i 1).isLt; omega
  have hg := g.isLt
  have hs := s.isLt
  have hj := j.isLt
  rw [piece_apply amt ((2047 - 8 * g.val) % 128) (Nat.mod_lt _ (by decide)) hamt]
  unfold Cert.Spec.windowsBlock
  refine congrArg X (funext fun a => ?_)
  match a with
  | ⟨0, _⟩ =>
    apply Fin.ext
    show k1_off1 i (BitVec.ofNat 32 g.val) 0 + 1 * 0 = 0
    rw [k1_off1_eq]; rfl
  | ⟨1, _⟩ =>
    apply Fin.ext
    show k1_off1 i (BitVec.ofNat 32 g.val) 1 + 1 * s.val = (k1_off2 (BitVec.ofNat 32 g.val) 2 + 1 * s.val) % 8
    rw [k1_off1_eq, k1_off2_eq]
    show 0 + 1 * s.val = (8 * g.val + 1 * s.val) % 8
    omega
  | ⟨2, _⟩ =>
    apply Fin.ext
    show k1_off1 i (BitVec.ofNat 32 g.val) 2 + 1 * (j.val + (2047 - 8 * g.val) % 128)
      = 2047 - 8 * ((k1_off2 (BitVec.ofNat 32 g.val) 2 + 1 * s.val) / 8) + (k1_off2 (BitVec.ofNat 32 g.val) 3 + 1 * j.val)
    rw [k1_off1_eq, k1_off2_eq]
    show 128 * ((2047 - (2048 * (i 1).val + 8 * g.val)) / 128) + 1 * (j.val + (2047 - 8 * g.val) % 128)
      = 2047 - 8 * ((8 * g.val + 1 * s.val) / 8) + (0 + 1 * j.val)
    rw [hi1]
    omega

/-- The same in the form each of the 256 stored pieces has: the trip's counter as the 32-bit word the program passes,
    the strip as what a load through the trip's rectangle reads of a buffer, the store's offsets as numbers. -/
theorem piece_window' {sig : RefSig} {κ : Kind} {sp : Space} {Val : EltTy → Type}
    (v : View sig κ sp S1x8x4096 .f32) (f : v.ty.Contents Val) (i : grid1.Coords)
    (gb : BitVec 32) (hg : gb.toNat < 256) (amt : BitVec 32)
    (hamt : amt.toNat = 2176 - (2047 - 8 * gb.toNat) % 128)
    (inb1 : ∀ a, k1_off1 i gb a + S1x8x2176.size a ≤ S1x8x4096.size a)
    (off2 : Fin 4 → Nat) (hoff2 : off2 = ![0, 0, 8 * gb.toNat, 0])
    (inb2 : ∀ a, off2 a + S1x1x8x2048.size a ≤ S1x1x2048x2048.size a)
    (x : S1x1x8x2048.Idx) :
    piece amt (v.readAt Val (Rect.unit (s := S1x8x4096) (k1_off1 i gb) S1x8x2176.size inb1).toLoadRect f) x
      = Cert.Spec.windowsBlock (v.read Val f) ((Rect.unit (s := S1x1x2048x2048) off2 S1x1x8x2048.size inb2).emb x) := by
  obtain ⟨g, rfl⟩ : ∃ g : Fin 256, gb = BitVec.ofNat 32 g.val :=
    ⟨⟨gb.toNat, hg⟩, BitVec.eq_of_toNat_eq (by rw [BitVec.toNat_ofNat]; exact (Nat.mod_eq_of_lt gb.isLt).symm)⟩
  have hgv : (BitVec.ofNat 32 g.val).toNat = g.val := by
    rw [BitVec.toNat_ofNat]; exact Nat.mod_eq_of_lt (by have := g.isLt; omega)
  rw [hgv] at hamt hoff2
  have e : off2 = k1_off2 (BitVec.ofNat 32 g.val) := by rw [hoff2, k1_off2_eq]
  subst e
  exact piece_window (v.read Val f) i g amt hamt inb1 inb2 x

end Cert.Proof.KernelIdeal.TcPiece
-- ==== Proof.KI.TcValue.lean ====
/-
  What the second kernel's body leaves in its output block, read as a function of the block's index.

  The run of the body leaves the 256 stored pieces over contents nothing names. Read back through any whole memref of
  the block's shape that is the function taking, at each index, the payload of the piece that holds the index. The
  pieces are eight rows each and tile the 2048 rows, so every index is held; and every piece is the block's windows of
  the input block at the place the piece lands — the per-trip lemma at the trip's own rotation amount and offsets, which
  are closed 32-bit terms once the grid point's second coordinate, which has only the value 0, is written out. Hence the
  output block is the windows of the input block.
-/
import proofs.«204505_g54743653155399_cont_9to1_m_379_15_alg».proof.Proof.KI.TcBody
import proofs.«204505_g54743653155399_cont_9to1_m_379_15_alg».proof.Proof.KI.TcPiece
import Idealize.ShloMosaic.Lib.Pipeline.FrameBody
import Idealize.ShloMosaic.Lib.Pipeline.Value
import Idealize.ShloMosaic.Lib.Ring

noncomputable section

namespace Cert.Proof.KernelIdeal.TcBody

open Cert.KernelIdeal Cert.KernelIdeal.Gen Cert.Proof.KernelIdeal.TcPiece
open Idealize.ShloMosaic Idealize.ShloMosaic.ValueIdx
open Idealize.ShloMosaic.TcCoe Idealize.ShloMosaic.Tactic

variable {F : FTy → Type} [FloatOps F]

/-- A grid point with its second coordinate written out: the grid's second axis has one point. -/
def pt2 (i0 : Fin 16) : grid1.Coords := fun a => match a with
  | ⟨0, _⟩ => i0
  | ⟨1, _⟩ => (0 : Fin 1)
  | ⟨_ + 2, h⟩ => absurd h (Nat.not_lt.2 (Nat.le_add_left _ _))

theorem eq_pt2 (i : grid1.Coords) : i = pt2 (i 0) := by
  funext a
  match a with
  | ⟨0, _⟩ => rfl
  | ⟨1, _⟩ => exact Fin.ext (by have h : (i 1).val < 1 := (i 1).isLt; show (i 1).val = 0; omega)

set_option maxHeartbeats 200000 in
/-- What the run leaves in the output block's buffer: the 256 stored pieces, last store first, over contents nothing
    names. -/
theorem witness_eq (c : Dev nD) (i : grid1.Coords)
    (M0 : Memref sig .tc .vmem S1x8x4096 .f32) (h0 : M0.IsWhole) (M1 : Memref sig .tc .vmem S1x1x2048x2048 .f32) (h1 : M1.IsWhole)
    (f0 : Bf (F := F) c M0) :
    (bodyRun c i M0 h0 M1 h1 f0).1 = M1.view.writes (Elt F) M1.view.junk (bodyRun.sl.H1_256 c i M0 f0) := by
  first
    | (delta bodyRun; dsimp only; done)
    | (delta bodyRun; dsimp only; rfl)

set_option maxHeartbeats 2000000 in
set_option maxRecDepth 65536 in
/-- Every stored piece is the block's windows of the input at the place the piece lands: the per-trip lemma at each of
    the 256 trips, the trip's rotation amount and offsets evaluated. -/
theorem pieces_window (c : Dev nD) (i0 : Fin 16) (M0 : Memref sig .tc .vmem S1x8x4096 .f32) (f0 : Bf (F := F) c M0) :
    ∀ p ∈ bodyRun.sl.H1_256 c (pt2 i0) M0 f0, ∀ x : p.1.shape.Idx,
      p.2 x = Cert.Spec.windowsBlock (M0.view.read (Elt F) f0) (p.1.emb x) := by
  refine List.forall_mem_cons.2 ⟨fun x => piece_window' (Val := Elt F) M0.view f0 (pt2 i0) _ (by decide +kernel) _ (by decide +revert +kernel) _ _ (by rfl) (by decide +kernel) x, ?_⟩
  repeat (refine List.forall_mem_cons.2 ⟨fun x => piece_window' (Val := Elt F) M0.view f0 (pt2 i0) _ (by decide +kernel) _ (by decide +revert +kernel) _ _ (by rfl) (by decide +kernel) x, ?_⟩)
  first | exact fun _ h => absurd h List.not_mem_nil | fail "the walk over the pieces stopped early"

set_option maxHeartbeats 400000 in
set_option maxRecDepth 65536 in
/-- The 256 pieces, eight rows each, tile the block's 2048 rows: every index of the block lies in one of them. -/
theorem pieces_cover (c : Dev nD) (i : grid1.Coords) (M0 : Memref sig .tc .vmem S1x8x4096 .f32) (f0 : Bf (F := F) c M0)
    (y : S1x1x2048x2048.Idx) : ∃ p ∈ bodyRun.sl.H1_256 c i M0 f0, y ∈ p.1.set :=
  View.cover_of_tiledL (bodyRun.sl.H1_256 c i M0 f0) S1x1x8x2048.size (by sl_kernel_rfl) y

set_option maxHeartbeats 200000 in
/-- What the body leaves in the output block, read through the block's memref: the windows of the input block. -/
theorem bodyRun_read (c : Dev nD) (i : grid1.Coords)
    (M0 : Memref sig .tc .vmem S1x8x4096 .f32) (h0 : M0.IsWhole) (M1 : Memref sig .tc .vmem S1x1x2048x2048 .f32) (h1 : M1.IsWhole)
    (f0 : Bf (F := F) c M0) :
    M1.view.read (Elt F) (bodyRun c i M0 h0 M1 h1 f0).1 = Cert.Spec.windowsBlock (M0.view.read (Elt F) f0) := by
  obtain ⟨i0, rfl⟩ : ∃ i0, i = pt2 i0 := ⟨i 0, eq_pt2 i⟩
  rw [witness_eq, View.read_writes_junk_eq_canon]
  funext y
  exact View.canon_apply_of_pieces (Cert.Spec.windowsBlock (M0.view.read (Elt F) f0)) _ (pieces_window c i0 M0 f0) y
    (pieces_cover c (pt2 i0) M0 f0 y)

end Cert.Proof.KernelIdeal.TcBody

end
-- ==== Proof.RefRun.lean ====
/-
  The reference program's run.

  The reference is a straight line of host operations: @main's own eighteen lines, with the three functions it
  calls (the clip, the gather-with-fill, and inside that one the select) unfolded at their call sites — forty-five
  operations in all, each writing one buffer of its own. So every weakly fair execution terminates, and each
  buffer ends at the fold of the operations over the contents at launch. The two argument buffers are written by
  no operation and end as they began.
-/
import proofs.«204505_g54743653155399_cont_9to1_m_379_15_alg».proof.Defs
import proofs.«204505_g54743653155399_cont_9to1_m_379_15_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The forty-five operations, in program order: nine of @main, the six of the clip, four of @main, the
    twenty-three of the gather-with-fill (its seventh the inner select), and @main's last three. -/
abbrev ops : List (HloOp τ sig (Elt F)) :=
  [ nullary main_v0 (iotaInDim S2048 32 0),
    unary main_v0 main_v1 (broadcastInDim S2048x1 ![0] bcast_S2048_S2048x1_0 : (⟨S2048, .i32⟩ : BufTy).Contents (Elt F) → (⟨S2048x1, .i32⟩ : BufTy).Contents (Elt F)),
    nullary main_v2 (iotaInDim S2048 32 0),
    unary main_v2 main_v3 (broadcastInDim S1x2048 ![1] bcast_S2048_S1x2048_1 : (⟨S2048, .i32⟩ : BufTy).Contents (Elt F) → (⟨S1x2048, .i32⟩ : BufTy).Contents (Elt F)),
    unary main_v3 main_v4 (broadcastInDim S2048x2048 ![0, 1] bcast_S1x2048_S2048x2048_0_1 : (⟨S1x2048, .i32⟩ : BufTy).Contents (Elt F) → (⟨S2048x2048, .i32⟩ : BufTy).Contents (Elt F)),
    unary main_v1 main_v5 (broadcastInDim S2048x2048 ![0, 1] bcast_S2048x1_S2048x2048_0_1 : (⟨S2048x1, .i32⟩ : BufTy).Contents (Elt F) → (⟨S2048x2048, .i32⟩ : BufTy).Contents (Elt F)),
    binary main_v4 main_v5 main_v6 (subi : (⟨S2048x2048, .i32⟩ : BufTy).Contents (Elt F) → (⟨S2048x2048, .i32⟩ : BufTy).Contents (Elt F) → (⟨S2048x2048, .i32⟩ : BufTy).Contents (Elt F)),
    nullary main_c (constantI S_ 32 4294967289#32),
    nullary main_c_0 (constantI S_ 32 7#32),
    TRef.unary (.of main_c) main_call0.v0 id,
    TRef.unary main_call0.v0 main_call0.v1 (broadcastInDim S2048x2048 ![] bcast_S_S2048x2048),
    TRef.binary main_call0.v1 (.of main_v6) main_call0.v2 maxsi,
    TRef.unary (.of main_c_0) main_call0.v3 id,
    TRef.unary main_call0.v3 main_call0.v4 (broadcastInDim S2048x2048 ![] bcast_S_S2048x2048),
    TRef.binary main_call0.v4 main_call0.v2 main_call0.v5 minsi,
    nullary main_c_1 (constantI S_ 32 7#32),
    unary main_c_1 main_v8 (broadcastInDim S2048x2048 ![] bcast_S_S2048x2048 : (⟨S_, .i32⟩ : BufTy).Contents (Elt F) → (⟨S2048x2048, .i32⟩ : BufTy).Contents (Elt F)),
    binary main_v7 main_v8 main_v9 (addi : (⟨S2048x2048, .i32⟩ : BufTy).Contents (Elt F) → (⟨S2048x2048, .i32⟩ : BufTy).Contents (Elt F) → (⟨S2048x2048, .i32⟩ : BufTy).Contents (Elt F)),
    reshape main_v9 main_v10 rfl shapeCasts_S2048x2048_S4194304,
    TRef.nullary main_call1.c (constantI S_ 32 0#32),
    TRef.unary main_call1.c main_call1.v0 (broadcastInDim S4194304 ![] bcast_S_S4194304),
    TRef.binary (.of main_v10) main_call1.v0 main_call1.v1 (cmpi .slt),
    TRef.nullary main_call1.c_0 (constantI S_ 32 16#32),
    TRef.unary main_call1.c_0 main_call1.v2 (broadcastInDim S4194304 ![] bcast_S_S4194304),
    TRef.binary (.of main_v10) main_call1.v2 main_call1.v3 addi,
    TRef.ternary main_call1.v1 main_call1.v3 (.of main_v10) main_call1.call0.v0 select,
    TRef.unary main_call1.call0.v0 main_call1.v5 (broadcastInDim S4194304x1 ![0] bcast_S4194304_S4194304x1_0),
    TRef.nullary main_call1.c_1 (constantI S1 32 15#32),
    TRef.nullary main_call1.c_2 (constantI S_ 32 0#32),
    TRef.unary main_call1.c_2 main_call1.v6 (broadcastInDim S4194304x1 ![] bcast_S_S4194304x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4194304x1 ![0, 1] bcast_S1x1_S4194304x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4194304x1_S4194304_d1 h_S_),
    TRef.binary (.of main_arg1) main_call1.v5 main_call1.v13 (fun x i => Host.gather gather_S16x16_S4194304x1_S4194304x16_1_0_n_n_0_1_116 x i),
    TRef.unary main_call1.v12 main_call1.v14 (broadcastInDim S4194304x16 ![0] bcast_S4194304_S4194304x16_0),
    TRef.nullary main_call1.cst (constant S_ .f32 0x7FC00000#32),
    TRef.unary main_call1.cst main_call1.v15 (broadcastInDim S4194304x16 ![] bcast_S_S4194304x16),
    TRef.ternary main_call1.v14 main_call1.v13 main_call1.v15 main_call1.v16 select,
    reshape main_v11 main_v12 rfl shapeCasts_S4194304x16_S2048x2048x16,
    unary main_v12 main_v13 ((transpose S16x2048x2048 [2, 0, 1] · transposes_S2048x2048x16_S16x2048x2048_2_0_1) : (⟨S2048x2048x16, .f32⟩ : BufTy).Contents (Elt F) → (⟨S16x2048x2048, .f32⟩ : BufTy).Contents (Elt F)),
    unary main_v13 main_v14 (broadcastInDim S16x1x2048x2048 ![0, 2, 3] bcast_S16x2048x2048_S16x1x2048x2048_0_2_3 : (⟨S16x2048x2048, .f32⟩ : BufTy).Contents (Elt F) → (⟨S16x1x2048x2048, .f32⟩ : BufTy).Contents (Elt F)) ]

-- forty-five binds re-associated: the rewrite under the chain recurses once per statement
set_option maxRecDepth 1024 in
/-- @main is that straight line: with the three functions' bodies unfolded at their calls, both sides are one
    chain of steps once the sequencing is re-associated. -/
theorem main_eq (c : Dev nD) : main (F := F) c = seq ops := by
  simp only [main, fn_clip.body, fn_where.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., unary_bufs_sub ..,
    binary_bufs_sub .., nullary_bufs_sub .., nullary_bufs_sub ..,
    unary_bufs_sub .., unary_bufs_sub .., binary_bufs_sub .., unary_bufs_sub .., unary_bufs_sub .., binary_bufs_sub ..,
    nullary_bufs_sub .., unary_bufs_sub .., binary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub .., unary_bufs_sub ..⟩

/-- For any float values, from any memory with zero counters: every weakly fair execution of @main terminates,
    and every buffer ends at the fold of the forty-five operations over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-- The run with the result left as the fold: it terminates, and the two arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v14) = after ops (launchContents m c) (main_v14 : DevRef τ sig)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v14, (h c main_arg0).trans (arg0_eq _), (h c main_arg1).trans (arg1_eq _)⟩)
    (run_main m ρ)

end Cert.ReferenceIdeal.RefRun

end
-- ==== Proof.RefValue.lean ====
/-
  The reference program's value.

  The reference computes, for a table `W` of sixteen rows and sixteen columns, the array
  `out[h, 0, i, j] = W[clip(j - i, -7, 7) + 7, h]`: it builds the offsets `clip(j - i, -7, 7) + 7` on 32-bit words,
  flattens them, looks the rows of `W` up at them, fills a lookup that falls outside the table with a fixed
  literal, and lays the rows out as `[h, 0, i, j]`.

  Three facts carry the proof. On words, for `i, j < 2048` nothing wraps: the difference `j - i`, its signed maximum
  with `-7`, the signed minimum of that with `7`, and the sum with `7` are, read signed, the integers they look like,
  so the word is the natural number `min 14 (j + 7 - i)`. Hence it is never negative (a negative index would count
  from the end of the table) and it lies within `0 … 15`, so the range test is one at every entry, its
  and-reduction is one, and the fill is never selected. And the lookup at `(n, h)`, whose start index is read signed
  and capped to the table, reads row `min 14 (j + 7 - i)` at column `h` for `n = 2048 i + j`.

  The forty-five operations are read in stretches, each over the contents the stretch before leaves: the offsets
  table (nineteen operations), the index column (eight), the range test (ten, kept as one array and never opened at
  an index: its reduction runs over four million entries), the lookup with its fill (five), the layout (three).
-/
import proofs.«204505_g54743653155399_cont_9to1_m_379_15_alg».proof.Proof.RefRun
import proofs.«204505_g54743653155399_cont_9to1_m_379_15_alg».proof.Proof.Spec
import Idealize.ShloMosaic.Lib.ValueIdx
import Idealize.ShloMosaic.Lib.WordArith
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx Idealize.ShloMosaic.WordArith

/-! ## The offset as a 32-bit word -/

/-- The program's word for row `i` and column `j`: the difference `j - i`, raised to at least `-7`, lowered to at
    most `7`, plus `7`; all on 32-bit words, the comparisons signed. -/
def word (i j : Nat) : BitVec 32 :=
  IntOp.addi (IntOp.minsi 7#32 (IntOp.maxsi 4294967289#32 (IntOp.subi (BitVec.ofNat 32 j) (BitVec.ofNat 32 i)))) 7#32

/-- Nothing wraps below 2048: read signed, the word is the clipped, shifted offset. -/
theorem word_toInt (i j : Nat) (hi : i < 2048) (hj : j < 2048) : (word i j).toInt = (Cert.Spec.rel i j : Int) := by
  have ej := toInt_ofNat_small j (by omega)
  have ei := toInt_ofNat_small i (by omega)
  have e7 : (7#32 : BitVec 32).toInt = 7 := by decide
  have em7 : (4294967289#32 : BitVec 32).toInt = -7 := by decide
  have ed : (IntOp.subi (BitVec.ofNat 32 j) (BitVec.ofNat 32 i)).toInt = (j : Int) - i := by
    show (BitVec.ofNat 32 j - BitVec.ofNat 32 i).toInt = _
    rw [toInt_sub_of_bounds _ _ (by rw [ej, ei]; omega) (by rw [ej, ei]; omega), ej, ei]
  unfold word
  generalize IntOp.subi (BitVec.ofNat 32 j) (BitVec.ofNat 32 i) = d at ed
  have em : (IntOp.maxsi 4294967289#32 d).toInt = max (-7) d.toInt := by
    unfold IntOp.maxsi
    by_cases h : d.slt 4294967289#32 = true
    · rw [if_pos h]; rw [BitVec.slt_iff_toInt_lt, em7] at h; rw [em7]; omega
    · rw [if_neg h]; rw [BitVec.slt_iff_toInt_lt, em7] at h; omega
  generalize IntOp.maxsi 4294967289#32 d = m at em
  have ec : (IntOp.minsi 7#32 m).toInt = min 7 m.toInt := by
    unfold IntOp.minsi
    by_cases h : (7#32 : BitVec 32).slt m = true
    · rw [if_pos h]; rw [BitVec.slt_iff_toInt_lt, e7] at h; rw [e7]; omega
    · rw [if_neg h]; rw [BitVec.slt_iff_toInt_lt, e7] at h; omega
  generalize IntOp.minsi 7#32 m = c at ec
  show (c + 7#32).toInt = _
  rw [toInt_add_of_bounds _ _ (by rw [e7, ec, em, ed]; omega) (by rw [e7, ec, em, ed]; omega), e7, ec, em, ed]
  unfold Cert.Spec.rel
  omega

/-- The word is not negative, so a lookup never counts from the end. -/
theorem word_slt_zero (i j : Nat) (hi : i < 2048) (hj : j < 2048) : IntOp.cmpi .slt (word i j) 0#32 = 0#1 := by
  have h := word_toInt i j hi hj
  have h0 : (0#32 : BitVec 32).toInt = 0 := by decide
  have hf : (word i j).slt 0#32 = false := by
    rw [Bool.eq_false_iff]; intro hs; rw [BitVec.slt_iff_toInt_lt, h0] at hs; omega
  show BitVec.ofBool ((word i j).slt 0#32) = 0#1
  rw [hf]; rfl

/-- The word is at least zero … -/
theorem word_sge_zero (i j : Nat) (hi : i < 2048) (hj : j < 2048) : IntOp.cmpi .sge (word i j) 0#32 = 1#1 := by
  have h := word_toInt i j hi hj
  have h0 : (0#32 : BitVec 32).toInt = 0 := by decide
  have ht : (0#32 : BitVec 32).sle (word i j) = true := by
    rw [BitVec.sle_iff_toInt_le, h0]; omega
  show BitVec.ofBool ((0#32 : BitVec 32).sle (word i j)) = 1#1
  rw [ht]; rfl

/-- … and at most fifteen: the lookup is inside the table. -/
theorem word_sle_fifteen (i j : Nat) (hi : i < 2048) (hj : j < 2048) : IntOp.cmpi .sle (word i j) 15#32 = 1#1 := by
  have h := word_toInt i j hi hj
  have h15 : (15#32 : BitVec 32).toInt = 15 := by decide
  have hr := Cert.Spec.rel_lt i j
  have ht : (word i j).sle 15#32 = true := by
    rw [BitVec.sle_iff_toInt_le, h15]; omega
  show BitVec.ofBool ((word i j).sle 15#32) = 1#1
  rw [ht]; rfl

/-- The row a lookup reads: the word read signed, capped at the last row, is the offset itself. -/
theorem word_row (i j : Nat) (hi : i < 2048) (hj : j < 2048) : min (word i j).toInt.toNat 15 = Cert.Spec.rel i j := by
  have h := word_toInt i j hi hj
  have hr := Cert.Spec.rel_lt i j
  omega

variable {F : FTy → Type} [FloatOps F]

/-! ## The program in three stretches

The first nineteen operations build the flat table of offsets; the next eight turn it into the lookup's index column
(a negative index would count from the end); the last eighteen (taken in three parts) look the rows up, fill what is out of range, and lay
the result out. Each stretch reads only what the stretch before leaves in one buffer, and the table `W`. -/

/-- The first stretch: the flat table of offsets. -/
abbrev opsA : List (HloOp τ sig (Elt F)) :=
  [ nullary main_v0 (iotaInDim S2048 32 0),
    unary main_v0 main_v1 (broadcastInDim S2048x1 ![0] bcast_S2048_S2048x1_0 : (⟨S2048, .i32⟩ : BufTy).Contents (Elt F) → (⟨S2048x1, .i32⟩ : BufTy).Contents (Elt F)),
    nullary main_v2 (iotaInDim S2048 32 0),
    unary main_v2 main_v3 (broadcastInDim S1x2048 ![1] bcast_S2048_S1x2048_1 : (⟨S2048, .i32⟩ : BufTy).Contents (Elt F) → (⟨S1x2048, .i32⟩ : BufTy).Contents (Elt F)),
    unary main_v3 main_v4 (broadcastInDim S2048x2048 ![0, 1] bcast_S1x2048_S2048x2048_0_1 : (⟨S1x2048, .i32⟩ : BufTy).Contents (Elt F) → (⟨S2048x2048, .i32⟩ : BufTy).Contents (Elt F)),
    unary main_v1 main_v5 (broadcastInDim S2048x2048 ![0, 1] bcast_S2048x1_S2048x2048_0_1 : (⟨S2048x1, .i32⟩ : BufTy).Contents (Elt F) → (⟨S2048x2048, .i32⟩ : BufTy).Contents (Elt F)),
    binary main_v4 main_v5 main_v6 (subi : (⟨S2048x2048, .i32⟩ : BufTy).Contents (Elt F) → (⟨S2048x2048, .i32⟩ : BufTy).Contents (Elt F) → (⟨S2048x2048, .i32⟩ : BufTy).Contents (Elt F)),
    nullary main_c (constantI S_ 32 4294967289#32),
    nullary main_c_0 (constantI S_ 32 7#32),
    TRef.unary (.of main_c) main_call0.v0 id,
    TRef.unary main_call0.v0 main_call0.v1 (broadcastInDim S2048x2048 ![] bcast_S_S2048x2048),
    TRef.binary main_call0.v1 (.of main_v6) main_call0.v2 maxsi,
    TRef.unary (.of main_c_0) main_call0.v3 id,
    TRef.unary main_call0.v3 main_call0.v4 (broadcastInDim S2048x2048 ![] bcast_S_S2048x2048),
    TRef.binary main_call0.v4 main_call0.v2 main_call0.v5 minsi,
    nullary main_c_1 (constantI S_ 32 7#32),
    unary main_c_1 main_v8 (broadcastInDim S2048x2048 ![] bcast_S_S2048x2048 : (⟨S_, .i32⟩ : BufTy).Contents (Elt F) → (⟨S2048x2048, .i32⟩ : BufTy).Contents (Elt F)),
    binary main_v7 main_v8 main_v9 (addi : (⟨S2048x2048, .i32⟩ : BufTy).Contents (Elt F) → (⟨S2048x2048, .i32⟩ : BufTy).Contents (Elt F) → (⟨S2048x2048, .i32⟩ : BufTy).Contents (Elt F)),
    reshape main_v9 main_v10 rfl shapeCasts_S2048x2048_S4194304 ]

/-- The second stretch: the lookup's index column. -/
abbrev opsB : List (HloOp τ sig (Elt F)) :=
  [ TRef.nullary main_call1.c (constantI S_ 32 0#32),
    TRef.unary main_call1.c main_call1.v0 (broadcastInDim S4194304 ![] bcast_S_S4194304),
    TRef.binary (.of main_v10) main_call1.v0 main_call1.v1 (cmpi .slt),
    TRef.nullary main_call1.c_0 (constantI S_ 32 16#32),
    TRef.unary main_call1.c_0 main_call1.v2 (broadcastInDim S4194304 ![] bcast_S_S4194304),
    TRef.binary (.of main_v10) main_call1.v2 main_call1.v3 addi,
    TRef.ternary main_call1.v1 main_call1.v3 (.of main_v10) main_call1.call0.v0 select,
    TRef.unary main_call1.call0.v0 main_call1.v5 (broadcastInDim S4194304x1 ![0] bcast_S4194304_S4194304x1_0) ]

/-- The third stretch, first part: the range test, ending in its and-reduction. -/
abbrev opsC1 : List (HloOp τ sig (Elt F)) :=
  [ TRef.nullary main_call1.c_1 (constantI S1 32 15#32),
    TRef.nullary main_call1.c_2 (constantI S_ 32 0#32),
    TRef.unary main_call1.c_2 main_call1.v6 (broadcastInDim S4194304x1 ![] bcast_S_S4194304x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4194304x1 ![0, 1] bcast_S1x1_S4194304x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4194304x1_S4194304_d1 h_S_) ]

/-- The third stretch, second part: the lookup and the fill. -/
abbrev opsC2 : List (HloOp τ sig (Elt F)) :=
  [ TRef.binary (.of main_arg1) main_call1.v5 main_call1.v13 (fun x i => Host.gather gather_S16x16_S4194304x1_S4194304x16_1_0_n_n_0_1_116 x i),
    TRef.unary main_call1.v12 main_call1.v14 (broadcastInDim S4194304x16 ![0] bcast_S4194304_S4194304x16_0),
    TRef.nullary main_call1.cst (constant S_ .f32 0x7FC00000#32),
    TRef.unary main_call1.cst main_call1.v15 (broadcastInDim S4194304x16 ![] bcast_S_S4194304x16),
    TRef.ternary main_call1.v14 main_call1.v13 main_call1.v15 main_call1.v16 select ]

/-- The third stretch, last part: the layout. -/
abbrev opsC3 : List (HloOp τ sig (Elt F)) :=
  [ reshape main_v11 main_v12 rfl shapeCasts_S4194304x16_S2048x2048x16,
    unary main_v12 main_v13 ((transpose S16x2048x2048 [2, 0, 1] · transposes_S2048x2048x16_S16x2048x2048_2_0_1) : (⟨S2048x2048x16, .f32⟩ : BufTy).Contents (Elt F) → (⟨S16x2048x2048, .f32⟩ : BufTy).Contents (Elt F)),
    unary main_v13 main_v14 (broadcastInDim S16x1x2048x2048 ![0, 2, 3] bcast_S16x2048x2048_S16x1x2048x2048_0_2_3 : (⟨S16x2048x2048, .f32⟩ : BufTy).Contents (Elt F) → (⟨S16x1x2048x2048, .f32⟩ : BufTy).Contents (Elt F)) ]

theorem ops_split : (RefRun.ops : List (HloOp τ sig (Elt F))) = opsA ++ (opsB ++ (opsC1 ++ (opsC2 ++ opsC3))) := rfl

/-- Running two lists one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons]; exact ih _

/-! ## The first stretch at an index -/

/-- Entry `n = 2048 i + j` of the flat table is the word for row `i` and column `j`. -/
theorem A_at (V : Valuation τ sig (Elt F)) (n : Fin 4194304) :
    (after opsA V (main_v10 : DevRef τ sig) : IVec S4194304 32) (ix1 n) = word (n.val / 2048) (n.val % 2048) := by
  have hn := n.isLt
  after_results_simp
  refine (shapeCast_apply _ _ (ix1 n) (ix2 (⟨n.val / 2048, by omega⟩ : Fin 2048) (⟨n.val % 2048, by omega⟩ : Fin 2048))
    (by rw [Shape.rowMajor_val_two, Shape.rowMajor_val_one]
        show n.val / 2048 * 2048 + n.val % 2048 = n.val
        omega)).trans ?_
  rfl

theorem A_arg1 (V : Valuation τ sig (Elt F)) :
    after opsA V (main_arg1 : DevRef τ sig) = V (main_arg1 : DevRef τ sig) := by
  after_results_simp

/-! ## The second stretch at an index -/

/-- The lookup's index for entry `n` is the table's word there, sixteen added if it is negative. -/
theorem B_at (V : Valuation τ sig (Elt F)) (k : S4194304x1.Idx) :
    (after opsB V (main_call1_v5 : DevRef τ sig) : IVec S4194304x1 32) k
      = Scalar.select
          (IntOp.cmpi .slt ((V (main_v10 : DevRef τ sig) : IVec S4194304 32) (ix1 (⟨(k 0).val, (k 0).isLt⟩ : Fin 4194304))) 0#32)
          (IntOp.addi ((V (main_v10 : DevRef τ sig) : IVec S4194304 32) (ix1 (⟨(k 0).val, (k 0).isLt⟩ : Fin 4194304))) 16#32)
          ((V (main_v10 : DevRef τ sig) : IVec S4194304 32) (ix1 (⟨(k 0).val, (k 0).isLt⟩ : Fin 4194304))) := by
  after_results_simp
  simp only [TRef.toBuf, TRef.ofBuf, cast_eq]
  refine (broadcastInDim_apply (s := S4194304) (t := S4194304x1) ![0] bcast_S4194304_S4194304x1_0 _ k (ix1 (⟨(k 0).val, (k 0).isLt⟩ : Fin 4194304)) (fun a => match a with | ⟨0, _⟩ => rfl)).trans ?_
  rfl

theorem B_arg1 (V : Valuation τ sig (Elt F)) :
    after opsB V (main_arg1 : DevRef τ sig) = V (main_arg1 : DevRef τ sig) := by
  after_results_simp

/-! ## The lookup and the range test at an index -/

/-- A row lookup read at `(n, h)`: row `idx[n, 0]` of the table, read signed and capped to the sixteen rows, at
    column `h`. -/
theorem gather_apply {α : Type} (W : S16x16.Idx → α) (idx : IVec S4194304x1 32) (y : S4194304x16.Idx) :
    Host.gather gather_S16x16_S4194304x1_S4194304x16_1_0_n_n_0_1_116 W idx y
      = W (ix2 (⟨min (idx (ix2 (⟨(y 0).val, (y 0).isLt⟩ : Fin 4194304) (0 : Fin 1))).toInt.toNat 15, by omega⟩ : Fin 16)
            (⟨(y 1).val, (y 1).isLt⟩ : Fin 16)) := by
  unfold Host.gather
  congr 1
  funext a
  refine Fin.ext ?_
  match a with
  | ⟨0, _⟩ =>
    show gather_S16x16_S4194304x1_S4194304x16_1_0_n_n_0_1_116.start y idx 0
        + gather_S16x16_S4194304x1_S4194304x16_1_0_n_n_0_1_116.batchCoord y 0
        + gather_S16x16_S4194304x1_S4194304x16_1_0_n_n_0_1_116.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x16_S4194304x1_S4194304x16_1_0_n_n_0_1_116.startIndexMap from List.mem_singleton.mpr rfl)]
    have hsi : gather_S16x16_S4194304x1_S4194304x16_1_0_n_n_0_1_116.siIdx y
        ⟨List.idxOf (0 : Fin 2) gather_S16x16_S4194304x1_S4194304x16_1_0_n_n_0_1_116.startIndexMap,
          List.idxOf_lt_length_iff.2 (List.mem_singleton.mpr rfl)⟩
        = ix2 (⟨(y 0).val, (y 0).isLt⟩ : Fin 4194304) (0 : Fin 1) := by
      funext b; refine Fin.ext ?_
      match b with
      | ⟨0, _⟩ => rfl
      | ⟨1, _⟩ => rfl
    rw [hsi]
    rfl
  | ⟨1, _⟩ =>
    show gather_S16x16_S4194304x1_S4194304x16_1_0_n_n_0_1_116.start y idx 1
        + gather_S16x16_S4194304x1_S4194304x16_1_0_n_n_0_1_116.batchCoord y 1
        + gather_S16x16_S4194304x1_S4194304x16_1_0_n_n_0_1_116.offCoord y 1 = (y 1).val
    rw [GatherDims.batchCoord_eq_zero _ _ _ List.not_mem_nil]
    unfold GatherDims.start
    rw [dif_neg (show (1 : Fin 2) ∉ gather_S16x16_S4194304x1_S4194304x16_1_0_n_n_0_1_116.startIndexMap from by decide)]
    unfold GatherDims.offCoord
    rw [dif_pos (show (1 : Fin 2) ∈ gather_S16x16_S4194304x1_S4194304x16_1_0_n_n_0_1_116.sKept from by decide)]
    simp only [Nat.zero_add, Nat.add_zero]
    rfl

/-- A left fold by `and` from one over words that are all one stays one. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf, show IntOp.andi (1#1 : BitVec 1) 1#1 = 1#1 from by decide]
    exact foldl_andi_one f hf l

/-- An `and`-reduction from one of an array that is one everywhere is one everywhere. -/
theorem reduce_andi_one {s t u : Shape} {axes : List (Fin s.rank)} (x : s.Idx → BitVec 1) (init : u.Idx → BitVec 1)
    (h : s.ReducesTo axes t) (hu : 0 < u.numel) (hx : ∀ k, x k = 1#1) (hi : ∀ k, init k = 1#1) (j : t.Idx) :
    Host.reduce IntOp.andi x init h hu j = 1#1 := by
  unfold Host.reduce
  rw [hi]
  exact foldl_andi_one (fun n => x (s.rowMajor.symm n)) (fun n => hx _) _

/-- A select on a condition that is one is its first branch. -/
theorem select_of_one {α : Type} {c : BitVec 1} (a b : α) (h : c = 1#1) : Scalar.select c a b = a := by
  subst h; exact select_one a b

/-! ## The third stretch -/

/-- The range test as one array: the and-reduction, over the unit axis, of "at least zero and at most fifteen" on the
    index column. It is stated of whole arrays and never read at an index here. -/
theorem C1_eq (V : Valuation τ sig (Elt F)) :
    after opsC1 V (main_call1_v12 : DevRef τ sig)
      = (Host.reduce IntOp.andi
          (andi (cmpi .sge (V (main_call1_v5 : DevRef τ sig) : IVec S4194304x1 32)
              (broadcastInDim S4194304x1 ![] bcast_S_S4194304x1 (constantI S_ 32 0#32)))
            (cmpi .sle (V (main_call1_v5 : DevRef τ sig) : IVec S4194304x1 32)
              (broadcastInDim S4194304x1 ![0, 1] bcast_S1x1_S4194304x1_0_1
                (broadcastInDim S1x1 ![1] bcast_S1_S1x1_1 (constantI S1 32 15#32)))))
          (constantI S_ 1 1#1) reducesTo_S4194304x1_S4194304_d1 h_S_ : IVec S4194304 1) := by
  after_results_simp
  simp only [TRef.toBuf, TRef.ofBuf, cast_eq]

theorem C1_v5 (V : Valuation τ sig (Elt F)) :
    after opsC1 V (main_call1_v5 : DevRef τ sig) = V (main_call1_v5 : DevRef τ sig) := by
  after_results_simp

theorem C1_arg1 (V : Valuation τ sig (Elt F)) :
    after opsC1 V (main_arg1 : DevRef τ sig) = V (main_arg1 : DevRef τ sig) := by
  after_results_simp

/-- The lookup with its fill at an index: the select between the looked-up row and the literal, on the range test
    broadcast along the row. -/
theorem C2_at (V : Valuation τ sig (Elt F)) (k : S4194304x16.Idx) :
    (after opsC2 V (main_v11 : DevRef τ sig) : FVec F S4194304x16 .f32) k
      = Scalar.select
          (broadcastInDim S4194304x16 ![0] bcast_S4194304_S4194304x16_0 (V (main_call1_v12 : DevRef τ sig) : IVec S4194304 1) k)
          (Host.gather gather_S16x16_S4194304x1_S4194304x16_1_0_n_n_0_1_116
            (V (main_arg1 : DevRef τ sig) : FVec F S16x16 .f32) (V (main_call1_v5 : DevRef τ sig) : IVec S4194304x1 32) k)
          (broadcastInDim S4194304x16 ![] bcast_S_S4194304x16 (constant (F := F) S_ .f32 0x7FC00000#32) k) := by
  after_results_simp
  simp only [TRef.toBuf, TRef.ofBuf, cast_eq]
  exact select_apply _ _ _ _

/-- The layout at an index: the result at `(h, 0, i, j)` is the lookup's row `2048 i + j` at column `h`. -/
theorem C3_at (V : Valuation τ sig (Elt F)) (y : S16x1x2048x2048.Idx) :
    (after opsC3 V (main_v14 : DevRef τ sig) : FVec F S16x1x2048x2048 .f32) y
      = (V (main_v11 : DevRef τ sig) : FVec F S4194304x16 .f32)
          (ix2 (⟨(y 2).val * 2048 + (y 3).val, by have h2 : (y 2).val < 2048 := (y 2).isLt; have h3 : (y 3).val < 2048 := (y 3).isLt; omega⟩ : Fin 4194304)
            (⟨(y 0).val, (y 0).isLt⟩ : Fin 16)) := by
  have h0 : (y 0).val < 16 := (y 0).isLt
  have h2 : (y 2).val < 2048 := (y 2).isLt
  have h3 : (y 3).val < 2048 := (y 3).isLt
  after_results_simp
  refine (broadcastInDim_apply (s := S16x2048x2048) (t := S16x1x2048x2048) ![0, 2, 3] bcast_S16x2048x2048_S16x1x2048x2048_0_2_3 _ y
    (ix3 (⟨(y 0).val, h0⟩ : Fin 16) (⟨(y 2).val, h2⟩ : Fin 2048) (⟨(y 3).val, h3⟩ : Fin 2048))
    (fun a => match a with | ⟨0, _⟩ => rfl | ⟨1, _⟩ => rfl | ⟨2, _⟩ => rfl)).trans ?_
  refine (transpose_apply (s := S2048x2048x16) (t := S16x2048x2048) [2, 0, 1] _ transposes_S2048x2048x16_S16x2048x2048_2_0_1 _
    (ix3 (⟨(y 2).val, h2⟩ : Fin 2048) (⟨(y 3).val, h3⟩ : Fin 2048) (⟨(y 0).val, h0⟩ : Fin 16))
    (fun b => match b with | ⟨0, _⟩ => rfl | ⟨1, _⟩ => rfl | ⟨2, _⟩ => rfl)).trans ?_
  exact shapeCast_apply (s := S4194304x16) (t := S2048x2048x16) _ shapeCasts_S4194304x16_S2048x2048x16 _
    (ix2 (⟨(y 2).val * 2048 + (y 3).val, by omega⟩ : Fin 4194304) (⟨(y 0).val, h0⟩ : Fin 16))
    (by rw [Shape.rowMajor_val_two, Shape.rowMajor_val_three]
        show ((y 2).val * 2048 + (y 3).val) * 16 + (y 0).val = ((y 2).val * 2048 + (y 3).val) * 16 + (y 0).val
        rfl)

/-- With every lookup index the table's word, the third stretch leaves at `(h, 0, i, j)` the table `W` at the offset's
    row and column `h`: the range test is one everywhere, so the fill is never taken, and the row read is the offset
    itself. -/
theorem C_at (V : Valuation τ sig (Elt F))
    (hw : ∀ k : S4194304x1.Idx, (V (main_call1_v5 : DevRef τ sig) : IVec S4194304x1 32) k
      = word ((k 0).val / 2048) ((k 0).val % 2048))
    (y : S16x1x2048x2048.Idx) :
    (after (opsC1 ++ (opsC2 ++ opsC3)) V (main_v14 : DevRef τ sig) : FVec F S16x1x2048x2048 .f32) y
      = Cert.Spec.bias (V (main_arg1 : DevRef τ sig) : FVec F S16x16 .f32) y := by
  have h0 : (y 0).val < 16 := (y 0).isLt
  have h2 : (y 2).val < 2048 := (y 2).isLt
  have h3 : (y 3).val < 2048 := (y 3).isLt
  rw [after_append, after_append, C3_at, C2_at, C1_eq, C1_v5, C1_arg1]
  refine (select_of_one _ _ ?hc).trans ?_
  case hc =>
    refine (broadcastInDim_apply (s := S4194304) (t := S4194304x16) ![0] bcast_S4194304_S4194304x16_0 _ _
      (ix1 (⟨(y 2).val * 2048 + (y 3).val, by omega⟩ : Fin 4194304)) (fun a => match a with | ⟨0, _⟩ => rfl)).trans ?_
    refine reduce_andi_one _ _ _ _ (fun k => ?_) (fun _ => rfl) _
    have hk : (k 0).val < 4194304 := (k 0).isLt
    show IntOp.andi (IntOp.cmpi .sge ((V (main_call1_v5 : DevRef τ sig) : IVec S4194304x1 32) k) 0#32)
        (IntOp.cmpi .sle ((V (main_call1_v5 : DevRef τ sig) : IVec S4194304x1 32) k) 15#32) = 1#1
    rw [hw k, word_sge_zero _ _ (by omega) (by omega), word_sle_fifteen _ _ (by omega) (by omega)]
    rfl
  refine (gather_apply _ _ _).trans ?_
  show (V (main_arg1 : DevRef τ sig) : FVec F S16x16 .f32) _
    = (V (main_arg1 : DevRef τ sig) : FVec F S16x16 .f32)
        (ix2 (⟨Cert.Spec.rel (y 2).val (y 3).val, Cert.Spec.rel_lt _ _⟩ : Fin 16) (⟨(y 0).val, (y 0).isLt⟩ : Fin 16))
  refine congrArg (V (main_arg1 : DevRef τ sig) : FVec F S16x16 .f32) (congrArg₂ ix2 (Fin.ext ?_) (Fin.ext rfl))
  show min (((V (main_call1_v5 : DevRef τ sig) : IVec S4194304x1 32)
      (ix2 (⟨(y 2).val * 2048 + (y 3).val, by omega⟩ : Fin 4194304) (0 : Fin 1))).toInt.toNat) 15 = Cert.Spec.rel (y 2).val (y 3).val
  rw [hw]
  show min (word (((y 2).val * 2048 + (y 3).val) / 2048) (((y 2).val * 2048 + (y 3).val) % 2048)).toInt.toNat 15 = _
  rw [show ((y 2).val * 2048 + (y 3).val) / 2048 = (y 2).val from by omega,
    show ((y 2).val * 2048 + (y 3).val) % 2048 = (y 3).val from by omega]
  exact word_row _ _ h2 h3

/-! ## The whole program at an index, and its run -/

/-- The lookup's index column after the first two stretches holds the table's words. -/
theorem index_at (V : Valuation τ sig (Elt F)) (k : S4194304x1.Idx) :
    (after opsB (after opsA V) (main_call1_v5 : DevRef τ sig) : IVec S4194304x1 32) k
      = word ((k 0).val / 2048) ((k 0).val % 2048) := by
  have hk : (k 0).val < 4194304 := (k 0).isLt
  rw [B_at, A_at]
  show Scalar.select (IntOp.cmpi .slt (word ((k 0).val / 2048) ((k 0).val % 2048)) 0#32)
      (IntOp.addi (word ((k 0).val / 2048) ((k 0).val % 2048)) 16#32) (word ((k 0).val / 2048) ((k 0).val % 2048)) = _
  rw [word_slt_zero _ _ (by omega) (by omega), select_zero]

/-- The forty-five operations leave, at `(h, 0, i, j)` of the result, the table `W` at row `clip(j - i, -7, 7) + 7`
    and column `h`. -/
theorem out_eq (V : Valuation τ sig (Elt F)) :
    after RefRun.ops V (main_v14 : DevRef τ sig)
      = Cert.Spec.bias (V (main_arg1 : DevRef τ sig) : FVec F S16x16 .f32) := by
  rw [ops_split, after_append, after_append]
  funext y
  rw [C_at _ (index_at V) y, B_arg1, A_arg1]

end Cert.ReferenceIdeal.RefValue

namespace Cert.ReferenceIdeal.RefValue

open Idealize.ShloMosaic Idealize.SL.Sem

/-- The reference's run with its value: from any memory with zero counters every weakly fair execution terminates;
    the result buffer ends at the relative-position bias of the table in the second argument, and the two arguments
    end unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v14)
            = Cert.Spec.bias (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono
    (fun _ h c => ⟨(h c).1.trans (out_eq (StableHlo.launchContents m c)), (h c).2.1, (h c).2.2⟩)
    (Cert.ReferenceIdeal.RefRun.frame (F := Ideal) m ρ)

end Cert.ReferenceIdeal.RefValue

end
-- ==== Proof.lean ====
/-
  The proof of the certificate's claim for the relative-position bias.

  The result is `out[h, 0, i, j] = W[clip(j - i, -7, 7) + 7, h]`. The reference computes it by a gather over the flattened
  offsets; the kernel transposes `W`, builds on the vector subcores a profile table `v2[h, s, p] = wt[h, clip(p - s - 2040, 0, 14)]`
  and then, head by head, writes each row `i = 8 g + s` of the result as the window of 2048 entries of profile `(h, s)`
  starting at `2047 - 8 g`. Both are re-indexings of `W` and agree by `(2047 - 8 g + j) - s - 2040 = j + 7 - i` (with both sides
  clipped at zero alike): no arithmetic on the entries, so the two programs agree at every float instance and the
  precondition is never opened.

  The three frames are the three runs with the value dropped; the ideal pass rewrote nothing, so `preserves` is trivial;
  `algebraic` is the idealized kernel's run and the reference's run side by side at the one function `Cert.Spec.bias`.
-/
import proofs.«204505_g54743653155399_cont_9to1_m_379_15_alg».proof.Defs
import proofs.«204505_g54743653155399_cont_9to1_m_379_15_alg».proof.Proof.Gen.Kernel
import proofs.«204505_g54743653155399_cont_9to1_m_379_15_alg».proof.Proof.Gen.KernelIdeal
import proofs.«204505_g54743653155399_cont_9to1_m_379_15_alg».proof.Proof.Gen.ReferenceIdeal
import proofs.«204505_g54743653155399_cont_9to1_m_379_15_alg».proof.Proof.Gen.Pre_finite_inputs
import proofs.«204505_g54743653155399_cont_9to1_m_379_15_alg».proof.Proof.KB.Launch
import proofs.«204505_g54743653155399_cont_9to1_m_379_15_alg».proof.Proof.KB.TileBody
import proofs.«204505_g54743653155399_cont_9to1_m_379_15_alg».proof.Proof.KB.TcValue
import proofs.«204505_g54743653155399_cont_9to1_m_379_15_alg».proof.Proof.KI.Launch
import proofs.«204505_g54743653155399_cont_9to1_m_379_15_alg».proof.Proof.KI.TileBody
import proofs.«204505_g54743653155399_cont_9to1_m_379_15_alg».proof.Proof.KI.TcValue
import proofs.«204505_g54743653155399_cont_9to1_m_379_15_alg».proof.Proof.RefValue
import Idealize.ShloMosaic.Adequacy
import Idealize.ShloMosaic.Init

noncomputable section

namespace Cert.Proof

open Idealize.ShloMosaic Idealize.SL.Sem

/-- The kernel as printed: its run with the value dropped. -/
theorem frame_k : Cert.frame_Kernel := fun m ρ _ =>
  (θ_run Cert.Kernel.defs _ _).mono (fun _ h c => ⟨(h c).2.1, (h c).2.2⟩)
    (Cert.Proof.Kernel.Launch.run_main (F := Bits) m ρ
      ⟨Cert.Proof.Kernel.TcBody.bodyRun, Cert.Proof.Kernel.TcBody.bodyRun_read⟩
      (fun d L O W hO => Cert.Proof.Kernel.Tile.tile_body m d L Cert.Proof.Kernel.Setup.facts O W hO))

/-- The idealized kernel: the same run at the ideal instance. -/
theorem frame_ki : Cert.frame_KernelIdeal := fun m ρ _ =>
  (θ_run Cert.KernelIdeal.defs _ _).mono (fun _ h c => ⟨(h c).2.1, (h c).2.2⟩)
    (Cert.Proof.KernelIdeal.Launch.run_main (F := Ideal) m ρ
      ⟨Cert.Proof.KernelIdeal.TcBody.bodyRun, Cert.Proof.KernelIdeal.TcBody.bodyRun_read⟩
      (fun d L O W hO => Cert.Proof.KernelIdeal.Tile.tile_body m d L Cert.Proof.KernelIdeal.Setup.facts O W hO))

/-- The reference: its run with the value dropped. -/
theorem frame_ri : Cert.frame_ReferenceIdeal := fun m ρ _ =>
  (θ_run Cert.ReferenceIdeal.defs _ _).mono (fun _ h c => (h c).2) (Cert.ReferenceIdeal.RefValue.run m ρ)

/-- Both idealized programs end with the result at `Cert.Spec.bias` of the table they were launched with, and they were
    launched with the same table. -/
theorem algebraic : Cert.algebraic_KernelIdeal_ReferenceIdeal := by
  intro m ρ m' ρ' _ hagree
  refine ⟨fun c => Cert.Proof.KernelIdeal.Setup.outVal m c, ?_, ?_⟩
  · exact (θ_run Cert.KernelIdeal.defs _ _).mono (fun _ h c => h c)
      (Cert.Proof.KernelIdeal.Launch.run_main (F := Ideal) m ρ
        ⟨Cert.Proof.KernelIdeal.TcBody.bodyRun, Cert.Proof.KernelIdeal.TcBody.bodyRun_read⟩
        (fun d L O W hO => Cert.Proof.KernelIdeal.Tile.tile_body m d L Cert.Proof.KernelIdeal.Setup.facts O W hO))
  · refine (θ_run Cert.ReferenceIdeal.defs _ _).mono (fun _ h c => ⟨(h c).1.trans ?_, (h c).2⟩)
      (Cert.ReferenceIdeal.RefValue.run m' ρ')
    rw [(hagree c).2]
    exact (Cert.Proof.KernelIdeal.Setup.outVal_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
